-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S8x2x200000 : Shape := ⟨3, ![8, 2, 200000]⟩
abbrev S100000 : Shape := ⟨1, ![100000]⟩
abbrev S16x64 : Shape := ⟨2, ![16, 64]⟩
abbrev S64 : Shape := ⟨1, ![64]⟩
abbrev S3x64x64 : Shape := ⟨3, ![3, 64, 64]⟩
abbrev S3x64 : Shape := ⟨2, ![3, 64]⟩
abbrev S3x8x64x64 : Shape := ⟨4, ![3, 8, 64, 64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S3x8x64x64 : S_.BroadcastsInDim S3x8x64x64 (![] : Fin 0 → Fin S3x8x64x64.rank)
  reducesTo_S3x8x64x64_S_d0_1_2_3 : S3x8x64x64.ReducesTo [0, 1, 2, 3] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64 .f32) (main_arg10 : FVec F S64x1 .f32) (main_arg11 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S3x64 .f32) (main_arg7 : FVec F S3x8x64x64 .f32) (main_arg8 : FVec F S64x64 .f32) (main_arg9 : FVec F S64 .f32) (main_arg10 : FVec F S64x1 .f32) (main_arg11 : FVec F S1 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x8x64x64 .f32 := Host.absf main_arg7
  let main_cst_8 : FVec F S_ .f32 := constant S_ .f32 0x7F800000#32
  let main_v25 : FVec F S3x8x64x64 .f32 := broadcastInDim S3x8x64x64 ![] bcast_S_S3x8x64x64 main_cst_8
  let main_v26 : IVec S3x8x64x64 1 := cmpf .olt main_v24 main_v25
  let main_c_9 : IVec S_ 1 := constantI S_ 1 1#1
  let main_v27 : IVec S_ 1 := (fun x v => Host.reduce IntOp.andi x v reducesTo_S3x8x64x64_S_d0_1_2_3 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x16 .f32) (main_arg1 : IVec S8x2x200000 32) (main_arg2 : IVec S100000 32) (main_arg3 : FVec F S16x64 .f32) (main_arg4 : FVec F S64 .f32) (main_arg5 : FVec F S3x64x64 .f32) (main_arg6 : FVec F S3x64 .f32) (main_arg7 : FVec F S3x8x64x64 .f32) (main_arg8 : FVec F S64x64 .f32) (main_arg9 : FVec F S64 .f32) (main_arg10 : FVec F S64x1 .f32) (main_arg11 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x64 .f32 := Host.absf main_arg3
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_arg9 main_arg10 main_arg11 main_v13 main_v16
-- ==== Kernel.lean ====
abbrev S100000x16 : Shape := ⟨2, ![100000, 16]⟩
abbrev S8x2x200000 : Shape := ⟨3, ![8, 2, 200000]⟩
abbrev S100000 : Shape := ⟨1, ![100000]⟩
abbrev S16x64 : Shape := ⟨2, ![16, 64]⟩
abbrev S64 : Shape := ⟨1, ![64]⟩
abbrev S3x64x64 : Shape := ⟨3, ![3, 64, 64]⟩
abbrev S3x64 : Shape := ⟨2, ![3, 64]⟩
abbrev S3x8x64x64 : Shape := ⟨4, ![3, 8, 64, 64]⟩
abbrev S64x64 : Shape := ⟨2, ![64, 64]⟩
abbrev S64x1 : Shape := ⟨2, ![64, 1]⟩
abbrev S1 : Shape := ⟨1, ![1]⟩
abbrev S1x64 : Shape := ⟨2, ![1, 64]⟩
abbrev S100000x64 : Shape := ⟨2, ![100000, 64]⟩
abbrev S4000x16 : Shape := ⟨2, ![4000, 16]⟩
abbrev S4000x64 : Shape := ⟨2, ![4000, 64]⟩
abbrev S8x1x200000 : Shape := ⟨3, ![8, 1, 200000]⟩
abbrev S8x200000 : Shape := ⟨2, ![8, 200000]⟩
abbrev S1600000 : Shape := ⟨1, ![1600000]⟩
abbrev S1x64x64 : Shape := ⟨3, ![1, 64, 64]⟩
abbrev S1x8x64x64 : Shape := ⟨4, ![1, 8, 64, 64]⟩
abbrev S8x64x64 : Shape := ⟨3, ![8, 64, 64]⟩
abbrev S8x100000x64 : Shape := ⟨3, ![8, 100000, 64]⟩
abbrev S1x4000x64 : Shape := ⟨3, ![1, 4000, 64]⟩
abbrev S_ : Shape := ⟨0, ![]⟩
abbrev S8x200000x1 : Shape := ⟨3, ![8, 200000, 1]⟩
abbrev S8x200000x64 : Shape := ⟨3, ![8, 200000, 64]⟩
abbrev S1600000x64 : Shape := ⟨2, ![1600000, 64]⟩
abbrev S1600000x1 : Shape := ⟨2, ![1600000, 1]⟩
abbrev S32x64 : Shape := ⟨2, ![32, 64]⟩
abbrev S100000x1 : Shape := ⟨2, ![100000, 1]⟩
abbrev S32 : Shape := ⟨1, ![32]⟩
abbrev S32x1 : Shape := ⟨2, ![32, 1]⟩
abbrev S1x1 : Shape := ⟨2, ![1, 1]⟩

abbrev nBuf : Space → Nat
  | .hbm => 122
  | .vmem => 60
  | .smem => 0
  | _ => 0

abbrev bufTy : (tb : Table) → Fin (tcTables nBuf tb) → BufTy
  | .hbm, ⟨0, _⟩ => ⟨S100000x16, .f32⟩
  | .hbm, ⟨1, _⟩ => ⟨S8x2x200000, .i32⟩
  | .hbm, ⟨2, _⟩ => ⟨S100000, .i32⟩
  | .hbm, ⟨3, _⟩ => ⟨S16x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S3x8x64x64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S1x64, .f32⟩
  | .hbm, ⟨13, _⟩ => ⟨S100000x64, .f32⟩
  | .hbm, ⟨14, _⟩ => ⟨S8x1x200000, .i32⟩
  | .hbm, ⟨15, _⟩ => ⟨S8x200000, .i32⟩
  | .hbm, ⟨16, _⟩ => ⟨S8x1x200000, .i32⟩
  | .hbm, ⟨17, _⟩ => ⟨S8x200000, .i32⟩
  | .hbm, ⟨18, _⟩ => ⟨S1600000, .i32⟩
  | .hbm, ⟨19, _⟩ => ⟨S1x64x64, .f32⟩
  | .hbm, ⟨20, _⟩ => ⟨S64x64, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S100000x64, .f32⟩
  | .hbm, ⟨25, _⟩ => ⟨S1x8x64x64, .f32⟩
  | .hbm, ⟨26, _⟩ => ⟨S8x64x64, .f32⟩
  | .hbm, ⟨27, _⟩ => ⟨S8x100000x64, .bf16⟩
  | .hbm, ⟨28, _⟩ => ⟨S_, .i32⟩
  | .hbm, ⟨29, _⟩ => ⟨S8x200000, .i32⟩
  | .hbm, ⟨30, _⟩ => ⟨S8x200000, .i1⟩
  | .hbm, ⟨31, _⟩ => ⟨S_, .i32⟩
  | .hbm, ⟨32, _⟩ => ⟨S8x200000, .i32⟩
  | .hbm, ⟨33, _⟩ => ⟨S8x200000, .i32⟩
  | .hbm, ⟨34, _⟩ => ⟨S8x200000, .i32⟩
  | .hbm, ⟨35, _⟩ => ⟨S8x200000x1, .i32⟩
  | .hbm, ⟨36, _⟩ => ⟨S8x200000x64, .bf16⟩
  | .hbm, ⟨37, _⟩ => ⟨S1600000x64, .bf16⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S100000x64, .f32⟩
  | .hbm, ⟨44, _⟩ => ⟨S1x64x64, .f32⟩
  | .hbm, ⟨45, _⟩ => ⟨S64x64, .f32⟩
  | .hbm, ⟨46, _⟩ => ⟨S1x64, .f32⟩
  | .hbm, ⟨47, _⟩ => ⟨S64, .f32⟩
  | .hbm, ⟨48, _⟩ => ⟨S1x64, .f32⟩
  | .hbm, ⟨49, _⟩ => ⟨S100000x64, .f32⟩
  | .hbm, ⟨50, _⟩ => ⟨S1x8x64x64, .f32⟩
  | .hbm, ⟨51, _⟩ => ⟨S8x64x64, .f32⟩
  | .hbm, ⟨52, _⟩ => ⟨S8x100000x64, .bf16⟩
  | .hbm, ⟨53, _⟩ => ⟨S_, .i32⟩
  | .hbm, ⟨54, _⟩ => ⟨S8x200000, .i32⟩
  | .hbm, ⟨55, _⟩ => ⟨S8x200000, .i1⟩
  | .hbm, ⟨56, _⟩ => ⟨S_, .i32⟩
  | .hbm, ⟨57, _⟩ => ⟨S8x200000, .i32⟩
  | .hbm, ⟨58, _⟩ => ⟨S8x200000, .i32⟩
  | .hbm, ⟨59, _⟩ => ⟨S8x200000, .i32⟩
  | .hbm, ⟨60, _⟩ => ⟨S8x200000x1, .i32⟩
  | .hbm, ⟨61, _⟩ => ⟨S8x200000x64, .bf16⟩
  | .hbm, ⟨62, _⟩ => ⟨S1600000x64, .bf16⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S100000x64, .f32⟩
  | .hbm, ⟨69, _⟩ => ⟨S1x64x64, .f32⟩
  | .hbm, ⟨70, _⟩ => ⟨S64x64, .f32⟩
  | .hbm, ⟨71, _⟩ => ⟨S1x64, .f32⟩
  | .hbm, ⟨72, _⟩ => ⟨S64, .f32⟩
  | .hbm, ⟨73, _⟩ => ⟨S1x64, .f32⟩
  | .hbm, ⟨74, _⟩ => ⟨S100000x64, .f32⟩
  | .hbm, ⟨75, _⟩ => ⟨S1x8x64x64, .f32⟩
  | .hbm, ⟨76, _⟩ => ⟨S8x64x64, .f32⟩
  | .hbm, ⟨77, _⟩ => ⟨S8x100000x64, .bf16⟩
  | .hbm, ⟨78, _⟩ => ⟨S_, .i32⟩
  | .hbm, ⟨79, _⟩ => ⟨S8x200000, .i32⟩
  | .hbm, ⟨80, _⟩ => ⟨S8x200000, .i1⟩
  | .hbm, ⟨81, _⟩ => ⟨S_, .i32⟩
  | .hbm, ⟨82, _⟩ => ⟨S8x200000, .i32⟩
  | .hbm, ⟨83, _⟩ => ⟨S8x200000, .i32⟩
  | .hbm, ⟨84, _⟩ => ⟨S8x200000, .i32⟩
  | .hbm, ⟨85, _⟩ => ⟨S8x200000x1, .i32⟩
  | .hbm, ⟨86, _⟩ => ⟨S8x200000x64, .bf16⟩
  | .hbm, ⟨87, _⟩ => ⟨S1600000x64, .bf16⟩
  | .hbm, ⟨88, _⟩ => ⟨S1600000x64, .f32⟩
  | .hbm, ⟨89, _⟩ => ⟨S_, .f32⟩
  | .hbm, ⟨90, _⟩ => ⟨S100000x64, .f32⟩
  | .hbm, ⟨91, _⟩ => ⟨S1600000x1, .i32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S32x64, .f32⟩
  | .hbm, ⟨96, _⟩ => ⟨S100000x1, .i32⟩
  | .hbm, ⟨97, _⟩ => ⟨S32x64, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S32, .f32⟩
  | .hbm, ⟨102, _⟩ => ⟨S100000x1, .i32⟩
  | .hbm, ⟨103, _⟩ => ⟨S32, .f32⟩
  | .hbm, ⟨104, _⟩ => ⟨S_, .f32⟩
  | .hbm, ⟨105, _⟩ => ⟨S32, .f32⟩
  | .hbm, ⟨106, _⟩ => ⟨S32, .f32⟩
  | .hbm, ⟨107, _⟩ => ⟨S32x1, .f32⟩
  | .hbm, ⟨108, _⟩ => ⟨S32x64, .f32⟩
  | .hbm, ⟨109, _⟩ => ⟨S32x64, .f32⟩
  | .hbm, ⟨110, _⟩ => ⟨S32x64, .f32⟩
  | .hbm, ⟨111, _⟩ => ⟨S1x64, .f32⟩
  | .hbm, ⟨112, _⟩ => ⟨S32x64, .f32⟩
  | .hbm, ⟨113, _⟩ => ⟨S32x64, .f32⟩
  | .hbm, ⟨114, _⟩ => ⟨S_, .f32⟩
  | .hbm, ⟨115, _⟩ => ⟨S32x64, .f32⟩
  | .hbm, ⟨116, _⟩ => ⟨S32x64, .f32⟩
  | .hbm, ⟨117, _⟩ => ⟨S32x1, .f32⟩
  | .hbm, ⟨118, _⟩ => ⟨S1x1, .f32⟩
  | .hbm, ⟨119, _⟩ => ⟨S32x1, .f32⟩
  | .hbm, ⟨120, _⟩ => ⟨S32x1, .f32⟩
  | .hbm, ⟨121, _⟩ => ⟨S32, .f32⟩
  | .local _ .vmem, ⟨0, _⟩ => ⟨S4000x16, .f32⟩
  | .local _ .vmem, ⟨1, _⟩ => ⟨S4000x16, .f32⟩
  | .local _ .vmem, ⟨2, _⟩ => ⟨S16x64, .f32⟩
  | .local _ .vmem, ⟨3, _⟩ => ⟨S1x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S64x64, .f32⟩
  | .local _ .vmem, ⟨9, _⟩ => ⟨S1x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S1x64x64, .f32⟩
  | .local _ .vmem, ⟨15, _⟩ => ⟨S1x64x64, .f32⟩
  | .local _ .vmem, ⟨16, _⟩ => ⟨S1x4000x64, .bf16⟩
  | .local _ .vmem, ⟨17, _⟩ => ⟨S1x4000x64, .bf16⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S64x64, .f32⟩
  | .local _ .vmem, ⟨27, _⟩ => ⟨S1x64, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S1x64x64, .f32⟩
  | .local _ .vmem, ⟨33, _⟩ => ⟨S1x64x64, .f32⟩
  | .local _ .vmem, ⟨34, _⟩ => ⟨S1x4000x64, .bf16⟩
  | .local _ .vmem, ⟨35, _⟩ => ⟨S1x4000x64, .bf16⟩
  | .local _ .vmem, ⟨36, _⟩ => ⟨S4000x64, .f32⟩
  | .local _ .vmem, ⟨37, _⟩ => ⟨S4000x64, .f32⟩
  | .local _ .vmem, ⟨38, _⟩ => ⟨S4000x64, .f32⟩
  | .local _ .vmem, ⟨39, _⟩ => ⟨S4000x64, .f32⟩
  | .local _ .vmem, ⟨40, _⟩ => ⟨S4000x64, .f32⟩
  | .local _ .vmem, ⟨41, _⟩ => ⟨S4000x64, .f32⟩
  | .local _ .vmem, ⟨42, _⟩ => ⟨S4000x64, .f32⟩
  | .local _ .vmem, ⟨43, _⟩ => ⟨S4000x64, .f32⟩
  | .local _ .vmem, ⟨44, _⟩ => ⟨S64x64, .f32⟩
  | .local _ .vmem, ⟨45, _⟩ => ⟨S1x64, .f32⟩
  | .local _ .vmem, ⟨46, _⟩ => ⟨S4000x64, .f32⟩
  | .local _ .vmem, ⟨47, _⟩ => ⟨S4000x64, .f32⟩
  | .local _ .vmem, ⟨48, _⟩ => ⟨S4000x64, .f32⟩
  | .local _ .vmem, ⟨49, _⟩ => ⟨S4000x64, .f32⟩
  | .local _ .vmem, ⟨50, _⟩ => ⟨S1x64x64, .f32⟩
  | .local _ .vmem, ⟨51, _⟩ => ⟨S1x64x64, .f32⟩
  | .local _ .vmem, ⟨52, _⟩ => ⟨S1x4000x64, .bf16⟩
  | .local _ .vmem, ⟨53, _⟩ => ⟨S1x4000x64, .bf16⟩
  | .local _ .vmem, ⟨54, _⟩ => ⟨S4000x64, .f32⟩
  | .local _ .vmem, ⟨55, _⟩ => ⟨S4000x64, .f32⟩
  | .local _ .vmem, ⟨56, _⟩ => ⟨S4000x64, .f32⟩
  | .local _ .vmem, ⟨57, _⟩ => ⟨S4000x64, .f32⟩
  | .local _ .vmem, ⟨58, _⟩ => ⟨S4000x64, .f32⟩
  | .local _ .vmem, ⟨59, _⟩ => ⟨S4000x64, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_1 : Ref sig .tc := ⟨.hbm, 53, rfl⟩
abbrev main_v38 : Ref sig .tc := ⟨.hbm, 54, rfl⟩
abbrev main_v39 : Ref sig .tc := ⟨.hbm, 55, rfl⟩
abbrev main_c_2 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_3 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_4 : Ref sig .tc := ⟨.hbm, 78, rfl⟩
abbrev main_v60 : Ref sig .tc := ⟨.hbm, 79, rfl⟩
abbrev main_v61 : Ref sig .tc := ⟨.hbm, 80, rfl⟩
abbrev main_c_5 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_6 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_7 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_8 : Ref sig .tc := ⟨.hbm, 98, rfl⟩
abbrev main_v76 : Ref sig .tc := ⟨.hbm, 99, rfl⟩
abbrev main_cst_9 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_10 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_call0_cst : Ref sig .tc := ⟨.hbm, 114, rfl⟩
abbrev main_call0_v0 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem1_1 : DmaSem sig := 57
abbrev cc9_sem2_0 : DmaSem sig := 58
abbrev cc9_sem2_1 : DmaSem sig := 59

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![25, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x64x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x4000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![25, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1x64x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x4000x64 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨2, ![25, 8], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage8_0 : Fin 2 → Memref sig .tc .vmem S4000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S1x64x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1x4000x64 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S4000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  shapeCasts_S64_S1x64 : S64.ShapeCasts S1x64
  inb_S4000x16_S4000x16_0_0 : ∀ a, (![0, 0] : Fin 2 → Nat) a + S4000x16.size a ≤ S4000x16.size a
  h_S4000x16 : 0 < S4000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  slices_S8x2x200000_S8x1x200000_0_0_0 : S8x2x200000.Slices ![0, 0, 0] S8x1x200000
  shapeCasts_S8x1x200000_S8x200000 : S8x1x200000.ShapeCasts S8x200000
  slices_S8x2x200000_S8x1x200000_0_1_0 : S8x2x200000.Slices ![0, 1, 0] S8x1x200000
  shapeCasts_S8x200000_S1600000 : S8x200000.ShapeCasts S1600000
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x8x64x64_S1x8x64x64_0_0_0_0 : S3x8x64x64.Slices ![0, 0, 0, 0] S1x8x64x64
  shapeCasts_S1x8x64x64_S8x64x64 : S1x8x64x64.ShapeCasts S8x64x64
  inb_S1x64x64_S1x64x64_0_0_0 : ∀ a, (![0, 0, 0] : Fin 3 → Nat) a + S1x64x64.size a ≤ S1x64x64.size a
  h_S1x64x64 : 0 < S1x64x64.numel
  inb_S1x4000x64_S1x4000x64_0_0_0 : ∀ a, (![0, 0, 0] : Fin 3 → Nat) a + S1x4000x64.size a ≤ S1x4000x64.size a
  h_S1x4000x64 : 0 < S1x4000x64.numel
  shapeCasts_S1x4000x64_S4000x64 : S1x4000x64.ShapeCasts S4000x64
  shapeCasts_S4000x64_S1x4000x64 : S4000x64.ShapeCasts S1x4000x64
  packedbf16_S1x4000x64_S1x4000x64_0_0_0 : (Rect.unit (s := S1x4000x64) ![0, 0, 0] S1x4000x64.size inb_S1x4000x64_S1x4000x64_0_0_0).PackedRows (EltTy.packing .bf16)
  bcast_S_S8x200000 : S_.BroadcastsInDim S8x200000 (![] : Fin 0 → Fin S8x200000.rank)
  bcast_S8x200000_S8x200000x1_0_1 : S8x200000.BroadcastsInDim S8x200000x1 (![0, 1] : Fin 2 → Fin S8x200000x1.rank)
  shapeCasts_S8x200000x64_S1600000x64 : S8x200000x64.ShapeCasts S1600000x64
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  slices_S3x64x64_S1x64x64_1_0_0 : S3x64x64.Slices ![1, 0, 0] S1x64x64
  slices_S3x64_S1x64_1_0 : S3x64.Slices ![1, 0] S1x64
  slices_S3x8x64x64_S1x8x64x64_1_0_0_0 : S3x8x64x64.Slices ![1, 0, 0, 0] S1x8x64x64
  slices_S3x64x64_S1x64x64_2_0_0 : S3x64x64.Slices ![2, 0, 0] S1x64x64
  slices_S3x64_S1x64_2_0 : S3x64.Slices ![2, 0] S1x64
  slices_S3x8x64x64_S1x8x64x64_2_0_0_0 : S3x8x64x64.Slices ![2, 0, 0, 0] S1x8x64x64
  bcast_S_S32x64 : S_.BroadcastsInDim S32x64 (![] : Fin 0 → Fin S32x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S32 : S_.BroadcastsInDim S32 (![] : Fin 0 → Fin S32.rank)
  bcast_S32_S32x1_0 : S32.BroadcastsInDim S32x1 (![0] : Fin 1 → Fin S32x1.rank)
  bcast_S32x1_S32x64_0_1 : S32x1.BroadcastsInDim S32x64 (![0, 1] : Fin 2 → Fin S32x64.rank)
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  shapeCasts_S32x1_S32 : S32x1.ShapeCasts S32
  dot_S4000x16_S16x64_S4000x64_1_0_0_1_n_n_wf : DotDims.WF S4000x16 S16x64 S4000x64 [1] [0] [0] [1] [] []
  dot_S4000x64_S64x64_S4000x64_1_0_0_1_n_n_wf : DotDims.WF S4000x64 S64x64 S4000x64 [1] [0] [0] [1] [] []
  gather_S8x100000x64_S8x200000x1_S8x200000x64_2_1_0_0_1_2_1164_wf : GatherDims.WF S8x100000x64 S8x200000x1 S8x200000x64 [2] [1] [0] [1] [0] 2 ![1, 1, 64]
  scatter_S100000x64_S1600000x1_S1600000x64_1_0_0_1_wf : ScatterDims.WF S100000x64 S1600000x1 S1600000x64 [1] [0] [0] 1
  scatter_S32x64_S100000x1_S100000x64_1_0_0_1_wf : ScatterDims.WF S32x64 S100000x1 S100000x64 [1] [0] [0] 1
  scatter_S32_S100000x1_S100000_n_0_0_1_wf : ScatterDims.WF S32 S100000x1 S100000 [] [0] [0] 1
  dot_S32x64_S64x64_S32x64_1_0_0_1_n_n_wf : DotDims.WF S32x64 S64x64 S32x64 [1] [0] [0] [1] [] []
  dot_S32x64_S64x1_S32x1_1_0_0_1_n_n_wf : DotDims.WF S32x64 S64x1 S32x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S100000x16.size a
  hwx0_0 : ∀ i : grid0.Coords, EltTy.bits .f32 = 32 ∨ (Rect.block (s := S100000x16) S4000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .f32 = 32 ∨ (Rect.block (s := S100000x64) S4000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x64.size a ≤ S8x64x64.size a
  hwx2_1 : ∀ i : grid2.Coords, EltTy.bits .f32 = 32 ∨ (Rect.block (s := S8x64x64) S1x64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x4000x64.size a ≤ S8x100000x64.size a
  hwx2_2 : ∀ i : grid2.Coords, EltTy.bits .bf16 = 32 ∨ (Rect.block (s := S8x100000x64) S1x4000x64.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .f32 = 32 ∨ (Rect.block (s := S100000x64) S4000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x64.size a ≤ S100000x64.size a
  hwx4_3 : ∀ i : grid4.Coords, EltTy.bits .f32 = 32 ∨ (Rect.block (s := S100000x64) S4000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x64x64.size a ≤ S8x64x64.size a
  hwx5_1 : ∀ i : grid5.Coords, EltTy.bits .f32 = 32 ∨ (Rect.block (s := S8x64x64) S1x64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x4000x64.size a ≤ S8x100000x64.size a
  hwx5_2 : ∀ i : grid5.Coords, EltTy.bits .bf16 = 32 ∨ (Rect.block (s := S8x100000x64) S1x4000x64.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S100000x64.size a
  hwx6_0 : ∀ i : grid6.Coords, EltTy.bits .f32 = 32 ∨ (Rect.block (s := S100000x64) S4000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x64.size a ≤ S100000x64.size a
  hwx6_1 : ∀ i : grid6.Coords, EltTy.bits .f32 = 32 ∨ (Rect.block (s := S100000x64) S4000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x64.size a ≤ S100000x64.size a
  hwx6_2 : ∀ i : grid6.Coords, EltTy.bits .f32 = 32 ∨ (Rect.block (s := S100000x64) S4000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x64.size a ≤ S100000x64.size a
  hwx7_0 : ∀ i : grid7.Coords, EltTy.bits .f32 = 32 ∨ (Rect.block (s := S100000x64) S4000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x64.size a ≤ S100000x64.size a
  hwx7_3 : ∀ i : grid7.Coords, EltTy.bits .f32 = 32 ∨ (Rect.block (s := S100000x64) S4000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x64.size a ≤ S100000x64.size a
  hwx8_0 : ∀ i : grid8.Coords, EltTy.bits .f32 = 32 ∨ (Rect.block (s := S100000x64) S4000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x64x64.size a ≤ S8x64x64.size a
  hwx8_1 : ∀ i : grid8.Coords, EltTy.bits .f32 = 32 ∨ (Rect.block (s := S8x64x64) S1x64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x4000x64.size a ≤ S8x100000x64.size a
  hwx8_2 : ∀ i : grid8.Coords, EltTy.bits .bf16 = 32 ∨ (Rect.block (s := S8x100000x64) S1x4000x64.size (cc8_transform_2 i) (hinb8_2 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x64.size a ≤ S100000x64.size a
  hwx9_0 : ∀ i : grid9.Coords, EltTy.bits .f32 = 32 ∨ (Rect.block (s := S100000x64) S4000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4000x64.size a ≤ S100000x64.size a
  hwx9_1 : ∀ i : grid9.Coords, EltTy.bits .f32 = 32 ∨ (Rect.block (s := S100000x64) S4000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S4000x64.size a ≤ S100000x64.size a
  hwx9_2 : ∀ i : grid9.Coords, EltTy.bits .f32 = 32 ∨ (Rect.block (s := S100000x64) S4000x64.size (cc9_transform_2 i) (hinb9_2 i)).WholeWords (EltTy.packing .f32)

variable [Facts₀]

def dot_S4000x16_S16x64_S4000x64_1_0_0_1_n_n : DotDims S4000x16 S16x64 S4000x64 where
  lhsContracting := [1]
  rhsContracting := [0]
  lhsNonContracting := [0]
  rhsNonContracting := [1]
  lhsBatch := []
  rhsBatch := []
  wf := dot_S4000x16_S16x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S8x100000x64_S8x200000x1_S8x200000x64_2_1_0_0_1_2_1164 : GatherDims S8x100000x64 S8x200000x1 S8x200000x64 where
  offsetDims := [2]
  collapsedSliceDims := [1]
  operandBatchingDims := [0]
  startIndicesBatchingDims := [0]
  startIndexMap := [1]
  indexVectorDim := 2
  sliceSizes := ![1, 1, 64]
  wf := gather_S8x100000x64_S8x200000x1_S8x200000x64_2_1_0_0_1_2_1164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S32x64_S100000x1_S100000x64_1_0_0_1 : ScatterDims S32x64 S100000x1 S100000x64 where
  updateWindowDims := [1]
  insertedWindowDims := [0]
  scatterDimsToOperandDims := [0]
  indexVectorDim := 1
  wf := scatter_S32x64_S100000x1_S100000x64_1_0_0_1_wf
def scatter_S32_S100000x1_S100000_n_0_0_1 : ScatterDims S32 S100000x1 S100000 where
  updateWindowDims := []
  insertedWindowDims := [0]
  scatterDimsToOperandDims := [0]
  indexVectorDim := 1
  wf := scatter_S32_S100000x1_S100000_n_0_0_1_wf
def dot_S32x64_S64x64_S32x64_1_0_0_1_n_n : DotDims S32x64 S64x64 S32x64 where
  lhsContracting := [1]
  rhsContracting := [0]
  lhsNonContracting := [0]
  rhsNonContracting := [1]
  lhsBatch := []
  rhsBatch := []
  wf := dot_S32x64_S64x64_S32x64_1_0_0_1_n_n_wf
def dot_S32x64_S64x1_S32x1_1_0_0_1_n_n : DotDims S32x64 S64x1 S32x1 where
  lhsContracting := [1]
  rhsContracting := [0]
  lhsNonContracting := [0]
  rhsNonContracting := [1]
  lhsBatch := []
  rhsBatch := []
  wf := dot_S32x64_S64x1_S32x1_1_0_0_1_n_n_wf

abbrev win0_0 : Pipeline.Window sig grid0 :=
  Pipeline.Window.ofSpec (Memref.whole main_arg0) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1x64x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v12) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S4000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v28) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v34) S4000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v28) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v36) S1x64x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v37) S1x4000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v34) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v49) S4000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v50) S4000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v50) S4000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v52) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v55) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v56) S4000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v50) S4000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v58) S1x64x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v59) S1x4000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v56) S4000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v71) S4000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v72) S4000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x16 : Shape := ⟨2, ![100000, 16]⟩
abbrev S8x2x200000 : Shape := ⟨3, ![8, 2, 200000]⟩
abbrev S100000 : Shape := ⟨1, ![100000]⟩
abbrev S16x64 : Shape := ⟨2, ![16, 64]⟩
abbrev S64 : Shape := ⟨1, ![64]⟩
abbrev S3x64x64 : Shape := ⟨3, ![3, 64, 64]⟩
abbrev S3x64 : Shape := ⟨2, ![3, 64]⟩
abbrev S3x8x64x64 : Shape := ⟨4, ![3, 8, 64, 64]⟩
abbrev S64x64 : Shape := ⟨2, ![64, 64]⟩
abbrev S64x1 : Shape := ⟨2, ![64, 1]⟩
abbrev S1 : Shape := ⟨1, ![1]⟩
abbrev S8x1x200000 : Shape := ⟨3, ![8, 1, 200000]⟩
abbrev S8x200000 : Shape := ⟨2, ![8, 200000]⟩
abbrev S1600000 : Shape := ⟨1, ![1600000]⟩
abbrev S100000x64 : Shape := ⟨2, ![100000, 64]⟩
abbrev S1x64 : Shape := ⟨2, ![1, 64]⟩
abbrev S1x64x64 : Shape := ⟨3, ![1, 64, 64]⟩
abbrev S_ : Shape := ⟨0, ![]⟩
abbrev S8x200000x1 : Shape := ⟨3, ![8, 200000, 1]⟩
abbrev S8x200000x64 : Shape := ⟨3, ![8, 200000, 64]⟩
abbrev S1x8x64x64 : Shape := ⟨4, ![1, 8, 64, 64]⟩
abbrev S8x64x64 : Shape := ⟨3, ![8, 64, 64]⟩
abbrev S1600000x64 : Shape := ⟨2, ![1600000, 64]⟩
abbrev S1600000x1 : Shape := ⟨2, ![1600000, 1]⟩
abbrev S32x64 : Shape := ⟨2, ![32, 64]⟩
abbrev S100000x1 : Shape := ⟨2, ![100000, 1]⟩
abbrev S32 : Shape := ⟨1, ![32]⟩
abbrev S32x1 : Shape := ⟨2, ![32, 1]⟩
abbrev S1x1 : Shape := ⟨2, ![1, 1]⟩

abbrev nBuf : Space → Nat
  | .hbm => 136
  | .vmem => 0
  | .smem => 0
  | _ => 0

abbrev hbmTy0_0 (i : Nat) : BufTy := match i % 128 with
  | 0 => ⟨S100000x16, .f32⟩
  | 1 => ⟨S8x2x200000, .i32⟩
  | 2 => ⟨S100000, .i32⟩
  | 3 => ⟨S16x64, .f32⟩
  | 4 => ⟨S64, .f32⟩
  | 5 => ⟨S3x64x64, .f32⟩
  | 6 => ⟨S3x64, .f32⟩
  | 7 => ⟨S3x8x64x64, .f32⟩
  | 8 => ⟨S64x64, .f32⟩
  | 9 => ⟨S64, .f32⟩
  | 10 => ⟨S64x1, .f32⟩
  | 11 => ⟨S1, .f32⟩
  | 12 => ⟨S8x1x200000, .i32⟩
  | 13 => ⟨S8x200000, .i32⟩
  | 14 => ⟨S8x1x200000, .i32⟩
  | 15 => ⟨S8x200000, .i32⟩
  | 16 => ⟨S1600000, .i32⟩
  | 17 => ⟨S100000x64, .f32⟩
  | 18 => ⟨S1x64, .f32⟩
  | 19 => ⟨S100000x64, .f32⟩
  | 20 => ⟨S100000x64, .f32⟩
  | 21 => ⟨S1x64x64, .f32⟩
  | 22 => ⟨S64x64, .f32⟩
  | 23 => ⟨S100000x64, .f32⟩
  | 24 => ⟨S1x64, .f32⟩
  | 25 => ⟨S64, .f32⟩
  | 26 => ⟨S1x64, .f32⟩
  | 27 => ⟨S100000x64, .f32⟩
  | 28 => ⟨S100000x64, .f32⟩
  | 29 => ⟨S_, .i32⟩
  | 30 => ⟨S8x200000, .i32⟩
  | 31 => ⟨S8x200000, .i1⟩
  | 32 => ⟨S_, .i32⟩
  | 33 => ⟨S8x200000, .i32⟩
  | 34 => ⟨S8x200000, .i32⟩
  | 35 => ⟨S8x200000, .i32⟩
  | 36 => ⟨S8x200000x1, .i32⟩
  | 37 => ⟨S8x200000x64, .f32⟩
  | 38 => ⟨S1x8x64x64, .f32⟩
  | 39 => ⟨S8x64x64, .f32⟩
  | 40 => ⟨S8x200000x64, .f32⟩
  | 41 => ⟨S1600000x64, .f32⟩
  | 42 => ⟨S_, .f32⟩
  | 43 => ⟨S100000x64, .f32⟩
  | 44 => ⟨S1600000x1, .i32⟩
  | 45 => ⟨S100000x64, .f32⟩
  | 46 => ⟨S100000x64, .f32⟩
  | 47 => ⟨S_, .f32⟩
  | 48 => ⟨S100000x64, .f32⟩
  | 49 => ⟨S100000x64, .f32⟩
  | 50 => ⟨S1x64x64, .f32⟩
  | 51 => ⟨S64x64, .f32⟩
  | 52 => ⟨S100000x64, .f32⟩
  | 53 => ⟨S1x64, .f32⟩
  | 54 => ⟨S64, .f32⟩
  | 55 => ⟨S1x64, .f32⟩
  | 56 => ⟨S100000x64, .f32⟩
  | 57 => ⟨S100000x64, .f32⟩
  | 58 => ⟨S_, .i32⟩
  | 59 => ⟨S8x200000, .i32⟩
  | 60 => ⟨S8x200000, .i1⟩
  | 61 => ⟨S_, .i32⟩
  | 62 => ⟨S8x200000, .i32⟩
  | 63 => ⟨S8x200000, .i32⟩
  | 64 => ⟨S8x200000, .i32⟩
  | 65 => ⟨S8x200000x1, .i32⟩
  | 66 => ⟨S8x200000x64, .f32⟩
  | 67 => ⟨S1x8x64x64, .f32⟩
  | 68 => ⟨S8x64x64, .f32⟩
  | 69 => ⟨S8x200000x64, .f32⟩
  | 70 => ⟨S1600000x64, .f32⟩
  | 71 => ⟨S_, .f32⟩
  | 72 => ⟨S100000x64, .f32⟩
  | 73 => ⟨S1600000x1, .i32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S1x64x64, .f32⟩
  | 80 => ⟨S64x64, .f32⟩
  | 81 => ⟨S100000x64, .f32⟩
  | 82 => ⟨S1x64, .f32⟩
  | 83 => ⟨S64, .f32⟩
  | 84 => ⟨S1x64, .f32⟩
  | 85 => ⟨S100000x64, .f32⟩
  | 86 => ⟨S100000x64, .f32⟩
  | 87 => ⟨S_, .i32⟩
  | 88 => ⟨S8x200000, .i32⟩
  | 89 => ⟨S8x200000, .i1⟩
  | 90 => ⟨S_, .i32⟩
  | 91 => ⟨S8x200000, .i32⟩
  | 92 => ⟨S8x200000, .i32⟩
  | 93 => ⟨S8x200000, .i32⟩
  | 94 => ⟨S8x200000x1, .i32⟩
  | 95 => ⟨S8x200000x64, .f32⟩
  | 96 => ⟨S1x8x64x64, .f32⟩
  | 97 => ⟨S8x64x64, .f32⟩
  | 98 => ⟨S8x200000x64, .f32⟩
  | 99 => ⟨S1600000x64, .f32⟩
  | 100 => ⟨S_, .f32⟩
  | 101 => ⟨S100000x64, .f32⟩
  | 102 => ⟨S1600000x1, .i32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S_, .f32⟩
  | 109 => ⟨S32x64, .f32⟩
  | 110 => ⟨S100000x1, .i32⟩
  | 111 => ⟨S32x64, .f32⟩
  | 112 => ⟨S_, .f32⟩
  | 113 => ⟨S100000, .f32⟩
  | 114 => ⟨S_, .f32⟩
  | 115 => ⟨S32, .f32⟩
  | 116 => ⟨S100000x1, .i32⟩
  | 117 => ⟨S32, .f32⟩
  | 118 => ⟨S_, .f32⟩
  | 119 => ⟨S32, .f32⟩
  | 120 => ⟨S32, .f32⟩
  | 121 => ⟨S32x1, .f32⟩
  | 122 => ⟨S32x64, .f32⟩
  | 123 => ⟨S32x64, .f32⟩
  | 124 => ⟨S32x64, .f32⟩
  | 125 => ⟨S1x64, .f32⟩
  | 126 => ⟨S32x64, .f32⟩
  | 127 => ⟨S32x64, .f32⟩
  | _ => ⟨S100000x16, .f32⟩

abbrev hbmTy0_1 (i : Nat) : BufTy := match i % 128 with
  | 0 => ⟨S_, .f32⟩
  | 1 => ⟨S32x64, .f32⟩
  | 2 => ⟨S32x64, .f32⟩
  | 3 => ⟨S32x1, .f32⟩
  | 4 => ⟨S1x1, .f32⟩
  | 5 => ⟨S32x1, .f32⟩
  | 6 => ⟨S32x1, .f32⟩
  | 7 => ⟨S32, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_cst : Ref sig .tc := ⟨.hbm, 47, rfl⟩
abbrev main_call0_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_1 : Ref sig .tc := ⟨.hbm, 58, rfl⟩
abbrev main_v41 : Ref sig .tc := ⟨.hbm, 59, rfl⟩
abbrev main_v42 : Ref sig .tc := ⟨.hbm, 60, rfl⟩
abbrev main_c_2 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_3 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call1_cst : Ref sig .tc := ⟨.hbm, 76, rfl⟩
abbrev main_call1_v0 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_4 : Ref sig .tc := ⟨.hbm, 87, rfl⟩
abbrev main_v65 : Ref sig .tc := ⟨.hbm, 88, rfl⟩
abbrev main_v66 : Ref sig .tc := ⟨.hbm, 89, rfl⟩
abbrev main_c_5 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_6 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_call2_cst : Ref sig .tc := ⟨.hbm, 105, rfl⟩
abbrev main_call2_v0 : Ref sig .tc := ⟨.hbm, 106, rfl⟩
abbrev main_v80 : Ref sig .tc := ⟨.hbm, 107, rfl⟩
abbrev main_cst_7 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_8 : Ref sig .tc := ⟨.hbm, 112, rfl⟩
abbrev main_v84 : Ref sig .tc := ⟨.hbm, 113, rfl⟩
abbrev main_cst_9 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_10 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_call3_cst : Ref sig .tc := ⟨.hbm, 128, rfl⟩
abbrev main_call3_v0 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩

abbrev nD : Nat := 1
abbrev τ : Topo := Topo.v7x

variable {F : FTy → Type} [FloatOps F]

class Facts₀ : Prop where
  slices_S8x2x200000_S8x1x200000_0_0_0 : S8x2x200000.Slices ![0, 0, 0] S8x1x200000
  shapeCasts_S8x1x200000_S8x200000 : S8x1x200000.ShapeCasts S8x200000
  slices_S8x2x200000_S8x1x200000_0_1_0 : S8x2x200000.Slices ![0, 1, 0] S8x1x200000
  shapeCasts_S8x200000_S1600000 : S8x200000.ShapeCasts S1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S8x200000 : S_.BroadcastsInDim S8x200000 (![] : Fin 0 → Fin S8x200000.rank)
  bcast_S8x200000_S8x200000x1_0_1 : S8x200000.BroadcastsInDim S8x200000x1 (![0, 1] : Fin 2 → Fin S8x200000x1.rank)
  slices_S3x8x64x64_S1x8x64x64_0_0_0_0 : S3x8x64x64.Slices ![0, 0, 0, 0] S1x8x64x64
  shapeCasts_S1x8x64x64_S8x64x64 : S1x8x64x64.ShapeCasts S8x64x64
  shapeCasts_S8x200000x64_S1600000x64 : S8x200000x64.ShapeCasts S1600000x64
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  slices_S3x64x64_S1x64x64_1_0_0 : S3x64x64.Slices ![1, 0, 0] S1x64x64
  slices_S3x64_S1x64_1_0 : S3x64.Slices ![1, 0] S1x64
  slices_S3x8x64x64_S1x8x64x64_1_0_0_0 : S3x8x64x64.Slices ![1, 0, 0, 0] S1x8x64x64
  slices_S3x64x64_S1x64x64_2_0_0 : S3x64x64.Slices ![2, 0, 0] S1x64x64
  slices_S3x64_S1x64_2_0 : S3x64.Slices ![2, 0] S1x64
  slices_S3x8x64x64_S1x8x64x64_2_0_0_0 : S3x8x64x64.Slices ![2, 0, 0, 0] S1x8x64x64
  bcast_S_S32x64 : S_.BroadcastsInDim S32x64 (![] : Fin 0 → Fin S32x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S32 : S_.BroadcastsInDim S32 (![] : Fin 0 → Fin S32.rank)
  bcast_S32_S32x1_0 : S32.BroadcastsInDim S32x1 (![0] : Fin 1 → Fin S32x1.rank)
  bcast_S32x1_S32x64_0_1 : S32x1.BroadcastsInDim S32x64 (![0, 1] : Fin 2 → Fin S32x64.rank)
  bcast_S1x64_S32x64_0_1 : S1x64.BroadcastsInDim S32x64 (![0, 1] : Fin 2 → Fin S32x64.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  shapeCasts_S32x1_S32 : S32x1.ShapeCasts S32
  dot_S100000x16_S16x64_S100000x64_1_0_0_1_n_n_wf : DotDims.WF S100000x16 S16x64 S100000x64 [1] [0] [0] [1] [] []
  dot_S100000x64_S64x64_S100000x64_1_0_0_1_n_n_wf : DotDims.WF S100000x64 S64x64 S100000x64 [1] [0] [0] [1] [] []
  gather_S100000x64_S8x200000x1_S8x200000x64_2_0_n_n_0_2_164_wf : GatherDims.WF S100000x64 S8x200000x1 S8x200000x64 [2] [0] [] [0] [] 2 ![1, 64]
  dot_S8x200000x64_S8x64x64_S8x200000x64_2_1_1_2_0_0_wf : DotDims.WF S8x200000x64 S8x64x64 S8x200000x64 [2] [1] [1] [2] [0] [0]
  scatter_S100000x64_S1600000x1_S1600000x64_1_0_0_1_wf : ScatterDims.WF S100000x64 S1600000x1 S1600000x64 [1] [0] [0] 1
  scatter_S32x64_S100000x1_S100000x64_1_0_0_1_wf : ScatterDims.WF S32x64 S100000x1 S100000x64 [1] [0] [0] 1
  scatter_S32_S100000x1_S100000_n_0_0_1_wf : ScatterDims.WF S32 S100000x1 S100000 [] [0] [0] 1
  dot_S32x64_S64x64_S32x64_1_0_0_1_n_n_wf : DotDims.WF S32x64 S64x64 S32x64 [1] [0] [0] [1] [] []
  dot_S32x64_S64x1_S32x1_1_0_0_1_n_n_wf : DotDims.WF S32x64 S64x1 S32x1 [1] [0] [0] [1] [] []

variable [Facts₀]

def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S8x200000x1_S8x200000x64_2_0_n_n_0_2_164 : GatherDims S100000x64 S8x200000x1 S8x200000x64 where
  offsetDims := [2]
  collapsedSliceDims := [0]
  operandBatchingDims := []
  startIndicesBatchingDims := []
  startIndexMap := [0]
  indexVectorDim := 2
  sliceSizes := ![1, 64]
  wf := gather_S100000x64_S8x200000x1_S8x200000x64_2_0_n_n_0_2_164_wf
def dot_S8x200000x64_S8x64x64_S8x200000x64_2_1_1_2_0_0 : DotDims S8x200000x64 S8x64x64 S8x200000x64 where
  lhsContracting := [2]
  rhsContracting := [1]
  lhsNonContracting := [1]
  rhsNonContracting := [2]
  lhsBatch := [0]
  rhsBatch := [0]
  wf := dot_S8x200000x64_S8x64x64_S8x200000x64_2_1_1_2_0_0_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S32x64_S100000x1_S100000x64_1_0_0_1 : ScatterDims S32x64 S100000x1 S100000x64 where
  updateWindowDims := [1]
  insertedWindowDims := [0]
  scatterDimsToOperandDims := [0]
  indexVectorDim := 1
  wf := scatter_S32x64_S100000x1_S100000x64_1_0_0_1_wf
def scatter_S32_S100000x1_S100000_n_0_0_1 : ScatterDims S32 S100000x1 S100000 where
  updateWindowDims := []
  insertedWindowDims := [0]
  scatterDimsToOperandDims := [0]
  indexVectorDim := 1
  wf := scatter_S32_S100000x1_S100000_n_0_0_1_wf
def dot_S32x64_S64x64_S32x64_1_0_0_1_n_n : DotDims S32x64 S64x64 S32x64 where
  lhsContracting := [1]
  rhsContracting := [0]
  lhsNonContracting := [0]
  rhsNonContracting := [1]
  lhsBatch := []
  rhsBatch := []
  wf := dot_S32x64_S64x64_S32x64_1_0_0_1_n_n_wf
def dot_S32x64_S64x1_S32x1_1_0_0_1_n_n : DotDims S32x64 S64x1 S32x1 where
  lhsContracting := [1]
  rhsContracting := [0]
  lhsNonContracting := [0]
  rhsNonContracting := [1]
  lhsBatch := []
  rhsBatch := []
  wf := dot_S32x64_S64x1_S32x1_1_0_0_1_n_n_wf

class Facts : Prop extends Facts₀ where

variable [Facts]
-- ==== Proof.KernelRun.lean ====
/-
  The idealized kernel program's run, with its result named.

  Every weakly fair execution of the program ends, nothing faulting, with the result array holding what the fold of the
  program's segments leaves at the result's buffer, and with the twelve argument arrays as launched.  The segments are the
  host stretches and the ten kernel regions in program order; the contents after the last segment are read against the
  final memory at every buffer that is not scoped, the result's among them.
-/
import proofs.«150609_j14070312862201_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments unchanged. -/
theorem run_value : θ_run defs (onTc (τ := τ) (main (F := F))) ⟨m, fun _ => 0, ρ⟩ (fun r => ∀ c : Dev nD,
      r.2.mem ((c.tc : Thread nD τ).loc main_v94) = W23 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v94 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c),
       (h c _ (mem_uc main_arg10 (by decide))).trans (W23_main_arg10 m ρ c),
       (h c _ (mem_uc main_arg11 (by decide))).trans (W23_main_arg11 m ρ c)⟩)

end Cert.KernelIdeal.Hand

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.LibHostLayout.lean ====
/-
  Host layout operations read at one entry.

  A host program moves arrays between shapes without computing anything: it broadcasts a scalar, a vector or a
  one-column / one-row matrix to a larger shape, reshapes a vector into a one-row matrix, cuts a band of rows out of
  a matrix, and lays matrices side by side along the columns. Each such operation, read at ONE index of its result,
  is its operand read at one index; the lemmas below name that index for rank 1 and rank 2 shapes of arbitrary
  extents, with the indices written by their coordinates. On an operand axis of extent one a broadcast reads
  coordinate 0, which is also the only coordinate there is, so the statements hold at extent one too. Nothing here
  enumerates an index type: every proof is coordinate arithmetic.
-/
import Idealize.ShloMosaic.PureOps.Ideal
import Idealize.ShloMosaic.Lib.ValueIdx
import Idealize.ShloMosaic.Lib.Pipeline.Value

namespace Cert.HostLayout

open Idealize.ShloMosaic Idealize.ShloMosaic.ValueIdx

variable {α : Type}

/-- A coordinate below an extent is itself, and is 0 when the extent is one. -/
theorem val_eq_ite {n : Nat} (k : Fin n) : k.val = if n = 1 then 0 else k.val := by
  have := k.isLt
  split <;> omega

/-! ## Broadcasts -/

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- A vector of N entries made a column [N, 1]: entry (n, 0) is entry n. -/
theorem bcast_col_apply {N : Nat} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ ![0] h x (ix2 n z) = x (ix1 n) := by
  refine broadcastInDim_apply ![0] h x (ix2 n z) (ix1 n) ?_
  intro a
  match a with
  | ⟨0, _⟩ => exact val_eq_ite n

/-- A column [N, 1] repeated along C columns: entry (n, q) is the column's entry (n, 0). -/
theorem bcast_rows_apply {N C : Nat} (h : (⟨2, ![N, 1]⟩ : Shape).BroadcastsInDim ⟨2, ![N, C]⟩ (![0, 1] : Fin 2 → Fin 2))
    (x : (⟨2, ![N, 1]⟩ : Shape).Idx → α) (n : Fin N) (q : Fin C) :
    broadcastInDim ⟨2, ![N, C]⟩ ![0, 1] h x (ix2 n q) = x (ix2 n (0 : Fin 1)) := by
  refine broadcastInDim_apply ![0, 1] h x (ix2 n q) (ix2 n (0 : Fin 1)) ?_
  intro a
  match a with
  | ⟨0, _⟩ => exact val_eq_ite n
  | ⟨1, _⟩ => exact (if_pos rfl).symm

/-- A vector of C entries made a row [1, C]: entry (0, q) is entry q. -/
theorem bcast_rowvec_apply {C : Nat} (h : (⟨1, ![C]⟩ : Shape).BroadcastsInDim ⟨2, ![1, C]⟩ (![1] : Fin 1 → Fin 2))
    (x : (⟨1, ![C]⟩ : Shape).Idx → α) (z : Fin 1) (q : Fin C) :
    broadcastInDim ⟨2, ![1, C]⟩ ![1] h x (ix2 z q) = x (ix1 q) := by
  refine broadcastInDim_apply ![1] h x (ix2 z q) (ix1 q) ?_
  intro a
  match a with
  | ⟨0, _⟩ => exact val_eq_ite q

/-- A row [1, C] repeated down R rows: entry (r, q) is the row's entry (0, q). -/
theorem bcast_cols_apply {R C : Nat} (h : (⟨2, ![1, C]⟩ : Shape).BroadcastsInDim ⟨2, ![R, C]⟩ (![0, 1] : Fin 2 → Fin 2))
    (x : (⟨2, ![1, C]⟩ : Shape).Idx → α) (r : Fin R) (q : Fin C) :
    broadcastInDim ⟨2, ![R, C]⟩ ![0, 1] h x (ix2 r q) = x (ix2 (0 : Fin 1) q) := by
  refine broadcastInDim_apply ![0, 1] h x (ix2 r q) (ix2 (0 : Fin 1) q) ?_
  intro a
  match a with
  | ⟨0, _⟩ => exact (if_pos rfl).symm
  | ⟨1, _⟩ => exact val_eq_ite q

/-! ## A reshape and a slice -/

/-- A vector of C entries reshaped to a row [1, C]: the row-major positions of (0, q) and of q agree. -/
theorem reshape_rowvec_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  obtain rfl : z = 0 := Subsingleton.elim _ _
  show q.val = 0 * C + q.val
  omega

/-- A band of K1 rows of a [K, C] matrix starting at row `off`: entry (k, q) of the band is entry (off + k, q). -/
theorem slice_rows_apply {K K1 C : Nat} (off : Nat) (h : (⟨2, ![K, C]⟩ : Shape).Slices ![off, 0] ⟨2, ![K1, C]⟩)
    (x : (⟨2, ![K, C]⟩ : Shape).Idx → α) (k : Fin K1) (q : Fin C) (hk : off + k.val < K) :
    extractStridedSlice ⟨2, ![K1, C]⟩ ![off, 0] x h (ix2 k q) = x (ix2 ⟨off + k.val, hk⟩ q) := by
  refine extractStridedSlice_apply ![off, 0] x h (ix2 k q) (ix2 ⟨off + k.val, hk⟩ q) ?_
  intro a
  match a with
  | ⟨0, _⟩ => rfl
  | ⟨1, _⟩ => exact (Nat.zero_add _).symm

/-! ## Matrices laid side by side along the columns -/

/-- Three matrices of R rows side by side: a column of the first block reads the first matrix. -/
theorem concat3_apply_fst {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K1) :
    concatenate ⟨2, ![R, K1 + K2 + K3]⟩ 1 [⟨_, x1⟩, ⟨_, x2⟩, ⟨_, x3⟩] h (ix2 r (Fin.castAdd K3 (Fin.castAdd K2 k)))
      = x1 (ix2 r k) := by
  refine concatenate_apply_piece (t := ⟨2, ![R, K1 + K2 + K3]⟩) (1 : Fin 2) [⟨_, x1⟩, ⟨_, x2⟩, ⟨_, x3⟩] h _
    0 (by show 0 < 3; omega) _ x1 rfl rfl 0 rfl (ix2 r k) ?_ ?_
  · intro b hb
    match b, hb with
    | ⟨0, _⟩, _ => rfl
    | ⟨1, _⟩, hb => exact absurd rfl hb
  · show 0 + k.val = k.val
    omega

/-- Three matrices of R rows side by side: a column of the second block reads the second matrix. -/
theorem concat3_apply_snd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K2) :
    concatenate ⟨2, ![R, K1 + K2 + K3]⟩ 1 [⟨_, x1⟩, ⟨_, x2⟩, ⟨_, x3⟩] h (ix2 r (Fin.castAdd K3 (Fin.natAdd K1 k)))
      = x2 (ix2 r k) := by
  refine concatenate_apply_piece (t := ⟨2, ![R, K1 + K2 + K3]⟩) (1 : Fin 2) [⟨_, x1⟩, ⟨_, x2⟩, ⟨_, x3⟩] h _
    1 (by show 1 < 3; omega) _ x2 rfl rfl K1 rfl (ix2 r k) ?_ ?_
  · intro b hb
    match b, hb with
    | ⟨0, _⟩, _ => rfl
    | ⟨1, _⟩, hb => exact absurd rfl hb
  · show K1 + k.val = K1 + k.val
    rfl

/-- Three matrices of R rows side by side: a column of the third block reads the third matrix. -/
theorem concat3_apply_trd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K3) :
    concatenate ⟨2, ![R, K1 + K2 + K3]⟩ 1 [⟨_, x1⟩, ⟨_, x2⟩, ⟨_, x3⟩] h (ix2 r (Fin.natAdd (K1 + K2) k))
      = x3 (ix2 r k) := by
  refine concatenate_apply_piece (t := ⟨2, ![R, K1 + K2 + K3]⟩) (1 : Fin 2) [⟨_, x1⟩, ⟨_, x2⟩, ⟨_, x3⟩] h _
    2 (by show 2 < 3; omega) _ x3 rfl rfl (K1 + K2) rfl (ix2 r k) ?_ ?_
  · intro b hb
    match b, hb with
    | ⟨0, _⟩, _ => rfl
    | ⟨1, _⟩, hb => exact absurd rfl hb
  · show K1 + K2 + k.val = K1 + K2 + k.val
    rfl

/-- A property of every entry of each of two matrices of R rows holds of every entry of the two laid side by side:
    an entry whose column is below the first extent is an entry of the first, any other an entry of the second. -/
theorem concat2_forall {R K1 K2 : Nat} (P : α → Prop)
    (h : Shape.Concatenates [(⟨2, ![R, K1]⟩ : Shape), ⟨2, ![R, K2]⟩] ⟨2, ![R, K1 + K2]⟩ (1 : Fin 2))
    (x1 : (⟨2, ![R, K1]⟩ : Shape).Idx → α) (x2 : (⟨2, ![R, K2]⟩ : Shape).Idx → α)
    (h1 : ∀ i, P (x1 i)) (h2 : ∀ i, P (x2 i)) (j : (⟨2, ![R, K1 + K2]⟩ : Shape).Idx) :
    P (concatenate ⟨2, ![R, K1 + K2]⟩ 1 [⟨_, x1⟩, ⟨_, x2⟩] h j) := by
  obtain ⟨r, q, rfl⟩ : ∃ (r : Fin R) (q : Fin (K1 + K2)), j = ix2 r q := ⟨j 0, j 1, eq_ix2 j⟩
  by_cases hq : q.val < K1
  · have e := concatenate_pair_apply_left (t := ⟨2, ![R, K1 + K2]⟩) (1 : Fin 2) x1 x2 h (ix2 r q) rfl (ix2 r ⟨q.val, hq⟩)
      (by
        intro b
        match b with
        | ⟨0, _⟩ => rfl
        | ⟨1, _⟩ => rfl)
    rw [e]
    exact h1 _
  · have hq' : q.val - K1 < K2 := by have := q.isLt; omega
    have e := concatenate_pair_apply_right (t := ⟨2, ![R, K1 + K2]⟩) (1 : Fin 2) x1 x2 h (ix2 r q) rfl rfl
      (ix2 r ⟨q.val - K1, hq'⟩)
      (by
        intro b hb
        match b, hb with
        | ⟨0, _⟩, _ => rfl
        | ⟨1, _⟩, hb => exact absurd rfl hb)
      (by show q.val - K1 + K1 = q.val; omega)
    rw [e]
    exact h2 _

end Cert.HostLayout
-- ==== Proof.LibLinearRows.lean ====
/-
  A linear layer on rows, with its bias, an optional residual and the leaky selection, read at one entry.

  Each dense stage of a message-passing network multiplies a matrix of rows by a weight matrix, adds a bias to every
  row, perhaps adds a second matrix of the same shape, and perhaps passes every entry through the selection
  "the entry if it is positive, a fixed multiple of it otherwise".  Entry (p, c) of the outcome depends on row p of
  the left operand, column c of the weights, entry c of the bias and entry (p, c) of the residual only, so one formula
  describes a block of rows and the whole array alike.  The formula is stated once over arbitrary extents and shown to be
  what two spellings compute at the ideal instance: a product accumulated into a zero array of operands passed through
  a change of float format, the bias a one-row matrix repeated down the rows, the two constants of the selection
  splatted; and a general product, the bias a vector made a row and then repeated down the rows, the two constants
  scalars broadcast to the shape.
-/
import proofs.«150609_j14070312862201_2_alg».proof.Proof.LibMatRows
import proofs.«150609_j14070312862201_2_alg».proof.Proof.LibHostLayout
import Idealize.ShloMosaic.Lib.ValueLayout
import Idealize.ShloMosaic.Lib.Pipeline.Value

noncomputable section

open scoped BigOperators

namespace Idealize.ShloMosaic.LinearRows

open Idealize.ShloMosaic Idealize.ShloMosaic.ValueIdx Idealize.ShloMosaic.MatRows

variable {M K N : Nat}

/-- The selection at one number: v where v is above the number the word z denotes, the number the word s denotes times v
    elsewhere, in the instance's own comparison, product and choice. -/
def leakyAt (z s : BitVec 32) (v : EReal) : EReal :=
  Scalar.select (FloatOps.cmpf (F := Ideal) (φ := .f32) .ogt v (FloatOps.ofBits (F := Ideal) .f32 z)) v
    (FloatOps.mulf (F := Ideal) (φ := .f32) (FloatOps.ofBits (F := Ideal) .f32 s) v)

/-- Entry (p, c) of the product of X by W with entry c of the bias added. -/
def linAt (X : (⟨2, ![M, K]⟩ : Shape).Idx → EReal) (W : (⟨2, ![K, N]⟩ : Shape).Idx → EReal) (b : Fin N → EReal)
    (p : Fin M) (c : Fin N) : EReal :=
  (∑ k : Fin K, X (ix2 p k) * W (ix2 k c)) + b c

/-! ## The kernel's spelling -/

/-- The selection over splatted constants, at an index. -/
theorem kernel_leaky_apply {S : Shape} (z s : BitVec 32) (v : FVec Ideal S .f32) (i : S.Idx) :
    select (cmpf .ogt v (broadcast S (Scalar.ofBits (F := Ideal) .f32 z))) v
        (mulf (broadcast S (Scalar.ofBits (F := Ideal) .f32 s)) v) i
      = leakyAt z s (v i) := rfl

/-- A product into the zero array of operands passed through a change of format, a one-row bias repeated down the rows
    added. -/
theorem kernel_lin_apply (ht1 ht2 : FTy.bf16.bits < FTy.f32.bits)
    (hb : (⟨2, ![1, N]⟩ : Shape).Broadcasts ⟨2, ![M, N]⟩)
    (x0 : FVec Ideal ⟨2, ![M, K]⟩ .f32) (x1 : FVec Ideal ⟨2, ![K, N]⟩ .f32) (x2 : FVec Ideal ⟨2, ![1, N]⟩ .f32)
    (p : Fin M) (c : Fin N) :
    addf (matmul (DotDims.plain M K N) none (truncf .bf16 x0 ht1) (truncf .bf16 x1 ht2)
          (constant (F := Ideal) ⟨2, ![M, N]⟩ .f32 0x00000000#32))
        (broadcastTo ⟨2, ![M, N]⟩ x2 hb) (ix2 p c)
      = linAt x0 x1 (fun q => x2 (ix2 (0 : Fin 1) q)) p c := by
  show matmul (DotDims.plain M K N) none _ _ _ (ix2 p c) + broadcastTo ⟨2, ![M, N]⟩ x2 hb (ix2 p c) = _
  rw [broadcastTo_1b_ab_apply]
  exact congrArg (· + x2 (ix2 (0 : Fin 1) c)) (matmul_plain_apply none _ _ p c)

/-! ## The host's spelling -/

/-- The selection over broadcast scalars, at an index. -/
theorem host_leaky_apply {S : Shape} (h : (⟨0, ![]⟩ : Shape).BroadcastsInDim S (![] : Fin 0 → Fin S.rank))
    (z s : BitVec 32) (v : FVec Ideal S .f32) (i : S.Idx) :
    select (cmpf .ogt v (broadcastInDim S ![] h (constant (F := Ideal) ⟨0, ![]⟩ .f32 z))) v
        (mulf (broadcastInDim S ![] h (constant (F := Ideal) ⟨0, ![]⟩ .f32 s)) v) i
      = leakyAt z s (v i) := by
  show Scalar.select (FloatOps.cmpf (F := Ideal) (φ := .f32) .ogt (v i) (broadcastInDim S ![] h (constant (F := Ideal) ⟨0, ![]⟩ .f32 z) i)) (v i)
      (FloatOps.mulf (F := Ideal) (φ := .f32) (broadcastInDim S ![] h (constant (F := Ideal) ⟨0, ![]⟩ .f32 s) i) (v i)) = _
  rw [Cert.HostLayout.bcast_scalar_apply, Cert.HostLayout.bcast_scalar_apply]
  rfl

/-- A general product, a bias vector made a row and repeated down the rows added. -/
theorem host_lin_apply (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (X : FVec Ideal ⟨2, ![M, K]⟩ .f32) (W : FVec Ideal ⟨2, ![K, N]⟩ .f32) (b : FVec Ideal ⟨1, ![N]⟩ .f32)
    (p : Fin M) (c : Fin N) :
    addf (Host.dotGeneral (F := Ideal) (DotDims.plain M K N) none X W : FVec Ideal ⟨2, ![M, N]⟩ .f32)
        (broadcastInDim ⟨2, ![M, N]⟩ ![0, 1] h2 (broadcastInDim ⟨2, ![1, N]⟩ ![1] h1 b)) (ix2 p c)
      = linAt X W (fun q => b (ix1 q)) p c := by
  show (Host.dotGeneral (F := Ideal) (DotDims.plain M K N) none X W : FVec Ideal ⟨2, ![M, N]⟩ .f32) (ix2 p c)
      + broadcastInDim ⟨2, ![M, N]⟩ ![0, 1] h2 (broadcastInDim ⟨2, ![1, N]⟩ ![1] h1 b) (ix2 p c) = _
  rw [Cert.HostLayout.bcast_cols_apply, Cert.HostLayout.bcast_rowvec_apply]
  exact congrArg (· + b (ix1 c)) (dotGeneral_plain_apply none X W p c)

/-- The formula depends on the operands through the entries it names only. -/
theorem linAt_congr {M' : Nat} {X : (⟨2, ![M, K]⟩ : Shape).Idx → EReal} {X' : (⟨2, ![M', K]⟩ : Shape).Idx → EReal}
    {W W' : (⟨2, ![K, N]⟩ : Shape).Idx → EReal} {b b' : Fin N → EReal} {p : Fin M} {p' : Fin M'} {c : Fin N}
    (hX : ∀ k : Fin K, X (ix2 p k) = X' (ix2 p' k)) (hW : ∀ k : Fin K, W (ix2 k c) = W' (ix2 k c)) (hb : b c = b' c) :
    linAt X W b p c = linAt X' W' b' p' c := by
  unfold linAt
  rw [hb]
  exact congrArg (· + b' c) (Finset.sum_congr rfl fun k _ => by rw [hX k, hW k])

end Idealize.ShloMosaic.LinearRows

end
-- ==== Proof.LibNodeRows.lean ====
/-
  Node rows of a relational message-passing layer, as whole arrays.

  Three stages act on a matrix of node rows H : [M, K].  A linear stage multiplies H by a weight matrix and adds a bias row:
  entry (p, c) is the sum over k of H (p, k) W (k, c), plus B (0, c).  A per-label stage multiplies H by one weight matrix for
  each of L labels: entry (l, p, q) is the sum over k of H (p, k) W (l, k, q).  A closing stage adds two arrays and clamps
  the sum from below at zero.  Each entry of the first two depends on one row of H only, so the formula describes a block
  of rows and the whole array alike.  The formulas are stated once over arbitrary extents and shown to be what a kernel
  body computes on a block (operands passed through a change of float format, products accumulated into a zero array) and
  what the host's general product with a broadcast bias computes on the whole array, at the ideal instance.
-/
import proofs.«150609_j14070312862201_2_alg».proof.Proof.LibLinearRows

noncomputable section

open scoped BigOperators

namespace Idealize.ShloMosaic.NodeRows

open Idealize.ShloMosaic Idealize.ShloMosaic.ValueIdx Idealize.ShloMosaic.MatRows Idealize.ShloMosaic.LinearRows

variable {M K N L : Nat}

/-! ## The three stages on whole arrays -/

/-- The linear stage: rows of X against W, the one-row B added to every row. -/
def linArr (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => linAt X W (fun q => B (ix2 (0 : Fin 1) q)) (i 0) (i 1)

theorem linArr_apply (X : (⟨2, ![M, K]⟩ : Shape).Idx → EReal) (W : (⟨2, ![K, N]⟩ : Shape).Idx → EReal)
    (B : (⟨2, ![1, N]⟩ : Shape).Idx → EReal) (p : Fin M) (c : Fin N) :
    linArr X W B (ix2 p c) = linAt X W (fun q => B (ix2 (0 : Fin 1) q)) p c := rfl

/-- Entry (p, q) of rows X against label l's weights. -/
def labelAt (X : (⟨2, ![M, K]⟩ : Shape).Idx → EReal) (W : (⟨3, ![L, K, N]⟩ : Shape).Idx → EReal)
    (l : Fin L) (p : Fin M) (q : Fin N) : EReal :=
  ∑ k : Fin K, X (ix2 p k) * W (ix3 l k q)

/-- The per-label stage: for every label, rows of X against that label's weights. -/
def labelArr (X : (⟨2, ![M, K]⟩ : Shape).Idx → EReal) (W : (⟨3, ![L, K, N]⟩ : Shape).Idx → EReal) :
    (⟨3, ![L, M, N]⟩ : Shape).Idx → EReal :=
  fun i => labelAt X W (i 0) (i 1) (i 2)

theorem labelArr_apply (X : (⟨2, ![M, K]⟩ : Shape).Idx → EReal) (W : (⟨3, ![L, K, N]⟩ : Shape).Idx → EReal)
    (l : Fin L) (p : Fin M) (q : Fin N) : labelArr X W (ix3 l p q) = labelAt X W l p q := rfl

/-- The formula depends on the operands through the entries it names only. -/
theorem labelAt_congr {M' L' : Nat} {X : (⟨2, ![M, K]⟩ : Shape).Idx → EReal} {X' : (⟨2, ![M', K]⟩ : Shape).Idx → EReal}
    {W : (⟨3, ![L, K, N]⟩ : Shape).Idx → EReal} {W' : (⟨3, ![L', K, N]⟩ : Shape).Idx → EReal}
    {l : Fin L} {l' : Fin L'} {p : Fin M} {p' : Fin M'} {q : Fin N}
    (hX : ∀ k : Fin K, X (ix2 p k) = X' (ix2 p' k)) (hW : ∀ k : Fin K, W (ix3 l k q) = W' (ix3 l' k q)) :
    labelAt X W l p q = labelAt X' W' l' p' q :=
  Finset.sum_congr rfl fun k _ => by rw [hX k, hW k]

/-- The closing stage: the sum of two arrays clamped from below at zero. -/
def reluSum {S : Shape} (a b : FVec Ideal S .f32) : FVec Ideal S .f32 :=
  maximumf (addf a b) (broadcast S (Scalar.ofBits (F := Ideal) .f32 0x00000000#32))

/-! ## A kernel body on a block -/

/-- One label's weights [1, K, N] against a block of rows, the product passed through a change of format and given a
    leading unit axis. -/
theorem kernel_label_apply (ht : FTy.bf16.bits < FTy.f32.bits)
    (h1 : (⟨2, ![M, K]⟩ : Shape).ShapeCasts ⟨2, ![M, K]⟩) (h2 : (⟨3, ![1, K, N]⟩ : Shape).ShapeCasts ⟨2, ![K, N]⟩)
    (h3 : (⟨2, ![M, N]⟩ : Shape).ShapeCasts ⟨3, ![1, M, N]⟩)
    (x0 : FVec Ideal ⟨2, ![M, K]⟩ .f32) (x1 : FVec Ideal ⟨3, ![1, K, N]⟩ .f32) (u : Fin 1) (p : Fin M) (q : Fin N) :
    shapeCast ⟨3, ![1, M, N]⟩
        (truncf (F := Ideal) .bf16 (matmul (F := Ideal) (DotDims.plain M K N) none
            (truncf (F := Ideal) .bf16 (shapeCast ⟨2, ![M, K]⟩ x0 h1 : FVec Ideal ⟨2, ![M, K]⟩ .f32) ht)
            (truncf (F := Ideal) .bf16 (shapeCast ⟨2, ![K, N]⟩ x1 h2 : FVec Ideal ⟨2, ![K, N]⟩ .f32) ht)
            (constant (F := Ideal) ⟨2, ![M, N]⟩ .f32 0x00000000#32)) ht : FVec Ideal ⟨2, ![M, N]⟩ .bf16)
        h3 (ix3 u p q)
      = labelAt x0 x1 (0 : Fin 1) p q := by
  rw [shapeCast_ab_1ab_apply]
  show matmul (F := Ideal) (DotDims.plain M K N) none _ _ _ (ix2 p q) = _
  rw [matmul_plain_apply]
  refine Finset.sum_congr rfl fun k _ => ?_
  show shapeCast ⟨2, ![M, K]⟩ x0 h1 (ix2 p k) * shapeCast ⟨2, ![K, N]⟩ x1 h2 (ix2 k q) = _
  rw [shapeCast_self, shapeCast_1ab_ab_apply]

/-! ## The host's spelling on whole arrays -/

/-- A general product with a bias vector made a row and repeated down the rows is the linear stage with the bias reshaped
    to one row. -/
theorem host_lin_eq (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hr : (⟨1, ![N]⟩ : Shape).ShapeCasts ⟨2, ![1, N]⟩)
    (X : FVec Ideal ⟨2, ![M, K]⟩ .f32) (W : FVec Ideal ⟨2, ![K, N]⟩ .f32) (b : FVec Ideal ⟨1, ![N]⟩ .f32) :
    addf (Host.dotGeneral (F := Ideal) (DotDims.plain M K N) none X W : FVec Ideal ⟨2, ![M, N]⟩ .f32)
        (broadcastInDim ⟨2, ![M, N]⟩ ![0, 1] h2 (broadcastInDim ⟨2, ![1, N]⟩ ![1] h1 b))
      = linArr X W (shapeCast ⟨2, ![1, N]⟩ b hr) := by
  funext i
  obtain ⟨p, c, rfl⟩ : ∃ (p : Fin M) (c : Fin N), i = ix2 p c := ⟨i 0, i 1, eq_ix2 i⟩
  rw [host_lin_apply, linArr_apply]
  exact linAt_congr (fun _ => rfl) (fun _ => rfl) (Cert.HostLayout.reshape_rowvec_apply hr b 0 c).symm

/-- The host's clamp from below at zero (the maximum with the zero scalar broadcast) of a sum is the closing stage. -/
theorem host_relu_eq {S : Shape} (h0 : (⟨0, ![]⟩ : Shape).BroadcastsInDim S (![] : Fin 0 → Fin S.rank))
    (a b : FVec Ideal S .f32) :
    maximumf (addf a b) (broadcastInDim S ![] h0 (constant (F := Ideal) ⟨0, ![]⟩ .f32 0x00000000#32)) = reluSum a b := by
  funext i
  show FloatOps.maximumf (F := Ideal) (φ := .f32) (addf a b i)
      (broadcastInDim S ![] h0 (constant (F := Ideal) ⟨0, ![]⟩ .f32 0x00000000#32) i) = _
  rw [Cert.HostLayout.bcast_scalar_apply]
  rfl

end Idealize.ShloMosaic.NodeRows

end
-- ==== Proof.KernelStages.lean ====
/-
  The host-side stages of the idealized kernel program, named.

  Between its kernel regions the program slices the edge list into sources and targets, slices each layer's weights out of
  the stacked parameter arrays, gathers the rows of the per-label tables that the edges read, adds the gathered rows
  into their target rows, and after the last layer pools the node rows per graph and applies the readout.  Each stage is
  named here as a function of the arrays it reads, at the ideal instance.
-/
import proofs.«150609_j14070312862201_2_alg».proof.Proof.Gen.KernelIdeal
import proofs.«150609_j14070312862201_2_alg».proof.Proof.LibNodeRows

noncomputable section

namespace Cert.KernelIdeal.Hand

open Cert.KernelIdeal Cert.KernelIdeal.Gen Idealize.ShloMosaic Idealize.ShloMosaic.NodeRows

variable {F : FTy → Type} [FloatOps F]

/-- The edge sources of all labels: the first of the two rows of every label's edge list. -/
def srcOf (a1 : (⟨S8x2x200000, .i32⟩ : BufTy).Contents (Elt F)) : (⟨S8x200000, .i32⟩ : BufTy).Contents (Elt F) :=
  shapeCast S8x200000 (extractStridedSlice S8x1x200000 ![0, 0, 0] a1 slices_S8x2x200000_S8x1x200000_0_0_0) shapeCasts_S8x1x200000_S8x200000

/-- The edge targets of all labels, label after label in one list. -/
def dstOf (a1 : (⟨S8x2x200000, .i32⟩ : BufTy).Contents (Elt F)) : (⟨S1600000, .i32⟩ : BufTy).Contents (Elt F) :=
  shapeCast S1600000 (shapeCast S8x200000 (extractStridedSlice S8x1x200000 ![0, 1, 0] a1 slices_S8x2x200000_S8x1x200000_0_1_0)
    shapeCasts_S8x1x200000_S8x200000) shapeCasts_S8x200000_S1600000

/-- The gather's start indices: the sources, a negative one counted back from the node count, as a column. -/
def srcCol (s : (⟨S8x200000, .i32⟩ : BufTy).Contents (Elt F)) : (⟨S8x200000x1, .i32⟩ : BufTy).Contents (Elt F) :=
  broadcastInDim S8x200000x1 ![0, 1] bcast_S8x200000_S8x200000x1_0_1
    (select (cmpi .slt s (broadcastInDim S8x200000 ![] bcast_S_S8x200000 (constantI S_ 32 0#32)))
      (addi s (broadcastInDim S8x200000 ![] bcast_S_S8x200000 (constantI S_ 32 100000#32))) s)

/-- The scatter's indices: the targets as a column. -/
def dstCol (d : (⟨S1600000, .i32⟩ : BufTy).Contents (Elt F)) : (⟨S1600000x1, .i32⟩ : BufTy).Contents (Elt F) :=
  broadcastInDim S1600000x1 ![0] bcast_S1600000_S1600000x1_0 d

/-- The zero array the messages are added into. -/
def zeroRows : (⟨S100000x64, .f32⟩ : BufTy).Contents (Elt F) :=
  broadcastInDim S100000x64 ![] bcast_S_S100000x64 (constant S_ .f32 0x00000000#32)

/-- Root weights of one layer: one [64, 64] slab of the three. -/
def rootW (o : Fin 3 → Nat) (h : S3x64x64.Slices o S1x64x64) (a5 : (⟨S3x64x64, .f32⟩ : BufTy).Contents (Elt F)) :
    (⟨S64x64, .f32⟩ : BufTy).Contents (Elt F) :=
  shapeCast S64x64 (extractStridedSlice S1x64x64 o a5 h) shapeCasts_S1x64x64_S64x64

/-- Root bias of one layer: one row of the three, as a vector. -/
def rootB (o : Fin 2 → Nat) (h : S3x64.Slices o S1x64) (a6 : (⟨S3x64, .f32⟩ : BufTy).Contents (Elt F)) :
    (⟨S64, .f32⟩ : BufTy).Contents (Elt F) :=
  shapeCast S64 (extractStridedSlice S1x64 o a6 h) shapeCasts_S1x64_S64

/-- Per-label weights of one layer: one [8, 64, 64] slab of the three. -/
def convW (o : Fin 4 → Nat) (h : S3x8x64x64.Slices o S1x8x64x64) (a7 : (⟨S3x8x64x64, .f32⟩ : BufTy).Contents (Elt F)) :
    (⟨S8x64x64, .f32⟩ : BufTy).Contents (Elt F) :=
  shapeCast S8x64x64 (extractStridedSlice S1x8x64x64 o a7 h) shapeCasts_S1x8x64x64_S8x64x64

/-- The readout after the last layer: node rows summed per graph and divided by the graph's node count (at least one), a
    dense layer clamped from below at zero, a second dense layer to one number per graph. -/
def readout (H : (⟨S100000x64, .f32⟩ : BufTy).Contents (Elt F)) (a2 : (⟨S100000, .i32⟩ : BufTy).Contents (Elt F))
    (a8 : (⟨S64x64, .f32⟩ : BufTy).Contents (Elt F)) (a9 : (⟨S64, .f32⟩ : BufTy).Contents (Elt F))
    (a10 : (⟨S64x1, .f32⟩ : BufTy).Contents (Elt F)) (a11 : (⟨S1, .f32⟩ : BufTy).Contents (Elt F)) :
    (⟨S32, .f32⟩ : BufTy).Contents (Elt F) :=
  shapeCast S32 (addf (Host.dotGeneral dot_S32x64_S64x1_S32x1_1_0_0_1_n_n none (maximumf (addf (Host.dotGeneral dot_S32x64_S64x64_S32x64_1_0_0_1_n_n none (Host.divf (Host.scatterAdd scatter_S32x64_S100000x1_S100000x64_1_0_0_1 (broadcastInDim S32x64 ![] bcast_S_S32x64 (constant S_ .f32 0x00000000#32)) (broadcastInDim S100000x1 ![0] bcast_S100000_S100000x1_0 a2) H) (broadcastInDim S32x64 ![0, 1] bcast_S32x1_S32x64_0_1 (broadcastInDim S32x1 ![0] bcast_S32_S32x1_0 (maximumf (Host.scatterAdd scatter_S32_S100000x1_S100000_n_0_0_1 (broadcastInDim S32 ![] bcast_S_S32 (constant S_ .f32 0x00000000#32)) (broadcastInDim S100000x1 ![0] bcast_S100000_S100000x1_0 a2) (broadcastInDim S100000 ![] bcast_S_S100000 (constant S_ .f32 0x3F800000#32))) (broadcastInDim S32 ![] bcast_S_S32 (constant S_ .f32 0x3F800000#32)))))) a8) (broadcastInDim S32x64 ![0, 1] bcast_S1x64_S32x64_0_1 (broadcastInDim S1x64 ![1] bcast_S64_S1x64_1 a9))) (broadcastInDim S32x64 ![] bcast_S_S32x64 (constant S_ .f32 0x00000000#32))) a10) (broadcastInDim S32x1 ![0, 1] bcast_S1x1_S32x1_0_1 (broadcastInDim S1x1 ![1] bcast_S1_S1x1_1 a11))) shapeCasts_S32x1_S32

/-- The aggregation: for every edge of every label the row of that label's table the edge reads, added into the edge's
    target row of a zero array.  The tables hold a narrower float format, widened before the addition. -/
def aggK (C : (⟨S8x100000x64, .bf16⟩ : BufTy).Contents (Elt F)) (s : (⟨S8x200000, .i32⟩ : BufTy).Contents (Elt F))
    (d : (⟨S1600000, .i32⟩ : BufTy).Contents (Elt F)) : (⟨S100000x64, .f32⟩ : BufTy).Contents (Elt F) :=
  Host.scatterAdd scatter_S100000x64_S1600000x1_S1600000x64_1_0_0_1 zeroRows (dstCol d)
    (extf .f32 (shapeCast S1600000x64 (Host.gather gather_S8x100000x64_S8x200000x1_S8x200000x64_2_1_0_0_1_2_1164 C (srcCol s))
      shapeCasts_S8x200000x64_S1600000x64) bitsLt_bf16_f32)

/-- One layer: the root linear stage of the node rows plus the aggregation of their per-label tables, clamped from below at
    zero. -/
def layerK (H : (⟨S100000x64, .f32⟩ : BufTy).Contents (Elt Ideal)) (Wr : (⟨S64x64, .f32⟩ : BufTy).Contents (Elt Ideal))
    (br : (⟨S64, .f32⟩ : BufTy).Contents (Elt Ideal)) (Wc : (⟨S8x64x64, .f32⟩ : BufTy).Contents (Elt Ideal))
    (s : (⟨S8x200000, .i32⟩ : BufTy).Contents (Elt Ideal)) (d : (⟨S1600000, .i32⟩ : BufTy).Contents (Elt Ideal)) :
    (⟨S100000x64, .f32⟩ : BufTy).Contents (Elt Ideal) :=
  reluSum (linArr H Wr (shapeCast S1x64 br shapeCasts_S64_S1x64)) (aggK (F := Ideal) (labelArr H Wc) s d)

/-- The embedding: the linear stage of the input features. -/
def embK (x : (⟨S100000x16, .f32⟩ : BufTy).Contents (Elt Ideal)) (W : (⟨S16x64, .f32⟩ : BufTy).Contents (Elt Ideal))
    (b : (⟨S64, .f32⟩ : BufTy).Contents (Elt Ideal)) : (⟨S100000x64, .f32⟩ : BufTy).Contents (Elt Ideal) :=
  linArr x W (shapeCast S1x64 b shapeCasts_S64_S1x64)

end Cert.KernelIdeal.Hand

end
-- ==== Proof.RegionLin0.lean ====
/-
  Kernel region 0: a linear stage on blocks of 4000 node rows.

  The region visits 25 points; point t reads rows 4000 t … 4000 t + 3999 of the [100000, 16] input, the whole [16, 64] weight
  matrix and the whole one-row bias, and writes back rows 4000 t … 4000 t + 3999 of the [100000, 64] result.  Entry (r, q) of
  what the body leaves is the linear stage's entry for row 4000 t + r, which depends on that row of the input only; the 25
  blocks tile the result.  So after the region the result array is the linear stage of the three arrays as the region
  found them.
-/
import proofs.«150609_j14070312862201_2_alg».proof.Proof.Gen.KernelIdeal.Frame
import proofs.«150609_j14070312862201_2_alg».proof.Proof.LibNodeRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Idealize.ShloMosaic.NodeRows Idealize.ShloMosaic.LinearRows

variable (V : (c : Dev nD) → (b : Ref sig .tc) → Buf (Elt Ideal) ((c : Thread nD τ).loc b))

theorem hz_lin0 : (![0, 0] : Fin 2 → Nat) = fun _ => 0 := funext fun a => by fin_cases a <;> rfl

/-- The body's arithmetic at entry (r, q) of a block: the linear stage's formula on the loaded blocks. -/
theorem pay0_apply (x0 : FVec Ideal S4000x16 .f32) (x1 : FVec Ideal S16x64 .f32) (x2 : FVec Ideal S1x64 .f32) (r : Fin 4000) (q : Fin 64) :
    k0_pay1 (F := Ideal) x0 x1 x2 (ix2 r q) = linAt x0 x1 (fun q => x2 (ix2 (0 : Fin 1) q)) r q := by
  unfold k0_pay1
  simp only [shapeCast_self]
  exact kernel_lin_apply bitsLt_bf16_f32 bitsLt_bf16_f32 broadcasts_S1x64_S4000x64 x0 x1 x2 r q

/-- The printed index maps over the grid: the input's and the result's block row is the point's number, every other
    block index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of the input's block at point t is row 4000 t + r of the input array. -/
theorem iblk0_0_apply (c : Dev nD) (t : Fin cfg0.N) (r : Fin 4000) (k : Fin 16) (n : Fin 100000) (hn : n.val = t.val * 4000 + r.val) :
    (iblk0 V c 0 t : FVec Ideal S4000x16 .f32) (ix2 r k) = (V c main_arg0 : S100000x16.Idx → EReal) (ix2 n k) := by
  obtain ⟨e00, e01, -⟩ := idx0 t
  unfold iblk0
  rw [View.read_apply]
  show V c main_arg0 _ = V c main_arg0 _
  congr 1
  funext a
  apply Fin.ext
  match a with
  | ⟨0, _⟩ => show win0_0.index t (0 : Fin 2) * 4000 + 1 * r.val = n.val; rw [e00, hn]; omega
  | ⟨1, _⟩ => show win0_0.index t (1 : Fin 2) * 16 + 1 * k.val = k.val; rw [e01]; omega

/-- The weight block at every point is the weight array. -/
theorem iblk0_1_apply (c : Dev nD) (t : Fin cfg0.N) (k : Fin 16) (q : Fin 64) :
    (iblk0 V c 1 t : FVec Ideal S16x64 .f32) (ix2 k q) = (V c main_arg3 : S16x64.Idx → EReal) (ix2 k q) := by
  obtain ⟨-, -, e10, e11, -⟩ := idx0 t
  unfold iblk0
  rw [View.read_apply]
  show V c main_arg3 _ = V c main_arg3 _
  congr 1
  funext a
  apply Fin.ext
  match a with
  | ⟨0, _⟩ => show win0_1.index t (0 : Fin 2) * 16 + 1 * k.val = k.val; rw [e10]; omega
  | ⟨1, _⟩ => show win0_1.index t (1 : Fin 2) * 64 + 1 * q.val = q.val; rw [e11]; omega

/-- The bias block at every point is the bias row. -/
theorem iblk0_2_apply (c : Dev nD) (t : Fin cfg0.N) (z : Fin 1) (q : Fin 64) :
    (iblk0 V c 2 t : FVec Ideal S1x64 .f32) (ix2 z q) = (V c main_v0 : S1x64.Idx → EReal) (ix2 z q) := by
  obtain ⟨-, -, -, -, e20, e21, -⟩ := idx0 t
  unfold iblk0
  rw [View.read_apply]
  show V c main_v0 _ = V c main_v0 _
  congr 1
  funext a
  apply Fin.ext
  match a with
  | ⟨0, _⟩ => show win0_2.index t (0 : Fin 2) * 1 + 1 * z.val = z.val; rw [e20]; omega
  | ⟨1, _⟩ => show win0_2.index t (1 : Fin 2) * 64 + 1 * q.val = q.val; rw [e21]; omega

/-- What point t writes back is block t of the linear stage of the arrays as the region finds them. -/
theorem flushed0 (c : Dev nD) (t : Fin cfg0.N) :
    (dat0 V c).flushed 3 t = ((cfg0.win 3).blk t).view.read (Elt Ideal)
      (linArr (V c main_arg0 : S100000x16.Idx → EReal) (V c main_arg3 : S16x64.Idx → EReal) (V c main_v0 : S1x64.Idx → EReal)) := by
  show (cfg0.win 3).cut (grid0.coords t) ((dat0 V c).after 3 t) = _
  rw [after0_3]
  unfold out0_3
  rw [View.canon_unit_zero hz_lin0]
  simp only [View.ld_unit_zero (S := S4000x16) hz_lin0, View.ld_unit_zero (S := S16x64) hz_lin0, View.ld_unit_zero (S := S1x64) hz_lin0]
  obtain ⟨-, -, -, -, -, -, e30, e31⟩ := idx0 t
  have ht : t.val < 25 := lt_of_lt_of_eq t.isLt N_0
  funext j
  obtain ⟨r, q, rfl⟩ : ∃ (r : Fin 4000) (q : Fin 64), j = ix2 r q := ⟨j 0, j 1, eq_ix2 j⟩
  have hemb : ((cfg0.win 3).blk t).view.emb (ix2 r q)
      = ix2 (⟨t.val * 4000 + r.val, by have := r.isLt; omega⟩ : Fin 100000) q := by
    funext a
    apply Fin.ext
    match a with
    | ⟨0, _⟩ => show win0_3.index t (0 : Fin 2) * 4000 + 1 * r.val = t.val * 4000 + r.val; rw [e30]; omega
    | ⟨1, _⟩ => show win0_3.index t (1 : Fin 2) * 64 + 1 * q.val = q.val; rw [e31]; omega
  show k0_pay1 (iblk0 V c 0 t) (iblk0 V c 1 t) (iblk0 V c 2 t) (ix2 r q)
    = linArr (V c main_arg0 : S100000x16.Idx → EReal) (V c main_arg3 : S16x64.Idx → EReal) (V c main_v0 : S1x64.Idx → EReal) (((cfg0.win 3).blk t).view.emb (ix2 r q))
  rw [hemb, linArr_apply]
  refine (pay0_apply (iblk0 V c 0 t) (iblk0 V c 1 t) (iblk0 V c 2 t) r q).trans ?_
  exact linAt_congr (fun k => iblk0_0_apply V c t r k _ rfl) (fun k => iblk0_1_apply V c t k q) (iblk0_2_apply V c t 0 q)

/-- An index of the result array is in point t's block iff each coordinate is in the block's range on its axis. -/
theorem mem_blk0 (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v1).slice (win0_3.rect t)).set ↔ _
  rw [View.set_slice_whole, Rect.mem_set_unit]
  exact Iff.rfl

/-- After the region the result array is the linear stage of the arrays as the region found them: row n is covered by
    point n / 4000. -/
theorem final0 (c : Dev nD) :
    (dat0 V c).arrAt 3 cfg0.N
      = linArr (V c main_arg0 : S100000x16.Idx → EReal) (V c main_arg3 : S16x64.Idx → EReal) (V c main_v0 : S1x64.Idx → EReal) :=
  (dat0 V c).arrAt_eq_of_cover 3 _ (fun t _ => flushed0 V c t) fun i => by
    have hi0 : (i 0).val < 100000 := (i 0).isLt
    have hi1 : (i 1).val < 64 := (i 1).isLt
    have hN : cfg0.N = 25 := N_0
    obtain ⟨t, htv⟩ : ∃ t : Fin cfg0.N, t.val = (i 0).val / 4000 := ⟨⟨(i 0).val / 4000, by rw [hN]; omega⟩, rfl⟩
    obtain ⟨-, -, -, -, -, -, e30, e31⟩ := idx0 t
    refine ⟨t, flush0_3 t, ?_⟩
    rw [mem_blk0]
    intro a
    match a with
    | ⟨0, _⟩ =>
      show win0_3.index t (0 : Fin 2) * 4000 ≤ (i 0).val ∧ (i 0).val < win0_3.index t (0 : Fin 2) * 4000 + 4000
      rw [e30, htv]; omega
    | ⟨1, _⟩ =>
      show win0_3.index t (1 : Fin 2) * 64 ≤ (i 1).val ∧ (i 1).val < win0_3.index t (1 : Fin 2) * 64 + 64
      rw [e31]; omega

end Cert.KernelIdeal.Hand

end
-- ==== Proof.RegionLin1.lean ====
/-
  Kernel region 1: a linear stage on blocks of 4000 node rows.

  The region visits 25 points; point t reads rows 4000 t … 4000 t + 3999 of the [100000, 64] input, the whole [64, 64] weight
  matrix and the whole one-row bias, and writes back rows 4000 t … 4000 t + 3999 of the [100000, 64] result.  Entry (r, q) of
  what the body leaves is the linear stage's entry for row 4000 t + r, which depends on that row of the input only; the 25
  blocks tile the result.  So after the region the result array is the linear stage of the three arrays as the region
  found them.
-/
import proofs.«150609_j14070312862201_2_alg».proof.Proof.Gen.KernelIdeal.Frame
import proofs.«150609_j14070312862201_2_alg».proof.Proof.LibNodeRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Idealize.ShloMosaic.NodeRows Idealize.ShloMosaic.LinearRows

variable (V : (c : Dev nD) → (b : Ref sig .tc) → Buf (Elt Ideal) ((c : Thread nD τ).loc b))

theorem hz_lin1 : (![0, 0] : Fin 2 → Nat) = fun _ => 0 := funext fun a => by fin_cases a <;> rfl

/-- The body's arithmetic at entry (r, q) of a block: the linear stage's formula on the loaded blocks. -/
theorem pay1_apply (x0 : FVec Ideal S4000x64 .f32) (x1 : FVec Ideal S64x64 .f32) (x2 : FVec Ideal S1x64 .f32) (r : Fin 4000) (q : Fin 64) :
    k1_pay1 (F := Ideal) x0 x1 x2 (ix2 r q) = linAt x0 x1 (fun q => x2 (ix2 (0 : Fin 1) q)) r q := by
  unfold k1_pay1
  simp only [shapeCast_self]
  exact kernel_lin_apply bitsLt_bf16_f32 bitsLt_bf16_f32 broadcasts_S1x64_S4000x64 x0 x1 x2 r q

/-- The printed index maps over the grid: the input's and the result's block row is the point's number, every other
    block index is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row r of the input's block at point t is row 4000 t + r of the input array. -/
theorem iblk1_0_apply (c : Dev nD) (t : Fin cfg1.N) (r : Fin 4000) (k : Fin 64) (n : Fin 100000) (hn : n.val = t.val * 4000 + r.val) :
    (iblk1 V c 0 t : FVec Ideal S4000x64 .f32) (ix2 r k) = (V c main_v1 : S100000x64.Idx → EReal) (ix2 n k) := by
  obtain ⟨e00, e01, -⟩ := idx1 t
  unfold iblk1
  rw [View.read_apply]
  show V c main_v1 _ = V c main_v1 _
  congr 1
  funext a
  apply Fin.ext
  match a with
  | ⟨0, _⟩ => show win1_0.index t (0 : Fin 2) * 4000 + 1 * r.val = n.val; rw [e00, hn]; omega
  | ⟨1, _⟩ => show win1_0.index t (1 : Fin 2) * 64 + 1 * k.val = k.val; rw [e01]; omega

/-- The weight block at every point is the weight array. -/
theorem iblk1_1_apply (c : Dev nD) (t : Fin cfg1.N) (k : Fin 64) (q : Fin 64) :
    (iblk1 V c 1 t : FVec Ideal S64x64 .f32) (ix2 k q) = (V c main_v8 : S64x64.Idx → EReal) (ix2 k q) := by
  obtain ⟨-, -, e10, e11, -⟩ := idx1 t
  unfold iblk1
  rw [View.read_apply]
  show V c main_v8 _ = V c main_v8 _
  congr 1
  funext a
  apply Fin.ext
  match a with
  | ⟨0, _⟩ => show win1_1.index t (0 : Fin 2) * 64 + 1 * k.val = k.val; rw [e10]; omega
  | ⟨1, _⟩ => show win1_1.index t (1 : Fin 2) * 64 + 1 * q.val = q.val; rw [e11]; omega

/-- The bias block at every point is the bias row. -/
theorem iblk1_2_apply (c : Dev nD) (t : Fin cfg1.N) (z : Fin 1) (q : Fin 64) :
    (iblk1 V c 2 t : FVec Ideal S1x64 .f32) (ix2 z q) = (V c main_v11 : S1x64.Idx → EReal) (ix2 z q) := by
  obtain ⟨-, -, -, -, e20, e21, -⟩ := idx1 t
  unfold iblk1
  rw [View.read_apply]
  show V c main_v11 _ = V c main_v11 _
  congr 1
  funext a
  apply Fin.ext
  match a with
  | ⟨0, _⟩ => show win1_2.index t (0 : Fin 2) * 1 + 1 * z.val = z.val; rw [e20]; omega
  | ⟨1, _⟩ => show win1_2.index t (1 : Fin 2) * 64 + 1 * q.val = q.val; rw [e21]; omega

/-- What point t writes back is block t of the linear stage of the arrays as the region finds them. -/
theorem flushed1 (c : Dev nD) (t : Fin cfg1.N) :
    (dat1 V c).flushed 3 t = ((cfg1.win 3).blk t).view.read (Elt Ideal)
      (linArr (V c main_v1 : S100000x64.Idx → EReal) (V c main_v8 : S64x64.Idx → EReal) (V c main_v11 : S1x64.Idx → EReal)) := by
  show (cfg1.win 3).cut (grid1.coords t) ((dat1 V c).after 3 t) = _
  rw [after1_3]
  unfold out1_3
  rw [View.canon_unit_zero hz_lin1]
  simp only [View.ld_unit_zero (S := S4000x64) hz_lin1, View.ld_unit_zero (S := S64x64) hz_lin1, View.ld_unit_zero (S := S1x64) hz_lin1]
  obtain ⟨-, -, -, -, -, -, e30, e31⟩ := idx1 t
  have ht : t.val < 25 := lt_of_lt_of_eq t.isLt N_1
  funext j
  obtain ⟨r, q, rfl⟩ : ∃ (r : Fin 4000) (q : Fin 64), j = ix2 r q := ⟨j 0, j 1, eq_ix2 j⟩
  have hemb : ((cfg1.win 3).blk t).view.emb (ix2 r q)
      = ix2 (⟨t.val * 4000 + r.val, by have := r.isLt; omega⟩ : Fin 100000) q := by
    funext a
    apply Fin.ext
    match a with
    | ⟨0, _⟩ => show win1_3.index t (0 : Fin 2) * 4000 + 1 * r.val = t.val * 4000 + r.val; rw [e30]; omega
    | ⟨1, _⟩ => show win1_3.index t (1 : Fin 2) * 64 + 1 * q.val = q.val; rw [e31]; omega
  show k1_pay1 (iblk1 V c 0 t) (iblk1 V c 1 t) (iblk1 V c 2 t) (ix2 r q)
    = linArr (V c main_v1 : S100000x64.Idx → EReal) (V c main_v8 : S64x64.Idx → EReal) (V c main_v11 : S1x64.Idx → EReal) (((cfg1.win 3).blk t).view.emb (ix2 r q))
  rw [hemb, linArr_apply]
  refine (pay1_apply (iblk1 V c 0 t) (iblk1 V c 1 t) (iblk1 V c 2 t) r q).trans ?_
  exact linAt_congr (fun k => iblk1_0_apply V c t r k _ rfl) (fun k => iblk1_1_apply V c t k q) (iblk1_2_apply V c t 0 q)

/-- An index of the result array is in point t's block iff each coordinate is in the block's range on its axis. -/
theorem mem_blk1 (t : Fin cfg1.N) (i : S100000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v12).slice (win1_3.rect t)).set ↔ _
  rw [View.set_slice_whole, Rect.mem_set_unit]
  exact Iff.rfl

/-- After the region the result array is the linear stage of the arrays as the region found them: row n is covered by
    point n / 4000. -/
theorem final1 (c : Dev nD) :
    (dat1 V c).arrAt 3 cfg1.N
      = linArr (V c main_v1 : S100000x64.Idx → EReal) (V c main_v8 : S64x64.Idx → EReal) (V c main_v11 : S1x64.Idx → EReal) :=
  (dat1 V c).arrAt_eq_of_cover 3 _ (fun t _ => flushed1 V c t) fun i => by
    have hi0 : (i 0).val < 100000 := (i 0).isLt
    have hi1 : (i 1).val < 64 := (i 1).isLt
    have hN : cfg1.N = 25 := N_1
    obtain ⟨t, htv⟩ : ∃ t : Fin cfg1.N, t.val = (i 0).val / 4000 := ⟨⟨(i 0).val / 4000, by rw [hN]; omega⟩, rfl⟩
    obtain ⟨-, -, -, -, -, -, e30, e31⟩ := idx1 t
    refine ⟨t, flush1_3 t, ?_⟩
    rw [mem_blk1]
    intro a
    match a with
    | ⟨0, _⟩ =>
      show win1_3.index t (0 : Fin 2) * 4000 ≤ (i 0).val ∧ (i 0).val < win1_3.index t (0 : Fin 2) * 4000 + 4000
      rw [e30, htv]; omega
    | ⟨1, _⟩ =>
      show win1_3.index t (1 : Fin 2) * 64 ≤ (i 1).val ∧ (i 1).val < win1_3.index t (1 : Fin 2) * 64 + 64
      rw [e31]; omega

end Cert.KernelIdeal.Hand

end
-- ==== Proof.RegionLin4.lean ====
/-
  Kernel region 4: a linear stage on blocks of 4000 node rows.

  The region visits 25 points; point t reads rows 4000 t … 4000 t + 3999 of the [100000, 64] input, the whole [64, 64] weight
  matrix and the whole one-row bias, and writes back rows 4000 t … 4000 t + 3999 of the [100000, 64] result.  Entry (r, q) of
  what the body leaves is the linear stage's entry for row 4000 t + r, which depends on that row of the input only; the 25
  blocks tile the result.  So after the region the result array is the linear stage of the three arrays as the region
  found them.
-/
import proofs.«150609_j14070312862201_2_alg».proof.Proof.Gen.KernelIdeal.Frame
import proofs.«150609_j14070312862201_2_alg».proof.Proof.LibNodeRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Idealize.ShloMosaic.NodeRows Idealize.ShloMosaic.LinearRows

variable (V : (c : Dev nD) → (b : Ref sig .tc) → Buf (Elt Ideal) ((c : Thread nD τ).loc b))

theorem hz_lin4 : (![0, 0] : Fin 2 → Nat) = fun _ => 0 := funext fun a => by fin_cases a <;> rfl

/-- The body's arithmetic at entry (r, q) of a block: the linear stage's formula on the loaded blocks. -/
theorem pay4_apply (x0 : FVec Ideal S4000x64 .f32) (x1 : FVec Ideal S64x64 .f32) (x2 : FVec Ideal S1x64 .f32) (r : Fin 4000) (q : Fin 64) :
    k4_pay1 (F := Ideal) x0 x1 x2 (ix2 r q) = linAt x0 x1 (fun q => x2 (ix2 (0 : Fin 1) q)) r q := by
  unfold k4_pay1
  simp only [shapeCast_self]
  exact kernel_lin_apply bitsLt_bf16_f32 bitsLt_bf16_f32 broadcasts_S1x64_S4000x64 x0 x1 x2 r q

/-- The printed index maps over the grid: the input's and the result's block row is the point's number, every other
    block index is zero. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row r of the input's block at point t is row 4000 t + r of the input array. -/
theorem iblk4_0_apply (c : Dev nD) (t : Fin cfg4.N) (r : Fin 4000) (k : Fin 64) (n : Fin 100000) (hn : n.val = t.val * 4000 + r.val) :
    (iblk4 V c 0 t : FVec Ideal S4000x64 .f32) (ix2 r k) = (V c main_v28 : S100000x64.Idx → EReal) (ix2 n k) := by
  obtain ⟨e00, e01, -⟩ := idx4 t
  unfold iblk4
  rw [View.read_apply]
  show V c main_v28 _ = V c main_v28 _
  congr 1
  funext a
  apply Fin.ext
  match a with
  | ⟨0, _⟩ => show win4_0.index t (0 : Fin 2) * 4000 + 1 * r.val = n.val; rw [e00, hn]; omega
  | ⟨1, _⟩ => show win4_0.index t (1 : Fin 2) * 64 + 1 * k.val = k.val; rw [e01]; omega

/-- The weight block at every point is the weight array. -/
theorem iblk4_1_apply (c : Dev nD) (t : Fin cfg4.N) (k : Fin 64) (q : Fin 64) :
    (iblk4 V c 1 t : FVec Ideal S64x64 .f32) (ix2 k q) = (V c main_v30 : S64x64.Idx → EReal) (ix2 k q) := by
  obtain ⟨-, -, e10, e11, -⟩ := idx4 t
  unfold iblk4
  rw [View.read_apply]
  show V c main_v30 _ = V c main_v30 _
  congr 1
  funext a
  apply Fin.ext
  match a with
  | ⟨0, _⟩ => show win4_1.index t (0 : Fin 2) * 64 + 1 * k.val = k.val; rw [e10]; omega
  | ⟨1, _⟩ => show win4_1.index t (1 : Fin 2) * 64 + 1 * q.val = q.val; rw [e11]; omega

/-- The bias block at every point is the bias row. -/
theorem iblk4_2_apply (c : Dev nD) (t : Fin cfg4.N) (z : Fin 1) (q : Fin 64) :
    (iblk4 V c 2 t : FVec Ideal S1x64 .f32) (ix2 z q) = (V c main_v33 : S1x64.Idx → EReal) (ix2 z q) := by
  obtain ⟨-, -, -, -, e20, e21, -⟩ := idx4 t
  unfold iblk4
  rw [View.read_apply]
  show V c main_v33 _ = V c main_v33 _
  congr 1
  funext a
  apply Fin.ext
  match a with
  | ⟨0, _⟩ => show win4_2.index t (0 : Fin 2) * 1 + 1 * z.val = z.val; rw [e20]; omega
  | ⟨1, _⟩ => show win4_2.index t (1 : Fin 2) * 64 + 1 * q.val = q.val; rw [e21]; omega

/-- What point t writes back is block t of the linear stage of the arrays as the region finds them. -/
theorem flushed4 (c : Dev nD) (t : Fin cfg4.N) :
    (dat4 V c).flushed 3 t = ((cfg4.win 3).blk t).view.read (Elt Ideal)
      (linArr (V c main_v28 : S100000x64.Idx → EReal) (V c main_v30 : S64x64.Idx → EReal) (V c main_v33 : S1x64.Idx → EReal)) := by
  show (cfg4.win 3).cut (grid4.coords t) ((dat4 V c).after 3 t) = _
  rw [after4_3]
  unfold out4_3
  rw [View.canon_unit_zero hz_lin4]
  simp only [View.ld_unit_zero (S := S4000x64) hz_lin4, View.ld_unit_zero (S := S64x64) hz_lin4, View.ld_unit_zero (S := S1x64) hz_lin4]
  obtain ⟨-, -, -, -, -, -, e30, e31⟩ := idx4 t
  have ht : t.val < 25 := lt_of_lt_of_eq t.isLt N_4
  funext j
  obtain ⟨r, q, rfl⟩ : ∃ (r : Fin 4000) (q : Fin 64), j = ix2 r q := ⟨j 0, j 1, eq_ix2 j⟩
  have hemb : ((cfg4.win 3).blk t).view.emb (ix2 r q)
      = ix2 (⟨t.val * 4000 + r.val, by have := r.isLt; omega⟩ : Fin 100000) q := by
    funext a
    apply Fin.ext
    match a with
    | ⟨0, _⟩ => show win4_3.index t (0 : Fin 2) * 4000 + 1 * r.val = t.val * 4000 + r.val; rw [e30]; omega
    | ⟨1, _⟩ => show win4_3.index t (1 : Fin 2) * 64 + 1 * q.val = q.val; rw [e31]; omega
  show k4_pay1 (iblk4 V c 0 t) (iblk4 V c 1 t) (iblk4 V c 2 t) (ix2 r q)
    = linArr (V c main_v28 : S100000x64.Idx → EReal) (V c main_v30 : S64x64.Idx → EReal) (V c main_v33 : S1x64.Idx → EReal) (((cfg4.win 3).blk t).view.emb (ix2 r q))
  rw [hemb, linArr_apply]
  refine (pay4_apply (iblk4 V c 0 t) (iblk4 V c 1 t) (iblk4 V c 2 t) r q).trans ?_
  exact linAt_congr (fun k => iblk4_0_apply V c t r k _ rfl) (fun k => iblk4_1_apply V c t k q) (iblk4_2_apply V c t 0 q)

/-- An index of the result array is in point t's block iff each coordinate is in the block's range on its axis. -/
theorem mem_blk4 (t : Fin cfg4.N) (i : S100000x64.Idx) :
    i ∈ ((cfg4.win 3).blk t).view.set ↔ ∀ a : Fin 2, win4_3.index t a * S4000x64.size a ≤ (i a).val ∧ (i a).val < win4_3.index t a * S4000x64.size a + S4000x64.size a := by
  show i ∈ ((View.whole main_v34).slice (win4_3.rect t)).set ↔ _
  rw [View.set_slice_whole, Rect.mem_set_unit]
  exact Iff.rfl

/-- After the region the result array is the linear stage of the arrays as the region found them: row n is covered by
    point n / 4000. -/
theorem final4 (c : Dev nD) :
    (dat4 V c).arrAt 3 cfg4.N
      = linArr (V c main_v28 : S100000x64.Idx → EReal) (V c main_v30 : S64x64.Idx → EReal) (V c main_v33 : S1x64.Idx → EReal) :=
  (dat4 V c).arrAt_eq_of_cover 3 _ (fun t _ => flushed4 V c t) fun i => by
    have hi0 : (i 0).val < 100000 := (i 0).isLt
    have hi1 : (i 1).val < 64 := (i 1).isLt
    have hN : cfg4.N = 25 := N_4
    obtain ⟨t, htv⟩ : ∃ t : Fin cfg4.N, t.val = (i 0).val / 4000 := ⟨⟨(i 0).val / 4000, by rw [hN]; omega⟩, rfl⟩
    obtain ⟨-, -, -, -, -, -, e30, e31⟩ := idx4 t
    refine ⟨t, flush4_3 t, ?_⟩
    rw [mem_blk4]
    intro a
    match a with
    | ⟨0, _⟩ =>
      show win4_3.index t (0 : Fin 2) * 4000 ≤ (i 0).val ∧ (i 0).val < win4_3.index t (0 : Fin 2) * 4000 + 4000
      rw [e30, htv]; omega
    | ⟨1, _⟩ =>
      show win4_3.index t (1 : Fin 2) * 64 ≤ (i 1).val ∧ (i 1).val < win4_3.index t (1 : Fin 2) * 64 + 64
      rw [e31]; omega

end Cert.KernelIdeal.Hand

end
-- ==== Proof.RegionLin7.lean ====
/-
  Kernel region 7: a linear stage on blocks of 4000 node rows.

  The region visits 25 points; point t reads rows 4000 t … 4000 t + 3999 of the [100000, 64] input, the whole [64, 64] weight
  matrix and the whole one-row bias, and writes back rows 4000 t … 4000 t + 3999 of the [100000, 64] result.  Entry (r, q) of
  what the body leaves is the linear stage's entry for row 4000 t + r, which depends on that row of the input only; the 25
  blocks tile the result.  So after the region the result array is the linear stage of the three arrays as the region
  found them.
-/
import proofs.«150609_j14070312862201_2_alg».proof.Proof.Gen.KernelIdeal.Frame
import proofs.«150609_j14070312862201_2_alg».proof.Proof.LibNodeRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Idealize.ShloMosaic.NodeRows Idealize.ShloMosaic.LinearRows

variable (V : (c : Dev nD) → (b : Ref sig .tc) → Buf (Elt Ideal) ((c : Thread nD τ).loc b))

theorem hz_lin7 : (![0, 0] : Fin 2 → Nat) = fun _ => 0 := funext fun a => by fin_cases a <;> rfl

/-- The body's arithmetic at entry (r, q) of a block: the linear stage's formula on the loaded blocks. -/
theorem pay7_apply (x0 : FVec Ideal S4000x64 .f32) (x1 : FVec Ideal S64x64 .f32) (x2 : FVec Ideal S1x64 .f32) (r : Fin 4000) (q : Fin 64) :
    k7_pay1 (F := Ideal) x0 x1 x2 (ix2 r q) = linAt x0 x1 (fun q => x2 (ix2 (0 : Fin 1) q)) r q := by
  unfold k7_pay1
  simp only [shapeCast_self]
  exact kernel_lin_apply bitsLt_bf16_f32 bitsLt_bf16_f32 broadcasts_S1x64_S4000x64 x0 x1 x2 r q

/-- The printed index maps over the grid: the input's and the result's block row is the point's number, every other
    block index is zero. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Row r of the input's block at point t is row 4000 t + r of the input array. -/
theorem iblk7_0_apply (c : Dev nD) (t : Fin cfg7.N) (r : Fin 4000) (k : Fin 64) (n : Fin 100000) (hn : n.val = t.val * 4000 + r.val) :
    (iblk7 V c 0 t : FVec Ideal S4000x64 .f32) (ix2 r k) = (V c main_v50 : S100000x64.Idx → EReal) (ix2 n k) := by
  obtain ⟨e00, e01, -⟩ := idx7 t
  unfold iblk7
  rw [View.read_apply]
  show V c main_v50 _ = V c main_v50 _
  congr 1
  funext a
  apply Fin.ext
  match a with
  | ⟨0, _⟩ => show win7_0.index t (0 : Fin 2) * 4000 + 1 * r.val = n.val; rw [e00, hn]; omega
  | ⟨1, _⟩ => show win7_0.index t (1 : Fin 2) * 64 + 1 * k.val = k.val; rw [e01]; omega

/-- The weight block at every point is the weight array. -/
theorem iblk7_1_apply (c : Dev nD) (t : Fin cfg7.N) (k : Fin 64) (q : Fin 64) :
    (iblk7 V c 1 t : FVec Ideal S64x64 .f32) (ix2 k q) = (V c main_v52 : S64x64.Idx → EReal) (ix2 k q) := by
  obtain ⟨-, -, e10, e11, -⟩ := idx7 t
  unfold iblk7
  rw [View.read_apply]
  show V c main_v52 _ = V c main_v52 _
  congr 1
  funext a
  apply Fin.ext
  match a with
  | ⟨0, _⟩ => show win7_1.index t (0 : Fin 2) * 64 + 1 * k.val = k.val; rw [e10]; omega
  | ⟨1, _⟩ => show win7_1.index t (1 : Fin 2) * 64 + 1 * q.val = q.val; rw [e11]; omega

/-- The bias block at every point is the bias row. -/
theorem iblk7_2_apply (c : Dev nD) (t : Fin cfg7.N) (z : Fin 1) (q : Fin 64) :
    (iblk7 V c 2 t : FVec Ideal S1x64 .f32) (ix2 z q) = (V c main_v55 : S1x64.Idx → EReal) (ix2 z q) := by
  obtain ⟨-, -, -, -, e20, e21, -⟩ := idx7 t
  unfold iblk7
  rw [View.read_apply]
  show V c main_v55 _ = V c main_v55 _
  congr 1
  funext a
  apply Fin.ext
  match a with
  | ⟨0, _⟩ => show win7_2.index t (0 : Fin 2) * 1 + 1 * z.val = z.val; rw [e20]; omega
  | ⟨1, _⟩ => show win7_2.index t (1 : Fin 2) * 64 + 1 * q.val = q.val; rw [e21]; omega

/-- What point t writes back is block t of the linear stage of the arrays as the region finds them. -/
theorem flushed7 (c : Dev nD) (t : Fin cfg7.N) :
    (dat7 V c).flushed 3 t = ((cfg7.win 3).blk t).view.read (Elt Ideal)
      (linArr (V c main_v50 : S100000x64.Idx → EReal) (V c main_v52 : S64x64.Idx → EReal) (V c main_v55 : S1x64.Idx → EReal)) := by
  show (cfg7.win 3).cut (grid7.coords t) ((dat7 V c).after 3 t) = _
  rw [after7_3]
  unfold out7_3
  rw [View.canon_unit_zero hz_lin7]
  simp only [View.ld_unit_zero (S := S4000x64) hz_lin7, View.ld_unit_zero (S := S64x64) hz_lin7, View.ld_unit_zero (S := S1x64) hz_lin7]
  obtain ⟨-, -, -, -, -, -, e30, e31⟩ := idx7 t
  have ht : t.val < 25 := lt_of_lt_of_eq t.isLt N_7
  funext j
  obtain ⟨r, q, rfl⟩ : ∃ (r : Fin 4000) (q : Fin 64), j = ix2 r q := ⟨j 0, j 1, eq_ix2 j⟩
  have hemb : ((cfg7.win 3).blk t).view.emb (ix2 r q)
      = ix2 (⟨t.val * 4000 + r.val, by have := r.isLt; omega⟩ : Fin 100000) q := by
    funext a
    apply Fin.ext
    match a with
    | ⟨0, _⟩ => show win7_3.index t (0 : Fin 2) * 4000 + 1 * r.val = t.val * 4000 + r.val; rw [e30]; omega
    | ⟨1, _⟩ => show win7_3.index t (1 : Fin 2) * 64 + 1 * q.val = q.val; rw [e31]; omega
  show k7_pay1 (iblk7 V c 0 t) (iblk7 V c 1 t) (iblk7 V c 2 t) (ix2 r q)
    = linArr (V c main_v50 : S100000x64.Idx → EReal) (V c main_v52 : S64x64.Idx → EReal) (V c main_v55 : S1x64.Idx → EReal) (((cfg7.win 3).blk t).view.emb (ix2 r q))
  rw [hemb, linArr_apply]
  refine (pay7_apply (iblk7 V c 0 t) (iblk7 V c 1 t) (iblk7 V c 2 t) r q).trans ?_
  exact linAt_congr (fun k => iblk7_0_apply V c t r k _ rfl) (fun k => iblk7_1_apply V c t k q) (iblk7_2_apply V c t 0 q)

/-- An index of the result array is in point t's block iff each coordinate is in the block's range on its axis. -/
theorem mem_blk7 (t : Fin cfg7.N) (i : S100000x64.Idx) :
    i ∈ ((cfg7.win 3).blk t).view.set ↔ ∀ a : Fin 2, win7_3.index t a * S4000x64.size a ≤ (i a).val ∧ (i a).val < win7_3.index t a * S4000x64.size a + S4000x64.size a := by
  show i ∈ ((View.whole main_v56).slice (win7_3.rect t)).set ↔ _
  rw [View.set_slice_whole, Rect.mem_set_unit]
  exact Iff.rfl

/-- After the region the result array is the linear stage of the arrays as the region found them: row n is covered by
    point n / 4000. -/
theorem final7 (c : Dev nD) :
    (dat7 V c).arrAt 3 cfg7.N
      = linArr (V c main_v50 : S100000x64.Idx → EReal) (V c main_v52 : S64x64.Idx → EReal) (V c main_v55 : S1x64.Idx → EReal) :=
  (dat7 V c).arrAt_eq_of_cover 3 _ (fun t _ => flushed7 V c t) fun i => by
    have hi0 : (i 0).val < 100000 := (i 0).isLt
    have hi1 : (i 1).val < 64 := (i 1).isLt
    have hN : cfg7.N = 25 := N_7
    obtain ⟨t, htv⟩ : ∃ t : Fin cfg7.N, t.val = (i 0).val / 4000 := ⟨⟨(i 0).val / 4000, by rw [hN]; omega⟩, rfl⟩
    obtain ⟨-, -, -, -, -, -, e30, e31⟩ := idx7 t
    refine ⟨t, flush7_3 t, ?_⟩
    rw [mem_blk7]
    intro a
    match a with
    | ⟨0, _⟩ =>
      show win7_3.index t (0 : Fin 2) * 4000 ≤ (i 0).val ∧ (i 0).val < win7_3.index t (0 : Fin 2) * 4000 + 4000
      rw [e30, htv]; omega
    | ⟨1, _⟩ =>
      show win7_3.index t (1 : Fin 2) * 64 ≤ (i 1).val ∧ (i 1).val < win7_3.index t (1 : Fin 2) * 64 + 64
      rw [e31]; omega

end Cert.KernelIdeal.Hand

end
-- ==== Proof.RegionConv2.lean ====
/-
  Kernel region 2: the per-label stage on blocks of 4000 node rows.

  The region visits 200 points, numbered 8 b + l for row block b < 25 and label l < 8; the point reads rows
  4000 b … 4000 b + 3999 of the [100000, 64] node rows and label l's [64, 64] weights, and writes back rows
  4000 b … 4000 b + 3999 of table l of the [8, 100000, 64] result.  Entry (0, r, q) of what the body leaves is the
  per-label stage's entry (l, 4000 b + r, q), which depends on that one node row only; the 200 blocks tile the result.  So
  after the region the result array is the per-label stage of the two arrays as the region found them.
-/
import proofs.«150609_j14070312862201_2_alg».proof.Proof.Gen.KernelIdeal.Frame
import proofs.«150609_j14070312862201_2_alg».proof.Proof.LibNodeRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Idealize.ShloMosaic.NodeRows Idealize.ShloMosaic.LinearRows

variable (V : (c : Dev nD) → (b : Ref sig .tc) → Buf (Elt Ideal) ((c : Thread nD τ).loc b))

theorem hz2_conv2 : (![0, 0] : Fin 2 → Nat) = fun _ => 0 := funext fun a => by fin_cases a <;> rfl
theorem hz3_conv2 : (![0, 0, 0] : Fin 3 → Nat) = fun _ => 0 := funext fun a => by fin_cases a <;> rfl

/-- The body's arithmetic at entry (u, r, q) of a block: the per-label formula on the loaded blocks. -/
theorem pay2_apply (x0 : FVec Ideal S4000x64 .f32) (x1 : FVec Ideal S1x64x64 .f32) (u : Fin 1) (r : Fin 4000) (q : Fin 64) :
    k2_pay1 (F := Ideal) x0 x1 (ix3 u r q) = labelAt x0 x1 (0 : Fin 1) r q := by
  unfold k2_pay1
  exact kernel_label_apply bitsLt_bf16_f32 shapeCasts_S4000x64_S4000x64 shapeCasts_S1x64x64_S64x64 shapeCasts_S4000x64_S1x4000x64 x0 x1 u r q

/-- The printed index maps over the grid: point t is row block t / 8 and label t % 8. -/
theorem idx2 : ∀ t : Fin cfg2.N, win2_0.index t (0 : Fin 2) = t.val / 8 ∧ win2_0.index t (1 : Fin 2) = 0
    ∧ win2_1.index t (0 : Fin 3) = t.val % 8 ∧ win2_1.index t (1 : Fin 3) = 0 ∧ win2_1.index t (2 : Fin 3) = 0
    ∧ win2_2.index t (0 : Fin 3) = t.val % 8 ∧ win2_2.index t (1 : Fin 3) = t.val / 8 ∧ win2_2.index t (2 : Fin 3) = 0 :=
  (by decide +kernel : ∀ t : Fin grid2.N, _)

/-- Row r of the node-row block at point t is row 4000 (t / 8) + r of the node rows. -/
theorem iblk2_0_apply (c : Dev nD) (t : Fin cfg2.N) (r : Fin 4000) (k : Fin 64) (n : Fin 100000) (hn : n.val = t.val / 8 * 4000 + r.val) :
    (iblk2 V c 0 t : FVec Ideal S4000x64 .f32) (ix2 r k) = (V c main_v1 : S100000x64.Idx → EReal) (ix2 n k) := by
  obtain ⟨e00, e01, -⟩ := idx2 t
  unfold iblk2
  rw [View.read_apply]
  show V c main_v1 _ = V c main_v1 _
  congr 1
  funext a
  apply Fin.ext
  match a with
  | ⟨0, _⟩ => show win2_0.index t (0 : Fin 2) * 4000 + 1 * r.val = n.val; rw [e00, hn]; omega
  | ⟨1, _⟩ => show win2_0.index t (1 : Fin 2) * 64 + 1 * k.val = k.val; rw [e01]; omega

/-- The weight block at point t is label t % 8's weights. -/
theorem iblk2_1_apply (c : Dev nD) (t : Fin cfg2.N) (z : Fin 1) (k : Fin 64) (q : Fin 64) (l : Fin 8) (hl : l.val = t.val % 8) :
    (iblk2 V c 1 t : FVec Ideal S1x64x64 .f32) (ix3 z k q) = (V c main_v14 : S8x64x64.Idx → EReal) (ix3 l k q) := by
  obtain ⟨-, -, e10, e11, e12, -⟩ := idx2 t
  unfold iblk2
  rw [View.read_apply]
  show V c main_v14 _ = V c main_v14 _
  congr 1
  funext a
  apply Fin.ext
  match a with
  | ⟨0, _⟩ => show win2_1.index t (0 : Fin 3) * 1 + 1 * z.val = l.val; rw [e10, hl]; omega
  | ⟨1, _⟩ => show win2_1.index t (1 : Fin 3) * 64 + 1 * k.val = k.val; rw [e11]; omega
  | ⟨2, _⟩ => show win2_1.index t (2 : Fin 3) * 64 + 1 * q.val = q.val; rw [e12]; omega

/-- What point t writes back is block t of the per-label stage of the arrays as the region finds them. -/
theorem flushed2 (c : Dev nD) (t : Fin cfg2.N) :
    (dat2 V c).flushed 2 t = ((cfg2.win 2).blk t).view.read (Elt Ideal)
      (labelArr (V c main_v1 : S100000x64.Idx → EReal) (V c main_v14 : S8x64x64.Idx → EReal) : S8x100000x64.Idx → EReal) := by
  show (cfg2.win 2).cut (grid2.coords t) ((dat2 V c).after 2 t) = _
  rw [after2_2]
  unfold out2_2
  rw [View.canon_unit_zero hz3_conv2]
  simp only [View.ld_unit_zero (S := S4000x64) hz2_conv2, View.ld_unit_zero (S := S1x64x64) hz3_conv2]
  obtain ⟨-, -, -, -, -, e20, e21, e22⟩ := idx2 t
  have ht : t.val < 200 := lt_of_lt_of_eq t.isLt N_2
  funext j
  obtain ⟨u, r, q, rfl⟩ : ∃ (u : Fin 1) (r : Fin 4000) (q : Fin 64), j = ix3 u r q := ⟨j 0, j 1, j 2, eq_ix3 j⟩
  have hemb : ((cfg2.win 2).blk t).view.emb (ix3 u r q)
      = ix3 (⟨t.val % 8, by omega⟩ : Fin 8) (⟨t.val / 8 * 4000 + r.val, by have := r.isLt; omega⟩ : Fin 100000) q := by
    funext a
    apply Fin.ext
    match a with
    | ⟨0, _⟩ => show win2_2.index t (0 : Fin 3) * 1 + 1 * u.val = t.val % 8; rw [e20]; omega
    | ⟨1, _⟩ => show win2_2.index t (1 : Fin 3) * 4000 + 1 * r.val = t.val / 8 * 4000 + r.val; rw [e21]; omega
    | ⟨2, _⟩ => show win2_2.index t (2 : Fin 3) * 64 + 1 * q.val = q.val; rw [e22]; omega
  show k2_pay1 (iblk2 V c 0 t) (iblk2 V c 1 t) (ix3 u r q)
    = (labelArr (V c main_v1 : S100000x64.Idx → EReal) (V c main_v14 : S8x64x64.Idx → EReal) : S8x100000x64.Idx → EReal) (((cfg2.win 2).blk t).view.emb (ix3 u r q))
  rw [hemb, labelArr_apply]
  refine (pay2_apply (iblk2 V c 0 t) (iblk2 V c 1 t) u r q).trans ?_
  exact labelAt_congr (fun k => iblk2_0_apply V c t r k _ rfl) (fun k => iblk2_1_apply V c t 0 k q _ rfl)

/-- An index of the result array is in point t's block iff each coordinate is in the block's range on its axis. -/
theorem mem_blk2 (t : Fin cfg2.N) (i : S8x100000x64.Idx) :
    i ∈ ((cfg2.win 2).blk t).view.set ↔ ∀ a : Fin 3, win2_2.index t a * S1x4000x64.size a ≤ (i a).val ∧ (i a).val < win2_2.index t a * S1x4000x64.size a + S1x4000x64.size a := by
  show i ∈ ((View.whole main_v15).slice (win2_2.rect t)).set ↔ _
  rw [View.set_slice_whole, Rect.mem_set_unit]
  exact Iff.rfl

/-- After the region the result array is the per-label stage of the arrays as the region found them: entry (l, n, q) is
    covered by point 8 (n / 4000) + l. -/
theorem final2 (c : Dev nD) :
    (dat2 V c).arrAt 2 cfg2.N
      = (labelArr (V c main_v1 : S100000x64.Idx → EReal) (V c main_v14 : S8x64x64.Idx → EReal) : S8x100000x64.Idx → EReal) :=
  (dat2 V c).arrAt_eq_of_cover 2 _ (fun t _ => flushed2 V c t) fun i => by
    have hi0 : (i 0).val < 8 := (i 0).isLt
    have hi1 : (i 1).val < 100000 := (i 1).isLt
    have hi2 : (i 2).val < 64 := (i 2).isLt
    have hN : cfg2.N = 200 := N_2
    obtain ⟨t, htv⟩ : ∃ t : Fin cfg2.N, t.val = (i 1).val / 4000 * 8 + (i 0).val := ⟨⟨(i 1).val / 4000 * 8 + (i 0).val, by rw [hN]; omega⟩, rfl⟩
    obtain ⟨-, -, -, -, -, e20, e21, e22⟩ := idx2 t
    refine ⟨t, flush2_2 t, ?_⟩
    rw [mem_blk2]
    intro a
    match a with
    | ⟨0, _⟩ =>
      show win2_2.index t (0 : Fin 3) * 1 ≤ (i 0).val ∧ (i 0).val < win2_2.index t (0 : Fin 3) * 1 + 1
      rw [e20, htv]; omega
    | ⟨1, _⟩ =>
      show win2_2.index t (1 : Fin 3) * 4000 ≤ (i 1).val ∧ (i 1).val < win2_2.index t (1 : Fin 3) * 4000 + 4000
      rw [e21, htv]; omega
    | ⟨2, _⟩ =>
      show win2_2.index t (2 : Fin 3) * 64 ≤ (i 2).val ∧ (i 2).val < win2_2.index t (2 : Fin 3) * 64 + 64
      rw [e22]; omega

end Cert.KernelIdeal.Hand

end
-- ==== Proof.RegionConv5.lean ====
/-
  Kernel region 5: the per-label stage on blocks of 4000 node rows.

  The region visits 200 points, numbered 8 b + l for row block b < 25 and label l < 8; the point reads rows
  4000 b … 4000 b + 3999 of the [100000, 64] node rows and label l's [64, 64] weights, and writes back rows
  4000 b … 4000 b + 3999 of table l of the [8, 100000, 64] result.  Entry (0, r, q) of what the body leaves is the
  per-label stage's entry (l, 4000 b + r, q), which depends on that one node row only; the 200 blocks tile the result.  So
  after the region the result array is the per-label stage of the two arrays as the region found them.
-/
import proofs.«150609_j14070312862201_2_alg».proof.Proof.Gen.KernelIdeal.Frame
import proofs.«150609_j14070312862201_2_alg».proof.Proof.LibNodeRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Idealize.ShloMosaic.NodeRows Idealize.ShloMosaic.LinearRows

variable (V : (c : Dev nD) → (b : Ref sig .tc) → Buf (Elt Ideal) ((c : Thread nD τ).loc b))

theorem hz2_conv5 : (![0, 0] : Fin 2 → Nat) = fun _ => 0 := funext fun a => by fin_cases a <;> rfl
theorem hz3_conv5 : (![0, 0, 0] : Fin 3 → Nat) = fun _ => 0 := funext fun a => by fin_cases a <;> rfl

/-- The body's arithmetic at entry (u, r, q) of a block: the per-label formula on the loaded blocks. -/
theorem pay5_apply (x0 : FVec Ideal S4000x64 .f32) (x1 : FVec Ideal S1x64x64 .f32) (u : Fin 1) (r : Fin 4000) (q : Fin 64) :
    k5_pay1 (F := Ideal) x0 x1 (ix3 u r q) = labelAt x0 x1 (0 : Fin 1) r q := by
  unfold k5_pay1
  exact kernel_label_apply bitsLt_bf16_f32 shapeCasts_S4000x64_S4000x64 shapeCasts_S1x64x64_S64x64 shapeCasts_S4000x64_S1x4000x64 x0 x1 u r q

/-- The printed index maps over the grid: point t is row block t / 8 and label t % 8. -/
theorem idx5 : ∀ t : Fin cfg5.N, win5_0.index t (0 : Fin 2) = t.val / 8 ∧ win5_0.index t (1 : Fin 2) = 0
    ∧ win5_1.index t (0 : Fin 3) = t.val % 8 ∧ win5_1.index t (1 : Fin 3) = 0 ∧ win5_1.index t (2 : Fin 3) = 0
    ∧ win5_2.index t (0 : Fin 3) = t.val % 8 ∧ win5_2.index t (1 : Fin 3) = t.val / 8 ∧ win5_2.index t (2 : Fin 3) = 0 :=
  (by decide +kernel : ∀ t : Fin grid5.N, _)

/-- Row r of the node-row block at point t is row 4000 (t / 8) + r of the node rows. -/
theorem iblk5_0_apply (c : Dev nD) (t : Fin cfg5.N) (r : Fin 4000) (k : Fin 64) (n : Fin 100000) (hn : n.val = t.val / 8 * 4000 + r.val) :
    (iblk5 V c 0 t : FVec Ideal S4000x64 .f32) (ix2 r k) = (V c main_v28 : S100000x64.Idx → EReal) (ix2 n k) := by
  obtain ⟨e00, e01, -⟩ := idx5 t
  unfold iblk5
  rw [View.read_apply]
  show V c main_v28 _ = V c main_v28 _
  congr 1
  funext a
  apply Fin.ext
  match a with
  | ⟨0, _⟩ => show win5_0.index t (0 : Fin 2) * 4000 + 1 * r.val = n.val; rw [e00, hn]; omega
  | ⟨1, _⟩ => show win5_0.index t (1 : Fin 2) * 64 + 1 * k.val = k.val; rw [e01]; omega

/-- The weight block at point t is label t % 8's weights. -/
theorem iblk5_1_apply (c : Dev nD) (t : Fin cfg5.N) (z : Fin 1) (k : Fin 64) (q : Fin 64) (l : Fin 8) (hl : l.val = t.val % 8) :
    (iblk5 V c 1 t : FVec Ideal S1x64x64 .f32) (ix3 z k q) = (V c main_v36 : S8x64x64.Idx → EReal) (ix3 l k q) := by
  obtain ⟨-, -, e10, e11, e12, -⟩ := idx5 t
  unfold iblk5
  rw [View.read_apply]
  show V c main_v36 _ = V c main_v36 _
  congr 1
  funext a
  apply Fin.ext
  match a with
  | ⟨0, _⟩ => show win5_1.index t (0 : Fin 3) * 1 + 1 * z.val = l.val; rw [e10, hl]; omega
  | ⟨1, _⟩ => show win5_1.index t (1 : Fin 3) * 64 + 1 * k.val = k.val; rw [e11]; omega
  | ⟨2, _⟩ => show win5_1.index t (2 : Fin 3) * 64 + 1 * q.val = q.val; rw [e12]; omega

/-- What point t writes back is block t of the per-label stage of the arrays as the region finds them. -/
theorem flushed5 (c : Dev nD) (t : Fin cfg5.N) :
    (dat5 V c).flushed 2 t = ((cfg5.win 2).blk t).view.read (Elt Ideal)
      (labelArr (V c main_v28 : S100000x64.Idx → EReal) (V c main_v36 : S8x64x64.Idx → EReal) : S8x100000x64.Idx → EReal) := by
  show (cfg5.win 2).cut (grid5.coords t) ((dat5 V c).after 2 t) = _
  rw [after5_2]
  unfold out5_2
  rw [View.canon_unit_zero hz3_conv5]
  simp only [View.ld_unit_zero (S := S4000x64) hz2_conv5, View.ld_unit_zero (S := S1x64x64) hz3_conv5]
  obtain ⟨-, -, -, -, -, e20, e21, e22⟩ := idx5 t
  have ht : t.val < 200 := lt_of_lt_of_eq t.isLt N_5
  funext j
  obtain ⟨u, r, q, rfl⟩ : ∃ (u : Fin 1) (r : Fin 4000) (q : Fin 64), j = ix3 u r q := ⟨j 0, j 1, j 2, eq_ix3 j⟩
  have hemb : ((cfg5.win 2).blk t).view.emb (ix3 u r q)
      = ix3 (⟨t.val % 8, by omega⟩ : Fin 8) (⟨t.val / 8 * 4000 + r.val, by have := r.isLt; omega⟩ : Fin 100000) q := by
    funext a
    apply Fin.ext
    match a with
    | ⟨0, _⟩ => show win5_2.index t (0 : Fin 3) * 1 + 1 * u.val = t.val % 8; rw [e20]; omega
    | ⟨1, _⟩ => show win5_2.index t (1 : Fin 3) * 4000 + 1 * r.val = t.val / 8 * 4000 + r.val; rw [e21]; omega
    | ⟨2, _⟩ => show win5_2.index t (2 : Fin 3) * 64 + 1 * q.val = q.val; rw [e22]; omega
  show k5_pay1 (iblk5 V c 0 t) (iblk5 V c 1 t) (ix3 u r q)
    = (labelArr (V c main_v28 : S100000x64.Idx → EReal) (V c main_v36 : S8x64x64.Idx → EReal) : S8x100000x64.Idx → EReal) (((cfg5.win 2).blk t).view.emb (ix3 u r q))
  rw [hemb, labelArr_apply]
  refine (pay5_apply (iblk5 V c 0 t) (iblk5 V c 1 t) u r q).trans ?_
  exact labelAt_congr (fun k => iblk5_0_apply V c t r k _ rfl) (fun k => iblk5_1_apply V c t 0 k q _ rfl)

/-- An index of the result array is in point t's block iff each coordinate is in the block's range on its axis. -/
theorem mem_blk5 (t : Fin cfg5.N) (i : S8x100000x64.Idx) :
    i ∈ ((cfg5.win 2).blk t).view.set ↔ ∀ a : Fin 3, win5_2.index t a * S1x4000x64.size a ≤ (i a).val ∧ (i a).val < win5_2.index t a * S1x4000x64.size a + S1x4000x64.size a := by
  show i ∈ ((View.whole main_v37).slice (win5_2.rect t)).set ↔ _
  rw [View.set_slice_whole, Rect.mem_set_unit]
  exact Iff.rfl

/-- After the region the result array is the per-label stage of the arrays as the region found them: entry (l, n, q) is
    covered by point 8 (n / 4000) + l. -/
theorem final5 (c : Dev nD) :
    (dat5 V c).arrAt 2 cfg5.N
      = (labelArr (V c main_v28 : S100000x64.Idx → EReal) (V c main_v36 : S8x64x64.Idx → EReal) : S8x100000x64.Idx → EReal) :=
  (dat5 V c).arrAt_eq_of_cover 2 _ (fun t _ => flushed5 V c t) fun i => by
    have hi0 : (i 0).val < 8 := (i 0).isLt
    have hi1 : (i 1).val < 100000 := (i 1).isLt
    have hi2 : (i 2).val < 64 := (i 2).isLt
    have hN : cfg5.N = 200 := N_5
    obtain ⟨t, htv⟩ : ∃ t : Fin cfg5.N, t.val = (i 1).val / 4000 * 8 + (i 0).val := ⟨⟨(i 1).val / 4000 * 8 + (i 0).val, by rw [hN]; omega⟩, rfl⟩
    obtain ⟨-, -, -, -, -, e20, e21, e22⟩ := idx5 t
    refine ⟨t, flush5_2 t, ?_⟩
    rw [mem_blk5]
    intro a
    match a with
    | ⟨0, _⟩ =>
      show win5_2.index t (0 : Fin 3) * 1 ≤ (i 0).val ∧ (i 0).val < win5_2.index t (0 : Fin 3) * 1 + 1
      rw [e20, htv]; omega
    | ⟨1, _⟩ =>
      show win5_2.index t (1 : Fin 3) * 4000 ≤ (i 1).val ∧ (i 1).val < win5_2.index t (1 : Fin 3) * 4000 + 4000
      rw [e21, htv]; omega
    | ⟨2, _⟩ =>
      show win5_2.index t (2 : Fin 3) * 64 ≤ (i 2).val ∧ (i 2).val < win5_2.index t (2 : Fin 3) * 64 + 64
      rw [e22]; omega

end Cert.KernelIdeal.Hand

end
-- ==== Proof.RegionConv8.lean ====
/-
  Kernel region 8: the per-label stage on blocks of 4000 node rows.

  The region visits 200 points, numbered 8 b + l for row block b < 25 and label l < 8; the point reads rows
  4000 b … 4000 b + 3999 of the [100000, 64] node rows and label l's [64, 64] weights, and writes back rows
  4000 b … 4000 b + 3999 of table l of the [8, 100000, 64] result.  Entry (0, r, q) of what the body leaves is the
  per-label stage's entry (l, 4000 b + r, q), which depends on that one node row only; the 200 blocks tile the result.  So
  after the region the result array is the per-label stage of the two arrays as the region found them.
-/
import proofs.«150609_j14070312862201_2_alg».proof.Proof.Gen.KernelIdeal.Frame
import proofs.«150609_j14070312862201_2_alg».proof.Proof.LibNodeRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Idealize.ShloMosaic.NodeRows Idealize.ShloMosaic.LinearRows

variable (V : (c : Dev nD) → (b : Ref sig .tc) → Buf (Elt Ideal) ((c : Thread nD τ).loc b))

theorem hz2_conv8 : (![0, 0] : Fin 2 → Nat) = fun _ => 0 := funext fun a => by fin_cases a <;> rfl
theorem hz3_conv8 : (![0, 0, 0] : Fin 3 → Nat) = fun _ => 0 := funext fun a => by fin_cases a <;> rfl

/-- The body's arithmetic at entry (u, r, q) of a block: the per-label formula on the loaded blocks. -/
theorem pay8_apply (x0 : FVec Ideal S4000x64 .f32) (x1 : FVec Ideal S1x64x64 .f32) (u : Fin 1) (r : Fin 4000) (q : Fin 64) :
    k8_pay1 (F := Ideal) x0 x1 (ix3 u r q) = labelAt x0 x1 (0 : Fin 1) r q := by
  unfold k8_pay1
  exact kernel_label_apply bitsLt_bf16_f32 shapeCasts_S4000x64_S4000x64 shapeCasts_S1x64x64_S64x64 shapeCasts_S4000x64_S1x4000x64 x0 x1 u r q

/-- The printed index maps over the grid: point t is row block t / 8 and label t % 8. -/
theorem idx8 : ∀ t : Fin cfg8.N, win8_0.index t (0 : Fin 2) = t.val / 8 ∧ win8_0.index t (1 : Fin 2) = 0
    ∧ win8_1.index t (0 : Fin 3) = t.val % 8 ∧ win8_1.index t (1 : Fin 3) = 0 ∧ win8_1.index t (2 : Fin 3) = 0
    ∧ win8_2.index t (0 : Fin 3) = t.val % 8 ∧ win8_2.index t (1 : Fin 3) = t.val / 8 ∧ win8_2.index t (2 : Fin 3) = 0 :=
  (by decide +kernel : ∀ t : Fin grid8.N, _)

/-- Row r of the node-row block at point t is row 4000 (t / 8) + r of the node rows. -/
theorem iblk8_0_apply (c : Dev nD) (t : Fin cfg8.N) (r : Fin 4000) (k : Fin 64) (n : Fin 100000) (hn : n.val = t.val / 8 * 4000 + r.val) :
    (iblk8 V c 0 t : FVec Ideal S4000x64 .f32) (ix2 r k) = (V c main_v50 : S100000x64.Idx → EReal) (ix2 n k) := by
  obtain ⟨e00, e01, -⟩ := idx8 t
  unfold iblk8
  rw [View.read_apply]
  show V c main_v50 _ = V c main_v50 _
  congr 1
  funext a
  apply Fin.ext
  match a with
  | ⟨0, _⟩ => show win8_0.index t (0 : Fin 2) * 4000 + 1 * r.val = n.val; rw [e00, hn]; omega
  | ⟨1, _⟩ => show win8_0.index t (1 : Fin 2) * 64 + 1 * k.val = k.val; rw [e01]; omega

/-- The weight block at point t is label t % 8's weights. -/
theorem iblk8_1_apply (c : Dev nD) (t : Fin cfg8.N) (z : Fin 1) (k : Fin 64) (q : Fin 64) (l : Fin 8) (hl : l.val = t.val % 8) :
    (iblk8 V c 1 t : FVec Ideal S1x64x64 .f32) (ix3 z k q) = (V c main_v58 : S8x64x64.Idx → EReal) (ix3 l k q) := by
  obtain ⟨-, -, e10, e11, e12, -⟩ := idx8 t
  unfold iblk8
  rw [View.read_apply]
  show V c main_v58 _ = V c main_v58 _
  congr 1
  funext a
  apply Fin.ext
  match a with
  | ⟨0, _⟩ => show win8_1.index t (0 : Fin 3) * 1 + 1 * z.val = l.val; rw [e10, hl]; omega
  | ⟨1, _⟩ => show win8_1.index t (1 : Fin 3) * 64 + 1 * k.val = k.val; rw [e11]; omega
  | ⟨2, _⟩ => show win8_1.index t (2 : Fin 3) * 64 + 1 * q.val = q.val; rw [e12]; omega

/-- What point t writes back is block t of the per-label stage of the arrays as the region finds them. -/
theorem flushed8 (c : Dev nD) (t : Fin cfg8.N) :
    (dat8 V c).flushed 2 t = ((cfg8.win 2).blk t).view.read (Elt Ideal)
      (labelArr (V c main_v50 : S100000x64.Idx → EReal) (V c main_v58 : S8x64x64.Idx → EReal) : S8x100000x64.Idx → EReal) := by
  show (cfg8.win 2).cut (grid8.coords t) ((dat8 V c).after 2 t) = _
  rw [after8_2]
  unfold out8_2
  rw [View.canon_unit_zero hz3_conv8]
  simp only [View.ld_unit_zero (S := S4000x64) hz2_conv8, View.ld_unit_zero (S := S1x64x64) hz3_conv8]
  obtain ⟨-, -, -, -, -, e20, e21, e22⟩ := idx8 t
  have ht : t.val < 200 := lt_of_lt_of_eq t.isLt N_8
  funext j
  obtain ⟨u, r, q, rfl⟩ : ∃ (u : Fin 1) (r : Fin 4000) (q : Fin 64), j = ix3 u r q := ⟨j 0, j 1, j 2, eq_ix3 j⟩
  have hemb : ((cfg8.win 2).blk t).view.emb (ix3 u r q)
      = ix3 (⟨t.val % 8, by omega⟩ : Fin 8) (⟨t.val / 8 * 4000 + r.val, by have := r.isLt; omega⟩ : Fin 100000) q := by
    funext a
    apply Fin.ext
    match a with
    | ⟨0, _⟩ => show win8_2.index t (0 : Fin 3) * 1 + 1 * u.val = t.val % 8; rw [e20]; omega
    | ⟨1, _⟩ => show win8_2.index t (1 : Fin 3) * 4000 + 1 * r.val = t.val / 8 * 4000 + r.val; rw [e21]; omega
    | ⟨2, _⟩ => show win8_2.index t (2 : Fin 3) * 64 + 1 * q.val = q.val; rw [e22]; omega
  show k8_pay1 (iblk8 V c 0 t) (iblk8 V c 1 t) (ix3 u r q)
    = (labelArr (V c main_v50 : S100000x64.Idx → EReal) (V c main_v58 : S8x64x64.Idx → EReal) : S8x100000x64.Idx → EReal) (((cfg8.win 2).blk t).view.emb (ix3 u r q))
  rw [hemb, labelArr_apply]
  refine (pay8_apply (iblk8 V c 0 t) (iblk8 V c 1 t) u r q).trans ?_
  exact labelAt_congr (fun k => iblk8_0_apply V c t r k _ rfl) (fun k => iblk8_1_apply V c t 0 k q _ rfl)

/-- An index of the result array is in point t's block iff each coordinate is in the block's range on its axis. -/
theorem mem_blk8 (t : Fin cfg8.N) (i : S8x100000x64.Idx) :
    i ∈ ((cfg8.win 2).blk t).view.set ↔ ∀ a : Fin 3, win8_2.index t a * S1x4000x64.size a ≤ (i a).val ∧ (i a).val < win8_2.index t a * S1x4000x64.size a + S1x4000x64.size a := by
  show i ∈ ((View.whole main_v59).slice (win8_2.rect t)).set ↔ _
  rw [View.set_slice_whole, Rect.mem_set_unit]
  exact Iff.rfl

/-- After the region the result array is the per-label stage of the arrays as the region found them: entry (l, n, q) is
    covered by point 8 (n / 4000) + l. -/
theorem final8 (c : Dev nD) :
    (dat8 V c).arrAt 2 cfg8.N
      = (labelArr (V c main_v50 : S100000x64.Idx → EReal) (V c main_v58 : S8x64x64.Idx → EReal) : S8x100000x64.Idx → EReal) :=
  (dat8 V c).arrAt_eq_of_cover 2 _ (fun t _ => flushed8 V c t) fun i => by
    have hi0 : (i 0).val < 8 := (i 0).isLt
    have hi1 : (i 1).val < 100000 := (i 1).isLt
    have hi2 : (i 2).val < 64 := (i 2).isLt
    have hN : cfg8.N = 200 := N_8
    obtain ⟨t, htv⟩ : ∃ t : Fin cfg8.N, t.val = (i 1).val / 4000 * 8 + (i 0).val := ⟨⟨(i 1).val / 4000 * 8 + (i 0).val, by rw [hN]; omega⟩, rfl⟩
    obtain ⟨-, -, -, -, -, e20, e21, e22⟩ := idx8 t
    refine ⟨t, flush8_2 t, ?_⟩
    rw [mem_blk8]
    intro a
    match a with
    | ⟨0, _⟩ =>
      show win8_2.index t (0 : Fin 3) * 1 ≤ (i 0).val ∧ (i 0).val < win8_2.index t (0 : Fin 3) * 1 + 1
      rw [e20, htv]; omega
    | ⟨1, _⟩ =>
      show win8_2.index t (1 : Fin 3) * 4000 ≤ (i 1).val ∧ (i 1).val < win8_2.index t (1 : Fin 3) * 4000 + 4000
      rw [e21, htv]; omega
    | ⟨2, _⟩ =>
      show win8_2.index t (2 : Fin 3) * 64 ≤ (i 2).val ∧ (i 2).val < win8_2.index t (2 : Fin 3) * 64 + 64
      rw [e22]; omega

end Cert.KernelIdeal.Hand

end
-- ==== Proof.RegionRelu3.lean ====
/-
  Kernel region 3: the closing stage on blocks of 4000 node rows.

  The region visits 25 points; point t reads rows 4000 t … 4000 t + 3999 of two [100000, 64] arrays and writes back the
  same rows of the result: their sum clamped from below at zero, entry by entry.  The three windows move together and the
  25 blocks tile the result, so after the region the result array is the closing stage of the two arrays as the region
  found them.
-/
import proofs.«150609_j14070312862201_2_alg».proof.Proof.Gen.KernelIdeal.Frame
import proofs.«150609_j14070312862201_2_alg».proof.Proof.LibNodeRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Idealize.ShloMosaic.NodeRows Idealize.ShloMosaic.LinearRows

variable (V : (c : Dev nD) → (b : Ref sig .tc) → Buf (Elt Ideal) ((c : Thread nD τ).loc b))

theorem hz_relu3 : (![0, 0] : Fin 2 → Nat) = fun _ => 0 := funext fun a => by fin_cases a <;> rfl

/-- The body's arithmetic on a block: the sum of the two loaded blocks clamped from below at zero. -/
theorem pay3_eq (x0 x1 : FVec Ideal S4000x64 .f32) : k3_pay1 (F := Ideal) x0 x1 = reluSum x0 x1 := by
  unfold k3_pay1
  simp only [shapeCast_self]
  rfl

/-- The printed index maps over the grid: every window's block row is the point's number, its block column zero. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is block t of the closing stage of the arrays as the region finds them. -/
theorem flushed3 (c : Dev nD) (t : Fin cfg3.N) :
    (dat3 V c).flushed 2 t = ((cfg3.win 2).blk t).view.read (Elt Ideal)
      (reluSum (V c main_v12 : FVec Ideal S100000x64 .f32) (V c main_v27 : FVec Ideal S100000x64 .f32)) := by
  show (cfg3.win 2).cut (grid3.coords t) ((dat3 V c).after 2 t) = _
  rw [after3_2]
  unfold out3_2
  rw [View.canon_unit_zero hz_relu3]
  simp only [View.ld_unit_zero (S := S4000x64) hz_relu3]
  rw [pay3_eq]
  obtain ⟨e00, e01, e10, e11, e20, e21⟩ := idx3 t
  funext j
  have h0 : (iblk3 V c 0 t : FVec Ideal S4000x64 .f32) j = (V c main_v12 : FVec Ideal S100000x64 .f32) (((cfg3.win 2).blk t).view.emb j) := by
    unfold iblk3
    rw [View.read_apply]
    show V c main_v12 _ = V c main_v12 _
    congr 1
  have h1 : (iblk3 V c 1 t : FVec Ideal S4000x64 .f32) j = (V c main_v27 : FVec Ideal S100000x64 .f32) (((cfg3.win 2).blk t).view.emb j) := by
    unfold iblk3
    rw [View.read_apply]
    show V c main_v27 _ = V c main_v27 _
    congr 1
  exact congrArg₂ (fun x y => FloatOps.maximumf (F := Ideal) (φ := .f32) (FloatOps.addf (F := Ideal) (φ := .f32) x y)
    (Scalar.ofBits (F := Ideal) .f32 0x00000000#32)) h0 h1

/-- An index of the result array is in point t's block iff each coordinate is in the block's range on its axis. -/
theorem mem_blk3 (t : Fin cfg3.N) (i : S100000x64.Idx) :
    i ∈ ((cfg3.win 2).blk t).view.set ↔ ∀ a : Fin 2, win3_2.index t a * S4000x64.size a ≤ (i a).val ∧ (i a).val < win3_2.index t a * S4000x64.size a + S4000x64.size a := by
  show i ∈ ((View.whole main_v28).slice (win3_2.rect t)).set ↔ _
  rw [View.set_slice_whole, Rect.mem_set_unit]
  exact Iff.rfl

/-- After the region the result array is the closing stage of the arrays as the region found them: row n is covered by
    point n / 4000. -/
theorem final3 (c : Dev nD) :
    (dat3 V c).arrAt 2 cfg3.N
      = reluSum (V c main_v12 : FVec Ideal S100000x64 .f32) (V c main_v27 : FVec Ideal S100000x64 .f32) :=
  (dat3 V c).arrAt_eq_of_cover 2 _ (fun t _ => flushed3 V c t) fun i => by
    have hi0 : (i 0).val < 100000 := (i 0).isLt
    have hi1 : (i 1).val < 64 := (i 1).isLt
    have hN : cfg3.N = 25 := N_3
    obtain ⟨t, htv⟩ : ∃ t : Fin cfg3.N, t.val = (i 0).val / 4000 := ⟨⟨(i 0).val / 4000, by rw [hN]; omega⟩, rfl⟩
    obtain ⟨-, -, -, -, e20, e21⟩ := idx3 t
    refine ⟨t, flush3_2 t, ?_⟩
    rw [mem_blk3]
    intro a
    match a with
    | ⟨0, _⟩ =>
      show win3_2.index t (0 : Fin 2) * 4000 ≤ (i 0).val ∧ (i 0).val < win3_2.index t (0 : Fin 2) * 4000 + 4000
      rw [e20, htv]; omega
    | ⟨1, _⟩ =>
      show win3_2.index t (1 : Fin 2) * 64 ≤ (i 1).val ∧ (i 1).val < win3_2.index t (1 : Fin 2) * 64 + 64
      rw [e21]; omega

end Cert.KernelIdeal.Hand

end
-- ==== Proof.RegionRelu6.lean ====
/-
  Kernel region 6: the closing stage on blocks of 4000 node rows.

  The region visits 25 points; point t reads rows 4000 t … 4000 t + 3999 of two [100000, 64] arrays and writes back the
  same rows of the result: their sum clamped from below at zero, entry by entry.  The three windows move together and the
  25 blocks tile the result, so after the region the result array is the closing stage of the two arrays as the region
  found them.
-/
import proofs.«150609_j14070312862201_2_alg».proof.Proof.Gen.KernelIdeal.Frame
import proofs.«150609_j14070312862201_2_alg».proof.Proof.LibNodeRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Idealize.ShloMosaic.NodeRows Idealize.ShloMosaic.LinearRows

variable (V : (c : Dev nD) → (b : Ref sig .tc) → Buf (Elt Ideal) ((c : Thread nD τ).loc b))

theorem hz_relu6 : (![0, 0] : Fin 2 → Nat) = fun _ => 0 := funext fun a => by fin_cases a <;> rfl

/-- The body's arithmetic on a block: the sum of the two loaded blocks clamped from below at zero. -/
theorem pay6_eq (x0 x1 : FVec Ideal S4000x64 .f32) : k6_pay1 (F := Ideal) x0 x1 = reluSum x0 x1 := by
  unfold k6_pay1
  simp only [shapeCast_self]
  rfl

/-- The printed index maps over the grid: every window's block row is the point's number, its block column zero. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point t writes back is block t of the closing stage of the arrays as the region finds them. -/
theorem flushed6 (c : Dev nD) (t : Fin cfg6.N) :
    (dat6 V c).flushed 2 t = ((cfg6.win 2).blk t).view.read (Elt Ideal)
      (reluSum (V c main_v34 : FVec Ideal S100000x64 .f32) (V c main_v49 : FVec Ideal S100000x64 .f32)) := by
  show (cfg6.win 2).cut (grid6.coords t) ((dat6 V c).after 2 t) = _
  rw [after6_2]
  unfold out6_2
  rw [View.canon_unit_zero hz_relu6]
  simp only [View.ld_unit_zero (S := S4000x64) hz_relu6]
  rw [pay6_eq]
  obtain ⟨e00, e01, e10, e11, e20, e21⟩ := idx6 t
  funext j
  have h0 : (iblk6 V c 0 t : FVec Ideal S4000x64 .f32) j = (V c main_v34 : FVec Ideal S100000x64 .f32) (((cfg6.win 2).blk t).view.emb j) := by
    unfold iblk6
    rw [View.read_apply]
    show V c main_v34 _ = V c main_v34 _
    congr 1
  have h1 : (iblk6 V c 1 t : FVec Ideal S4000x64 .f32) j = (V c main_v49 : FVec Ideal S100000x64 .f32) (((cfg6.win 2).blk t).view.emb j) := by
    unfold iblk6
    rw [View.read_apply]
    show V c main_v49 _ = V c main_v49 _
    congr 1
  exact congrArg₂ (fun x y => FloatOps.maximumf (F := Ideal) (φ := .f32) (FloatOps.addf (F := Ideal) (φ := .f32) x y)
    (Scalar.ofBits (F := Ideal) .f32 0x00000000#32)) h0 h1

/-- An index of the result array is in point t's block iff each coordinate is in the block's range on its axis. -/
theorem mem_blk6 (t : Fin cfg6.N) (i : S100000x64.Idx) :
    i ∈ ((cfg6.win 2).blk t).view.set ↔ ∀ a : Fin 2, win6_2.index t a * S4000x64.size a ≤ (i a).val ∧ (i a).val < win6_2.index t a * S4000x64.size a + S4000x64.size a := by
  show i ∈ ((View.whole main_v50).slice (win6_2.rect t)).set ↔ _
  rw [View.set_slice_whole, Rect.mem_set_unit]
  exact Iff.rfl

/-- After the region the result array is the closing stage of the arrays as the region found them: row n is covered by
    point n / 4000. -/
theorem final6 (c : Dev nD) :
    (dat6 V c).arrAt 2 cfg6.N
      = reluSum (V c main_v34 : FVec Ideal S100000x64 .f32) (V c main_v49 : FVec Ideal S100000x64 .f32) :=
  (dat6 V c).arrAt_eq_of_cover 2 _ (fun t _ => flushed6 V c t) fun i => by
    have hi0 : (i 0).val < 100000 := (i 0).isLt
    have hi1 : (i 1).val < 64 := (i 1).isLt
    have hN : cfg6.N = 25 := N_6
    obtain ⟨t, htv⟩ : ∃ t : Fin cfg6.N, t.val = (i 0).val / 4000 := ⟨⟨(i 0).val / 4000, by rw [hN]; omega⟩, rfl⟩
    obtain ⟨-, -, -, -, e20, e21⟩ := idx6 t
    refine ⟨t, flush6_2 t, ?_⟩
    rw [mem_blk6]
    intro a
    match a with
    | ⟨0, _⟩ =>
      show win6_2.index t (0 : Fin 2) * 4000 ≤ (i 0).val ∧ (i 0).val < win6_2.index t (0 : Fin 2) * 4000 + 4000
      rw [e20, htv]; omega
    | ⟨1, _⟩ =>
      show win6_2.index t (1 : Fin 2) * 64 ≤ (i 1).val ∧ (i 1).val < win6_2.index t (1 : Fin 2) * 64 + 64
      rw [e21]; omega

end Cert.KernelIdeal.Hand

end
-- ==== Proof.RegionRelu9.lean ====
/-
  Kernel region 9: the closing stage on blocks of 4000 node rows.

  The region visits 25 points; point t reads rows 4000 t … 4000 t + 3999 of two [100000, 64] arrays and writes back the
  same rows of the result: their sum clamped from below at zero, entry by entry.  The three windows move together and the
  25 blocks tile the result, so after the region the result array is the closing stage of the two arrays as the region
  found them.
-/
import proofs.«150609_j14070312862201_2_alg».proof.Proof.Gen.KernelIdeal.Frame
import proofs.«150609_j14070312862201_2_alg».proof.Proof.LibNodeRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Idealize.ShloMosaic.NodeRows Idealize.ShloMosaic.LinearRows

variable (V : (c : Dev nD) → (b : Ref sig .tc) → Buf (Elt Ideal) ((c : Thread nD τ).loc b))

theorem hz_relu9 : (![0, 0] : Fin 2 → Nat) = fun _ => 0 := funext fun a => by fin_cases a <;> rfl

/-- The body's arithmetic on a block: the sum of the two loaded blocks clamped from below at zero. -/
theorem pay9_eq (x0 x1 : FVec Ideal S4000x64 .f32) : k9_pay1 (F := Ideal) x0 x1 = reluSum x0 x1 := by
  unfold k9_pay1
  simp only [shapeCast_self]
  rfl

/-- The printed index maps over the grid: every window's block row is the point's number, its block column zero. -/
theorem idx9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0 :=
  (by decide +kernel : ∀ t : Fin grid9.N, _)

/-- What point t writes back is block t of the closing stage of the arrays as the region finds them. -/
theorem flushed9 (c : Dev nD) (t : Fin cfg9.N) :
    (dat9 V c).flushed 2 t = ((cfg9.win 2).blk t).view.read (Elt Ideal)
      (reluSum (V c main_v56 : FVec Ideal S100000x64 .f32) (V c main_v71 : FVec Ideal S100000x64 .f32)) := by
  show (cfg9.win 2).cut (grid9.coords t) ((dat9 V c).after 2 t) = _
  rw [after9_2]
  unfold out9_2
  rw [View.canon_unit_zero hz_relu9]
  simp only [View.ld_unit_zero (S := S4000x64) hz_relu9]
  rw [pay9_eq]
  obtain ⟨e00, e01, e10, e11, e20, e21⟩ := idx9 t
  funext j
  have h0 : (iblk9 V c 0 t : FVec Ideal S4000x64 .f32) j = (V c main_v56 : FVec Ideal S100000x64 .f32) (((cfg9.win 2).blk t).view.emb j) := by
    unfold iblk9
    rw [View.read_apply]
    show V c main_v56 _ = V c main_v56 _
    congr 1
  have h1 : (iblk9 V c 1 t : FVec Ideal S4000x64 .f32) j = (V c main_v71 : FVec Ideal S100000x64 .f32) (((cfg9.win 2).blk t).view.emb j) := by
    unfold iblk9
    rw [View.read_apply]
    show V c main_v71 _ = V c main_v71 _
    congr 1
  exact congrArg₂ (fun x y => FloatOps.maximumf (F := Ideal) (φ := .f32) (FloatOps.addf (F := Ideal) (φ := .f32) x y)
    (Scalar.ofBits (F := Ideal) .f32 0x00000000#32)) h0 h1

/-- An index of the result array is in point t's block iff each coordinate is in the block's range on its axis. -/
theorem mem_blk9 (t : Fin cfg9.N) (i : S100000x64.Idx) :
    i ∈ ((cfg9.win 2).blk t).view.set ↔ ∀ a : Fin 2, win9_2.index t a * S4000x64.size a ≤ (i a).val ∧ (i a).val < win9_2.index t a * S4000x64.size a + S4000x64.size a := by
  show i ∈ ((View.whole main_v72).slice (win9_2.rect t)).set ↔ _
  rw [View.set_slice_whole, Rect.mem_set_unit]
  exact Iff.rfl

/-- After the region the result array is the closing stage of the arrays as the region found them: row n is covered by
    point n / 4000. -/
theorem final9 (c : Dev nD) :
    (dat9 V c).arrAt 2 cfg9.N
      = reluSum (V c main_v56 : FVec Ideal S100000x64 .f32) (V c main_v71 : FVec Ideal S100000x64 .f32) :=
  (dat9 V c).arrAt_eq_of_cover 2 _ (fun t _ => flushed9 V c t) fun i => by
    have hi0 : (i 0).val < 100000 := (i 0).isLt
    have hi1 : (i 1).val < 64 := (i 1).isLt
    have hN : cfg9.N = 25 := N_9
    obtain ⟨t, htv⟩ : ∃ t : Fin cfg9.N, t.val = (i 0).val / 4000 := ⟨⟨(i 0).val / 4000, by rw [hN]; omega⟩, rfl⟩
    obtain ⟨-, -, -, -, e20, e21⟩ := idx9 t
    refine ⟨t, flush9_2 t, ?_⟩
    rw [mem_blk9]
    intro a
    match a with
    | ⟨0, _⟩ =>
      show win9_2.index t (0 : Fin 2) * 4000 ≤ (i 0).val ∧ (i 0).val < win9_2.index t (0 : Fin 2) * 4000 + 4000
      rw [e20, htv]; omega
    | ⟨1, _⟩ =>
      show win9_2.index t (1 : Fin 2) * 64 ≤ (i 1).val ∧ (i 1).val < win9_2.index t (1 : Fin 2) * 64 + 64
      rw [e21]; omega

end Cert.KernelIdeal.Hand

end
-- ==== Proof.KernelChain.lean ====
/-
  The idealized kernel program's result as a composition of named stages.

  The contents of the program's buffers are followed from the launch through the host stretches and the ten kernel
  regions.  A host stretch leaves in each buffer it writes its operation's value of the buffers it reads, and every other
  buffer as it was; a region leaves in its result array the whole-array form of its stage (the linear stage, the
  per-label stage or the closing stage) of the arrays it reads, and every other buffer as it was.  No segment writes an
  argument array, the edge sources or the edge targets once they are made.  So the node rows after each layer are that
  layer's stages of the node rows before it, and the result is the readout of the third layer's node rows.
-/
import proofs.«150609_j14070312862201_2_alg».proof.Proof.Gen.KernelIdeal.Frame
import proofs.«150609_j14070312862201_2_alg».proof.Proof.KernelStages
import proofs.«150609_j14070312862201_2_alg».proof.Proof.RegionLin0
import proofs.«150609_j14070312862201_2_alg».proof.Proof.RegionLin1
import proofs.«150609_j14070312862201_2_alg».proof.Proof.RegionLin4
import proofs.«150609_j14070312862201_2_alg».proof.Proof.RegionLin7
import proofs.«150609_j14070312862201_2_alg».proof.Proof.RegionConv2
import proofs.«150609_j14070312862201_2_alg».proof.Proof.RegionConv5
import proofs.«150609_j14070312862201_2_alg».proof.Proof.RegionConv8
import proofs.«150609_j14070312862201_2_alg».proof.Proof.RegionRelu3
import proofs.«150609_j14070312862201_2_alg».proof.Proof.RegionRelu6
import proofs.«150609_j14070312862201_2_alg».proof.Proof.RegionRelu9
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen Idealize.ShloMosaic.NodeRows

variable (m : (ℓ : Loc nD τ sig) → Buf (Elt Ideal) ℓ) (ρ : Dev nD → PrngReg) (c : Dev nD)

/-- A buffer that no operation of a host stretch writes holds after the stretch what it held before. -/
macro "host_keep" ops:ident : tactic =>
  `(tactic| (refine StableHlo.after_of_forall_not_mem _ _ (List.forall_iff_forall_mem.mp ?_)
             simp only [$ops:ident, List.flatten_cons, List.flatten_nil, List.append_nil, List.cons_append, List.nil_append,
               List.Forall, StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## The argument arrays, the edge sources and the edge targets stay as they are -/

theorem W1_arg0 : W1 m ρ c (Proc.devRef .tc main_arg0) = m ((c.tc : Thread nD τ).loc main_arg0) :=
  ((by host_keep hostOps0 : W1 m ρ c (Proc.devRef .tc main_arg0) = W0 m ρ c (Proc.devRef .tc main_arg0))).trans (rfl : W0 m ρ c (Proc.devRef .tc main_arg0) = m ((c.tc : Thread nD τ).loc main_arg0))
theorem W2_arg1 : W2 m ρ c (Proc.devRef .tc main_arg1) = m ((c.tc : Thread nD τ).loc main_arg1) :=
  (((W2_of_ne m ρ c main_arg1 (by decide) : W2 m ρ c (Proc.devRef .tc main_arg1) = W1 m ρ c (Proc.devRef .tc main_arg1))).trans (by host_keep hostOps0 : W1 m ρ c (Proc.devRef .tc main_arg1) = W0 m ρ c (Proc.devRef .tc main_arg1))).trans (rfl : W0 m ρ c (Proc.devRef .tc main_arg1) = m ((c.tc : Thread nD τ).loc main_arg1))
theorem W20_arg2 : W20 m ρ c (Proc.devRef .tc main_arg2) = m ((c.tc : Thread nD τ).loc main_arg2) :=
  (((((((((((((((((((((W20_of_ne m ρ c main_arg2 (by decide) : W20 m ρ c (Proc.devRef .tc main_arg2) = W19 m ρ c (Proc.devRef .tc main_arg2))).trans (by host_keep hostOps9 : W19 m ρ c (Proc.devRef .tc main_arg2) = W18 m ρ c (Proc.devRef .tc main_arg2))).trans (W18_of_ne m ρ c main_arg2 (by decide) : W18 m ρ c (Proc.devRef .tc main_arg2) = W17 m ρ c (Proc.devRef .tc main_arg2))).trans (by host_keep hostOps8 : W17 m ρ c (Proc.devRef .tc main_arg2) = W16 m ρ c (Proc.devRef .tc main_arg2))).trans (W16_of_ne m ρ c main_arg2 (by decide) : W16 m ρ c (Proc.devRef .tc main_arg2) = W15 m ρ c (Proc.devRef .tc main_arg2))).trans (by host_keep hostOps7 : W15 m ρ c (Proc.devRef .tc main_arg2) = W14 m ρ c (Proc.devRef .tc main_arg2))).trans (W14_of_ne m ρ c main_arg2 (by decide) : W14 m ρ c (Proc.devRef .tc main_arg2) = W13 m ρ c (Proc.devRef .tc main_arg2))).trans (by host_keep hostOps6 : W13 m ρ c (Proc.devRef .tc main_arg2) = W12 m ρ c (Proc.devRef .tc main_arg2))).trans (W12_of_ne m ρ c main_arg2 (by decide) : W12 m ρ c (Proc.devRef .tc main_arg2) = W11 m ρ c (Proc.devRef .tc main_arg2))).trans (by host_keep hostOps5 : W11 m ρ c (Proc.devRef .tc main_arg2) = W10 m ρ c (Proc.devRef .tc main_arg2))).trans (W10_of_ne m ρ c main_arg2 (by decide) : W10 m ρ c (Proc.devRef .tc main_arg2) = W9 m ρ c (Proc.devRef .tc main_arg2))).trans (by host_keep hostOps4 : W9 m ρ c (Proc.devRef .tc main_arg2) = W8 m ρ c (Proc.devRef .tc main_arg2))).trans (W8_of_ne m ρ c main_arg2 (by decide) : W8 m ρ c (Proc.devRef .tc main_arg2) = W7 m ρ c (Proc.devRef .tc main_arg2))).trans (by host_keep hostOps3 : W7 m ρ c (Proc.devRef .tc main_arg2) = W6 m ρ c (Proc.devRef .tc main_arg2))).trans (W6_of_ne m ρ c main_arg2 (by decide) : W6 m ρ c (Proc.devRef .tc main_arg2) = W5 m ρ c (Proc.devRef .tc main_arg2))).trans (by host_keep hostOps2 : W5 m ρ c (Proc.devRef .tc main_arg2) = W4 m ρ c (Proc.devRef .tc main_arg2))).trans (W4_of_ne m ρ c main_arg2 (by decide) : W4 m ρ c (Proc.devRef .tc main_arg2) = W3 m ρ c (Proc.devRef .tc main_arg2))).trans (by host_keep hostOps1 : W3 m ρ c (Proc.devRef .tc main_arg2) = W2 m ρ c (Proc.devRef .tc main_arg2))).trans (W2_of_ne m ρ c main_arg2 (by decide) : W2 m ρ c (Proc.devRef .tc main_arg2) = W1 m ρ c (Proc.devRef .tc main_arg2))).trans (by host_keep hostOps0 : W1 m ρ c (Proc.devRef .tc main_arg2) = W0 m ρ c (Proc.devRef .tc main_arg2))).trans (rfl : W0 m ρ c (Proc.devRef .tc main_arg2) = m ((c.tc : Thread nD τ).loc main_arg2))
theorem W1_arg3 : W1 m ρ c (Proc.devRef .tc main_arg3) = m ((c.tc : Thread nD τ).loc main_arg3) :=
  ((by host_keep hostOps0 : W1 m ρ c (Proc.devRef .tc main_arg3) = W0 m ρ c (Proc.devRef .tc main_arg3))).trans (rfl : W0 m ρ c (Proc.devRef .tc main_arg3) = m ((c.tc : Thread nD τ).loc main_arg3))
theorem W2_arg5 : W2 m ρ c (Proc.devRef .tc main_arg5) = m ((c.tc : Thread nD τ).loc main_arg5) :=
  (((W2_of_ne m ρ c main_arg5 (by decide) : W2 m ρ c (Proc.devRef .tc main_arg5) = W1 m ρ c (Proc.devRef .tc main_arg5))).trans (by host_keep hostOps0 : W1 m ρ c (Proc.devRef .tc main_arg5) = W0 m ρ c (Proc.devRef .tc main_arg5))).trans (rfl : W0 m ρ c (Proc.devRef .tc main_arg5) = m ((c.tc : Thread nD τ).loc main_arg5))
theorem W8_arg5 : W8 m ρ c (Proc.devRef .tc main_arg5) = m ((c.tc : Thread nD τ).loc main_arg5) :=
  (((((((W8_of_ne m ρ c main_arg5 (by decide) : W8 m ρ c (Proc.devRef .tc main_arg5) = W7 m ρ c (Proc.devRef .tc main_arg5))).trans (by host_keep hostOps3 : W7 m ρ c (Proc.devRef .tc main_arg5) = W6 m ρ c (Proc.devRef .tc main_arg5))).trans (W6_of_ne m ρ c main_arg5 (by decide) : W6 m ρ c (Proc.devRef .tc main_arg5) = W5 m ρ c (Proc.devRef .tc main_arg5))).trans (by host_keep hostOps2 : W5 m ρ c (Proc.devRef .tc main_arg5) = W4 m ρ c (Proc.devRef .tc main_arg5))).trans (W4_of_ne m ρ c main_arg5 (by decide) : W4 m ρ c (Proc.devRef .tc main_arg5) = W3 m ρ c (Proc.devRef .tc main_arg5))).trans (by host_keep hostOps1 : W3 m ρ c (Proc.devRef .tc main_arg5) = W2 m ρ c (Proc.devRef .tc main_arg5))).trans (W2_arg5 m ρ c)
theorem W14_arg5 : W14 m ρ c (Proc.devRef .tc main_arg5) = m ((c.tc : Thread nD τ).loc main_arg5) :=
  (((((((W14_of_ne m ρ c main_arg5 (by decide) : W14 m ρ c (Proc.devRef .tc main_arg5) = W13 m ρ c (Proc.devRef .tc main_arg5))).trans (by host_keep hostOps6 : W13 m ρ c (Proc.devRef .tc main_arg5) = W12 m ρ c (Proc.devRef .tc main_arg5))).trans (W12_of_ne m ρ c main_arg5 (by decide) : W12 m ρ c (Proc.devRef .tc main_arg5) = W11 m ρ c (Proc.devRef .tc main_arg5))).trans (by host_keep hostOps5 : W11 m ρ c (Proc.devRef .tc main_arg5) = W10 m ρ c (Proc.devRef .tc main_arg5))).trans (W10_of_ne m ρ c main_arg5 (by decide) : W10 m ρ c (Proc.devRef .tc main_arg5) = W9 m ρ c (Proc.devRef .tc main_arg5))).trans (by host_keep hostOps4 : W9 m ρ c (Proc.devRef .tc main_arg5) = W8 m ρ c (Proc.devRef .tc main_arg5))).trans (W8_arg5 m ρ c)
theorem W2_arg6 : W2 m ρ c (Proc.devRef .tc main_arg6) = m ((c.tc : Thread nD τ).loc main_arg6) :=
  (((W2_of_ne m ρ c main_arg6 (by decide) : W2 m ρ c (Proc.devRef .tc main_arg6) = W1 m ρ c (Proc.devRef .tc main_arg6))).trans (by host_keep hostOps0 : W1 m ρ c (Proc.devRef .tc main_arg6) = W0 m ρ c (Proc.devRef .tc main_arg6))).trans (rfl : W0 m ρ c (Proc.devRef .tc main_arg6) = m ((c.tc : Thread nD τ).loc main_arg6))
theorem W8_arg6 : W8 m ρ c (Proc.devRef .tc main_arg6) = m ((c.tc : Thread nD τ).loc main_arg6) :=
  (((((((W8_of_ne m ρ c main_arg6 (by decide) : W8 m ρ c (Proc.devRef .tc main_arg6) = W7 m ρ c (Proc.devRef .tc main_arg6))).trans (by host_keep hostOps3 : W7 m ρ c (Proc.devRef .tc main_arg6) = W6 m ρ c (Proc.devRef .tc main_arg6))).trans (W6_of_ne m ρ c main_arg6 (by decide) : W6 m ρ c (Proc.devRef .tc main_arg6) = W5 m ρ c (Proc.devRef .tc main_arg6))).trans (by host_keep hostOps2 : W5 m ρ c (Proc.devRef .tc main_arg6) = W4 m ρ c (Proc.devRef .tc main_arg6))).trans (W4_of_ne m ρ c main_arg6 (by decide) : W4 m ρ c (Proc.devRef .tc main_arg6) = W3 m ρ c (Proc.devRef .tc main_arg6))).trans (by host_keep hostOps1 : W3 m ρ c (Proc.devRef .tc main_arg6) = W2 m ρ c (Proc.devRef .tc main_arg6))).trans (W2_arg6 m ρ c)
theorem W14_arg6 : W14 m ρ c (Proc.devRef .tc main_arg6) = m ((c.tc : Thread nD τ).loc main_arg6) :=
  (((((((W14_of_ne m ρ c main_arg6 (by decide) : W14 m ρ c (Proc.devRef .tc main_arg6) = W13 m ρ c (Proc.devRef .tc main_arg6))).trans (by host_keep hostOps6 : W13 m ρ c (Proc.devRef .tc main_arg6) = W12 m ρ c (Proc.devRef .tc main_arg6))).trans (W12_of_ne m ρ c main_arg6 (by decide) : W12 m ρ c (Proc.devRef .tc main_arg6) = W11 m ρ c (Proc.devRef .tc main_arg6))).trans (by host_keep hostOps5 : W11 m ρ c (Proc.devRef .tc main_arg6) = W10 m ρ c (Proc.devRef .tc main_arg6))).trans (W10_of_ne m ρ c main_arg6 (by decide) : W10 m ρ c (Proc.devRef .tc main_arg6) = W9 m ρ c (Proc.devRef .tc main_arg6))).trans (by host_keep hostOps4 : W9 m ρ c (Proc.devRef .tc main_arg6) = W8 m ρ c (Proc.devRef .tc main_arg6))).trans (W8_arg6 m ρ c)
theorem W4_arg7 : W4 m ρ c (Proc.devRef .tc main_arg7) = m ((c.tc : Thread nD τ).loc main_arg7) :=
  (((((W4_of_ne m ρ c main_arg7 (by decide) : W4 m ρ c (Proc.devRef .tc main_arg7) = W3 m ρ c (Proc.devRef .tc main_arg7))).trans (by host_keep hostOps1 : W3 m ρ c (Proc.devRef .tc main_arg7) = W2 m ρ c (Proc.devRef .tc main_arg7))).trans (W2_of_ne m ρ c main_arg7 (by decide) : W2 m ρ c (Proc.devRef .tc main_arg7) = W1 m ρ c (Proc.devRef .tc main_arg7))).trans (by host_keep hostOps0 : W1 m ρ c (Proc.devRef .tc main_arg7) = W0 m ρ c (Proc.devRef .tc main_arg7))).trans (rfl : W0 m ρ c (Proc.devRef .tc main_arg7) = m ((c.tc : Thread nD τ).loc main_arg7))
theorem W10_arg7 : W10 m ρ c (Proc.devRef .tc main_arg7) = m ((c.tc : Thread nD τ).loc main_arg7) :=
  (((((((W10_of_ne m ρ c main_arg7 (by decide) : W10 m ρ c (Proc.devRef .tc main_arg7) = W9 m ρ c (Proc.devRef .tc main_arg7))).trans (by host_keep hostOps4 : W9 m ρ c (Proc.devRef .tc main_arg7) = W8 m ρ c (Proc.devRef .tc main_arg7))).trans (W8_of_ne m ρ c main_arg7 (by decide) : W8 m ρ c (Proc.devRef .tc main_arg7) = W7 m ρ c (Proc.devRef .tc main_arg7))).trans (by host_keep hostOps3 : W7 m ρ c (Proc.devRef .tc main_arg7) = W6 m ρ c (Proc.devRef .tc main_arg7))).trans (W6_of_ne m ρ c main_arg7 (by decide) : W6 m ρ c (Proc.devRef .tc main_arg7) = W5 m ρ c (Proc.devRef .tc main_arg7))).trans (by host_keep hostOps2 : W5 m ρ c (Proc.devRef .tc main_arg7) = W4 m ρ c (Proc.devRef .tc main_arg7))).trans (W4_arg7 m ρ c)
theorem W16_arg7 : W16 m ρ c (Proc.devRef .tc main_arg7) = m ((c.tc : Thread nD τ).loc main_arg7) :=
  (((((((W16_of_ne m ρ c main_arg7 (by decide) : W16 m ρ c (Proc.devRef .tc main_arg7) = W15 m ρ c (Proc.devRef .tc main_arg7))).trans (by host_keep hostOps7 : W15 m ρ c (Proc.devRef .tc main_arg7) = W14 m ρ c (Proc.devRef .tc main_arg7))).trans (W14_of_ne m ρ c main_arg7 (by decide) : W14 m ρ c (Proc.devRef .tc main_arg7) = W13 m ρ c (Proc.devRef .tc main_arg7))).trans (by host_keep hostOps6 : W13 m ρ c (Proc.devRef .tc main_arg7) = W12 m ρ c (Proc.devRef .tc main_arg7))).trans (W12_of_ne m ρ c main_arg7 (by decide) : W12 m ρ c (Proc.devRef .tc main_arg7) = W11 m ρ c (Proc.devRef .tc main_arg7))).trans (by host_keep hostOps5 : W11 m ρ c (Proc.devRef .tc main_arg7) = W10 m ρ c (Proc.devRef .tc main_arg7))).trans (W10_arg7 m ρ c)
theorem W20_arg8 : W20 m ρ c (Proc.devRef .tc main_arg8) = m ((c.tc : Thread nD τ).loc main_arg8) :=
  (((((((((((((((((((((W20_of_ne m ρ c main_arg8 (by decide) : W20 m ρ c (Proc.devRef .tc main_arg8) = W19 m ρ c (Proc.devRef .tc main_arg8))).trans (by host_keep hostOps9 : W19 m ρ c (Proc.devRef .tc main_arg8) = W18 m ρ c (Proc.devRef .tc main_arg8))).trans (W18_of_ne m ρ c main_arg8 (by decide) : W18 m ρ c (Proc.devRef .tc main_arg8) = W17 m ρ c (Proc.devRef .tc main_arg8))).trans (by host_keep hostOps8 : W17 m ρ c (Proc.devRef .tc main_arg8) = W16 m ρ c (Proc.devRef .tc main_arg8))).trans (W16_of_ne m ρ c main_arg8 (by decide) : W16 m ρ c (Proc.devRef .tc main_arg8) = W15 m ρ c (Proc.devRef .tc main_arg8))).trans (by host_keep hostOps7 : W15 m ρ c (Proc.devRef .tc main_arg8) = W14 m ρ c (Proc.devRef .tc main_arg8))).trans (W14_of_ne m ρ c main_arg8 (by decide) : W14 m ρ c (Proc.devRef .tc main_arg8) = W13 m ρ c (Proc.devRef .tc main_arg8))).trans (by host_keep hostOps6 : W13 m ρ c (Proc.devRef .tc main_arg8) = W12 m ρ c (Proc.devRef .tc main_arg8))).trans (W12_of_ne m ρ c main_arg8 (by decide) : W12 m ρ c (Proc.devRef .tc main_arg8) = W11 m ρ c (Proc.devRef .tc main_arg8))).trans (by host_keep hostOps5 : W11 m ρ c (Proc.devRef .tc main_arg8) = W10 m ρ c (Proc.devRef .tc main_arg8))).trans (W10_of_ne m ρ c main_arg8 (by decide) : W10 m ρ c (Proc.devRef .tc main_arg8) = W9 m ρ c (Proc.devRef .tc main_arg8))).trans (by host_keep hostOps4 : W9 m ρ c (Proc.devRef .tc main_arg8) = W8 m ρ c (Proc.devRef .tc main_arg8))).trans (W8_of_ne m ρ c main_arg8 (by decide) : W8 m ρ c (Proc.devRef .tc main_arg8) = W7 m ρ c (Proc.devRef .tc main_arg8))).trans (by host_keep hostOps3 : W7 m ρ c (Proc.devRef .tc main_arg8) = W6 m ρ c (Proc.devRef .tc main_arg8))).trans (W6_of_ne m ρ c main_arg8 (by decide) : W6 m ρ c (Proc.devRef .tc main_arg8) = W5 m ρ c (Proc.devRef .tc main_arg8))).trans (by host_keep hostOps2 : W5 m ρ c (Proc.devRef .tc main_arg8) = W4 m ρ c (Proc.devRef .tc main_arg8))).trans (W4_of_ne m ρ c main_arg8 (by decide) : W4 m ρ c (Proc.devRef .tc main_arg8) = W3 m ρ c (Proc.devRef .tc main_arg8))).trans (by host_keep hostOps1 : W3 m ρ c (Proc.devRef .tc main_arg8) = W2 m ρ c (Proc.devRef .tc main_arg8))).trans (W2_of_ne m ρ c main_arg8 (by decide) : W2 m ρ c (Proc.devRef .tc main_arg8) = W1 m ρ c (Proc.devRef .tc main_arg8))).trans (by host_keep hostOps0 : W1 m ρ c (Proc.devRef .tc main_arg8) = W0 m ρ c (Proc.devRef .tc main_arg8))).trans (rfl : W0 m ρ c (Proc.devRef .tc main_arg8) = m ((c.tc : Thread nD τ).loc main_arg8))
theorem W20_arg9 : W20 m ρ c (Proc.devRef .tc main_arg9) = m ((c.tc : Thread nD τ).loc main_arg9) :=
  (((((((((((((((((((((W20_of_ne m ρ c main_arg9 (by decide) : W20 m ρ c (Proc.devRef .tc main_arg9) = W19 m ρ c (Proc.devRef .tc main_arg9))).trans (by host_keep hostOps9 : W19 m ρ c (Proc.devRef .tc main_arg9) = W18 m ρ c (Proc.devRef .tc main_arg9))).trans (W18_of_ne m ρ c main_arg9 (by decide) : W18 m ρ c (Proc.devRef .tc main_arg9) = W17 m ρ c (Proc.devRef .tc main_arg9))).trans (by host_keep hostOps8 : W17 m ρ c (Proc.devRef .tc main_arg9) = W16 m ρ c (Proc.devRef .tc main_arg9))).trans (W16_of_ne m ρ c main_arg9 (by decide) : W16 m ρ c (Proc.devRef .tc main_arg9) = W15 m ρ c (Proc.devRef .tc main_arg9))).trans (by host_keep hostOps7 : W15 m ρ c (Proc.devRef .tc main_arg9) = W14 m ρ c (Proc.devRef .tc main_arg9))).trans (W14_of_ne m ρ c main_arg9 (by decide) : W14 m ρ c (Proc.devRef .tc main_arg9) = W13 m ρ c (Proc.devRef .tc main_arg9))).trans (by host_keep hostOps6 : W13 m ρ c (Proc.devRef .tc main_arg9) = W12 m ρ c (Proc.devRef .tc main_arg9))).trans (W12_of_ne m ρ c main_arg9 (by decide) : W12 m ρ c (Proc.devRef .tc main_arg9) = W11 m ρ c (Proc.devRef .tc main_arg9))).trans (by host_keep hostOps5 : W11 m ρ c (Proc.devRef .tc main_arg9) = W10 m ρ c (Proc.devRef .tc main_arg9))).trans (W10_of_ne m ρ c main_arg9 (by decide) : W10 m ρ c (Proc.devRef .tc main_arg9) = W9 m ρ c (Proc.devRef .tc main_arg9))).trans (by host_keep hostOps4 : W9 m ρ c (Proc.devRef .tc main_arg9) = W8 m ρ c (Proc.devRef .tc main_arg9))).trans (W8_of_ne m ρ c main_arg9 (by decide) : W8 m ρ c (Proc.devRef .tc main_arg9) = W7 m ρ c (Proc.devRef .tc main_arg9))).trans (by host_keep hostOps3 : W7 m ρ c (Proc.devRef .tc main_arg9) = W6 m ρ c (Proc.devRef .tc main_arg9))).trans (W6_of_ne m ρ c main_arg9 (by decide) : W6 m ρ c (Proc.devRef .tc main_arg9) = W5 m ρ c (Proc.devRef .tc main_arg9))).trans (by host_keep hostOps2 : W5 m ρ c (Proc.devRef .tc main_arg9) = W4 m ρ c (Proc.devRef .tc main_arg9))).trans (W4_of_ne m ρ c main_arg9 (by decide) : W4 m ρ c (Proc.devRef .tc main_arg9) = W3 m ρ c (Proc.devRef .tc main_arg9))).trans (by host_keep hostOps1 : W3 m ρ c (Proc.devRef .tc main_arg9) = W2 m ρ c (Proc.devRef .tc main_arg9))).trans (W2_of_ne m ρ c main_arg9 (by decide) : W2 m ρ c (Proc.devRef .tc main_arg9) = W1 m ρ c (Proc.devRef .tc main_arg9))).trans (by host_keep hostOps0 : W1 m ρ c (Proc.devRef .tc main_arg9) = W0 m ρ c (Proc.devRef .tc main_arg9))).trans (rfl : W0 m ρ c (Proc.devRef .tc main_arg9) = m ((c.tc : Thread nD τ).loc main_arg9))
theorem W20_arg10 : W20 m ρ c (Proc.devRef .tc main_arg10) = m ((c.tc : Thread nD τ).loc main_arg10) :=
  (((((((((((((((((((((W20_of_ne m ρ c main_arg10 (by decide) : W20 m ρ c (Proc.devRef .tc main_arg10) = W19 m ρ c (Proc.devRef .tc main_arg10))).trans (by host_keep hostOps9 : W19 m ρ c (Proc.devRef .tc main_arg10) = W18 m ρ c (Proc.devRef .tc main_arg10))).trans (W18_of_ne m ρ c main_arg10 (by decide) : W18 m ρ c (Proc.devRef .tc main_arg10) = W17 m ρ c (Proc.devRef .tc main_arg10))).trans (by host_keep hostOps8 : W17 m ρ c (Proc.devRef .tc main_arg10) = W16 m ρ c (Proc.devRef .tc main_arg10))).trans (W16_of_ne m ρ c main_arg10 (by decide) : W16 m ρ c (Proc.devRef .tc main_arg10) = W15 m ρ c (Proc.devRef .tc main_arg10))).trans (by host_keep hostOps7 : W15 m ρ c (Proc.devRef .tc main_arg10) = W14 m ρ c (Proc.devRef .tc main_arg10))).trans (W14_of_ne m ρ c main_arg10 (by decide) : W14 m ρ c (Proc.devRef .tc main_arg10) = W13 m ρ c (Proc.devRef .tc main_arg10))).trans (by host_keep hostOps6 : W13 m ρ c (Proc.devRef .tc main_arg10) = W12 m ρ c (Proc.devRef .tc main_arg10))).trans (W12_of_ne m ρ c main_arg10 (by decide) : W12 m ρ c (Proc.devRef .tc main_arg10) = W11 m ρ c (Proc.devRef .tc main_arg10))).trans (by host_keep hostOps5 : W11 m ρ c (Proc.devRef .tc main_arg10) = W10 m ρ c (Proc.devRef .tc main_arg10))).trans (W10_of_ne m ρ c main_arg10 (by decide) : W10 m ρ c (Proc.devRef .tc main_arg10) = W9 m ρ c (Proc.devRef .tc main_arg10))).trans (by host_keep hostOps4 : W9 m ρ c (Proc.devRef .tc main_arg10) = W8 m ρ c (Proc.devRef .tc main_arg10))).trans (W8_of_ne m ρ c main_arg10 (by decide) : W8 m ρ c (Proc.devRef .tc main_arg10) = W7 m ρ c (Proc.devRef .tc main_arg10))).trans (by host_keep hostOps3 : W7 m ρ c (Proc.devRef .tc main_arg10) = W6 m ρ c (Proc.devRef .tc main_arg10))).trans (W6_of_ne m ρ c main_arg10 (by decide) : W6 m ρ c (Proc.devRef .tc main_arg10) = W5 m ρ c (Proc.devRef .tc main_arg10))).trans (by host_keep hostOps2 : W5 m ρ c (Proc.devRef .tc main_arg10) = W4 m ρ c (Proc.devRef .tc main_arg10))).trans (W4_of_ne m ρ c main_arg10 (by decide) : W4 m ρ c (Proc.devRef .tc main_arg10) = W3 m ρ c (Proc.devRef .tc main_arg10))).trans (by host_keep hostOps1 : W3 m ρ c (Proc.devRef .tc main_arg10) = W2 m ρ c (Proc.devRef .tc main_arg10))).trans (W2_of_ne m ρ c main_arg10 (by decide) : W2 m ρ c (Proc.devRef .tc main_arg10) = W1 m ρ c (Proc.devRef .tc main_arg10))).trans (by host_keep hostOps0 : W1 m ρ c (Proc.devRef .tc main_arg10) = W0 m ρ c (Proc.devRef .tc main_arg10))).trans (rfl : W0 m ρ c (Proc.devRef .tc main_arg10) = m ((c.tc : Thread nD τ).loc main_arg10))
theorem W20_arg11 : W20 m ρ c (Proc.devRef .tc main_arg11) = m ((c.tc : Thread nD τ).loc main_arg11) :=
  (((((((((((((((((((((W20_of_ne m ρ c main_arg11 (by decide) : W20 m ρ c (Proc.devRef .tc main_arg11) = W19 m ρ c (Proc.devRef .tc main_arg11))).trans (by host_keep hostOps9 : W19 m ρ c (Proc.devRef .tc main_arg11) = W18 m ρ c (Proc.devRef .tc main_arg11))).trans (W18_of_ne m ρ c main_arg11 (by decide) : W18 m ρ c (Proc.devRef .tc main_arg11) = W17 m ρ c (Proc.devRef .tc main_arg11))).trans (by host_keep hostOps8 : W17 m ρ c (Proc.devRef .tc main_arg11) = W16 m ρ c (Proc.devRef .tc main_arg11))).trans (W16_of_ne m ρ c main_arg11 (by decide) : W16 m ρ c (Proc.devRef .tc main_arg11) = W15 m ρ c (Proc.devRef .tc main_arg11))).trans (by host_keep hostOps7 : W15 m ρ c (Proc.devRef .tc main_arg11) = W14 m ρ c (Proc.devRef .tc main_arg11))).trans (W14_of_ne m ρ c main_arg11 (by decide) : W14 m ρ c (Proc.devRef .tc main_arg11) = W13 m ρ c (Proc.devRef .tc main_arg11))).trans (by host_keep hostOps6 : W13 m ρ c (Proc.devRef .tc main_arg11) = W12 m ρ c (Proc.devRef .tc main_arg11))).trans (W12_of_ne m ρ c main_arg11 (by decide) : W12 m ρ c (Proc.devRef .tc main_arg11) = W11 m ρ c (Proc.devRef .tc main_arg11))).trans (by host_keep hostOps5 : W11 m ρ c (Proc.devRef .tc main_arg11) = W10 m ρ c (Proc.devRef .tc main_arg11))).trans (W10_of_ne m ρ c main_arg11 (by decide) : W10 m ρ c (Proc.devRef .tc main_arg11) = W9 m ρ c (Proc.devRef .tc main_arg11))).trans (by host_keep hostOps4 : W9 m ρ c (Proc.devRef .tc main_arg11) = W8 m ρ c (Proc.devRef .tc main_arg11))).trans (W8_of_ne m ρ c main_arg11 (by decide) : W8 m ρ c (Proc.devRef .tc main_arg11) = W7 m ρ c (Proc.devRef .tc main_arg11))).trans (by host_keep hostOps3 : W7 m ρ c (Proc.devRef .tc main_arg11) = W6 m ρ c (Proc.devRef .tc main_arg11))).trans (W6_of_ne m ρ c main_arg11 (by decide) : W6 m ρ c (Proc.devRef .tc main_arg11) = W5 m ρ c (Proc.devRef .tc main_arg11))).trans (by host_keep hostOps2 : W5 m ρ c (Proc.devRef .tc main_arg11) = W4 m ρ c (Proc.devRef .tc main_arg11))).trans (W4_of_ne m ρ c main_arg11 (by decide) : W4 m ρ c (Proc.devRef .tc main_arg11) = W3 m ρ c (Proc.devRef .tc main_arg11))).trans (by host_keep hostOps1 : W3 m ρ c (Proc.devRef .tc main_arg11) = W2 m ρ c (Proc.devRef .tc main_arg11))).trans (W2_of_ne m ρ c main_arg11 (by decide) : W2 m ρ c (Proc.devRef .tc main_arg11) = W1 m ρ c (Proc.devRef .tc main_arg11))).trans (by host_keep hostOps0 : W1 m ρ c (Proc.devRef .tc main_arg11) = W0 m ρ c (Proc.devRef .tc main_arg11))).trans (rfl : W0 m ρ c (Proc.devRef .tc main_arg11) = m ((c.tc : Thread nD τ).loc main_arg11))

theorem W6_main_v3_keep : W6 m ρ c (Proc.devRef .tc main_v3) = W3 m ρ c (Proc.devRef .tc main_v3) :=
  ((((W6_of_ne m ρ c main_v3 (by decide) : W6 m ρ c (Proc.devRef .tc main_v3) = W5 m ρ c (Proc.devRef .tc main_v3))).trans (by host_keep hostOps2 : W5 m ρ c (Proc.devRef .tc main_v3) = W4 m ρ c (Proc.devRef .tc main_v3))).trans (W4_of_ne m ρ c main_v3 (by decide) : W4 m ρ c (Proc.devRef .tc main_v3) = W3 m ρ c (Proc.devRef .tc main_v3)))
theorem W12_main_v3_keep : W12 m ρ c (Proc.devRef .tc main_v3) = W3 m ρ c (Proc.devRef .tc main_v3) :=
  (((((((W12_of_ne m ρ c main_v3 (by decide) : W12 m ρ c (Proc.devRef .tc main_v3) = W11 m ρ c (Proc.devRef .tc main_v3))).trans (by host_keep hostOps5 : W11 m ρ c (Proc.devRef .tc main_v3) = W10 m ρ c (Proc.devRef .tc main_v3))).trans (W10_of_ne m ρ c main_v3 (by decide) : W10 m ρ c (Proc.devRef .tc main_v3) = W9 m ρ c (Proc.devRef .tc main_v3))).trans (by host_keep hostOps4 : W9 m ρ c (Proc.devRef .tc main_v3) = W8 m ρ c (Proc.devRef .tc main_v3))).trans (W8_of_ne m ρ c main_v3 (by decide) : W8 m ρ c (Proc.devRef .tc main_v3) = W7 m ρ c (Proc.devRef .tc main_v3))).trans (by host_keep hostOps3 : W7 m ρ c (Proc.devRef .tc main_v3) = W6 m ρ c (Proc.devRef .tc main_v3))).trans (W6_main_v3_keep m ρ c)
theorem W18_main_v3_keep : W18 m ρ c (Proc.devRef .tc main_v3) = W3 m ρ c (Proc.devRef .tc main_v3) :=
  (((((((W18_of_ne m ρ c main_v3 (by decide) : W18 m ρ c (Proc.devRef .tc main_v3) = W17 m ρ c (Proc.devRef .tc main_v3))).trans (by host_keep hostOps8 : W17 m ρ c (Proc.devRef .tc main_v3) = W16 m ρ c (Proc.devRef .tc main_v3))).trans (W16_of_ne m ρ c main_v3 (by decide) : W16 m ρ c (Proc.devRef .tc main_v3) = W15 m ρ c (Proc.devRef .tc main_v3))).trans (by host_keep hostOps7 : W15 m ρ c (Proc.devRef .tc main_v3) = W14 m ρ c (Proc.devRef .tc main_v3))).trans (W14_of_ne m ρ c main_v3 (by decide) : W14 m ρ c (Proc.devRef .tc main_v3) = W13 m ρ c (Proc.devRef .tc main_v3))).trans (by host_keep hostOps6 : W13 m ρ c (Proc.devRef .tc main_v3) = W12 m ρ c (Proc.devRef .tc main_v3))).trans (W12_main_v3_keep m ρ c)
theorem W6_main_v6_keep : W6 m ρ c (Proc.devRef .tc main_v6) = W3 m ρ c (Proc.devRef .tc main_v6) :=
  ((((W6_of_ne m ρ c main_v6 (by decide) : W6 m ρ c (Proc.devRef .tc main_v6) = W5 m ρ c (Proc.devRef .tc main_v6))).trans (by host_keep hostOps2 : W5 m ρ c (Proc.devRef .tc main_v6) = W4 m ρ c (Proc.devRef .tc main_v6))).trans (W4_of_ne m ρ c main_v6 (by decide) : W4 m ρ c (Proc.devRef .tc main_v6) = W3 m ρ c (Proc.devRef .tc main_v6)))
theorem W12_main_v6_keep : W12 m ρ c (Proc.devRef .tc main_v6) = W3 m ρ c (Proc.devRef .tc main_v6) :=
  (((((((W12_of_ne m ρ c main_v6 (by decide) : W12 m ρ c (Proc.devRef .tc main_v6) = W11 m ρ c (Proc.devRef .tc main_v6))).trans (by host_keep hostOps5 : W11 m ρ c (Proc.devRef .tc main_v6) = W10 m ρ c (Proc.devRef .tc main_v6))).trans (W10_of_ne m ρ c main_v6 (by decide) : W10 m ρ c (Proc.devRef .tc main_v6) = W9 m ρ c (Proc.devRef .tc main_v6))).trans (by host_keep hostOps4 : W9 m ρ c (Proc.devRef .tc main_v6) = W8 m ρ c (Proc.devRef .tc main_v6))).trans (W8_of_ne m ρ c main_v6 (by decide) : W8 m ρ c (Proc.devRef .tc main_v6) = W7 m ρ c (Proc.devRef .tc main_v6))).trans (by host_keep hostOps3 : W7 m ρ c (Proc.devRef .tc main_v6) = W6 m ρ c (Proc.devRef .tc main_v6))).trans (W6_main_v6_keep m ρ c)
theorem W18_main_v6_keep : W18 m ρ c (Proc.devRef .tc main_v6) = W3 m ρ c (Proc.devRef .tc main_v6) :=
  (((((((W18_of_ne m ρ c main_v6 (by decide) : W18 m ρ c (Proc.devRef .tc main_v6) = W17 m ρ c (Proc.devRef .tc main_v6))).trans (by host_keep hostOps8 : W17 m ρ c (Proc.devRef .tc main_v6) = W16 m ρ c (Proc.devRef .tc main_v6))).trans (W16_of_ne m ρ c main_v6 (by decide) : W16 m ρ c (Proc.devRef .tc main_v6) = W15 m ρ c (Proc.devRef .tc main_v6))).trans (by host_keep hostOps7 : W15 m ρ c (Proc.devRef .tc main_v6) = W14 m ρ c (Proc.devRef .tc main_v6))).trans (W14_of_ne m ρ c main_v6 (by decide) : W14 m ρ c (Proc.devRef .tc main_v6) = W13 m ρ c (Proc.devRef .tc main_v6))).trans (by host_keep hostOps6 : W13 m ρ c (Proc.devRef .tc main_v6) = W12 m ρ c (Proc.devRef .tc main_v6))).trans (W12_main_v6_keep m ρ c)

/-! ## The embedding -/

theorem W1_v0 : W1 m ρ c (Proc.devRef .tc main_v0) = shapeCast S1x64 (m ((c.tc : Thread nD τ).loc main_arg4)) shapeCasts_S64_S1x64 := by
  show StableHlo.after hostOps0 (W0 m ρ c) (Proc.devRef .tc main_v0) = _
  after_results
  rfl

/-- The node rows entering layer 1 (the kernel program's). -/
def rowsK0 : (⟨S100000x64, .f32⟩ : BufTy).Contents (Elt Ideal) := embK (m ((c.tc : Thread nD τ).loc main_arg0)) (m ((c.tc : Thread nD τ).loc main_arg3)) (m ((c.tc : Thread nD τ).loc main_arg4))

theorem W2_rows : W2 m ρ c (Proc.devRef .tc main_v1) = rowsK0 m c := by
  refine (W2_arr m ρ c 3).trans ((final0 (V1 m ρ) c).trans ?_)
  show linArr (W1 m ρ c (Proc.devRef .tc main_arg0)) (W1 m ρ c (Proc.devRef .tc main_arg3)) (W1 m ρ c (Proc.devRef .tc main_v0)) = _
  rw [W1_arg0, W1_arg3, W1_v0]
  rfl

/-! ## The edge sources and targets -/

theorem W3_v3 : W3 m ρ c (Proc.devRef .tc main_v3) = srcOf (m ((c.tc : Thread nD τ).loc main_arg1)) := by
  show StableHlo.after hostOps1 (W2 m ρ c) (Proc.devRef .tc main_v3) = _
  after_results
  rw [W2_arg1]
  rfl

theorem W3_v6 : W3 m ρ c (Proc.devRef .tc main_v6) = dstOf (m ((c.tc : Thread nD τ).loc main_arg1)) := by
  show StableHlo.after hostOps1 (W2 m ρ c) (Proc.devRef .tc main_v6) = _
  after_results
  rw [W2_arg1]
  rfl

/-! ## Layer 1 -/

theorem W3_rootW : W3 m ρ c (Proc.devRef .tc main_v8) = rootW ![0, 0, 0] slices_S3x64x64_S1x64x64_0_0_0 (m ((c.tc : Thread nD τ).loc main_arg5)) := by
  show StableHlo.after hostOps1 (W2 m ρ c) (Proc.devRef .tc main_v8) = _
  after_results
  rw [W2_arg5]
  rfl

theorem W3_rootB : W3 m ρ c (Proc.devRef .tc main_v11) = shapeCast S1x64 (rootB ![0, 0] slices_S3x64_S1x64_0_0 (m ((c.tc : Thread nD τ).loc main_arg6))) shapeCasts_S64_S1x64 := by
  show StableHlo.after hostOps1 (W2 m ρ c) (Proc.devRef .tc main_v11) = _
  after_results
  rw [W2_arg6]
  rfl

theorem W3_rows : W3 m ρ c (Proc.devRef .tc main_v1) = rowsK0 m c :=
  ((by host_keep hostOps1 : W3 m ρ c (Proc.devRef .tc main_v1) = W2 m ρ c (Proc.devRef .tc main_v1))).trans (W2_rows m ρ c)

theorem W4_lin : W4 m ρ c (Proc.devRef .tc main_v12) = linArr (rowsK0 m c) (rootW ![0, 0, 0] slices_S3x64x64_S1x64x64_0_0_0 (m ((c.tc : Thread nD τ).loc main_arg5))) (shapeCast S1x64 (rootB ![0, 0] slices_S3x64_S1x64_0_0 (m ((c.tc : Thread nD τ).loc main_arg6))) shapeCasts_S64_S1x64) := by
  refine (W4_arr m ρ c 3).trans ((final1 (V3 m ρ) c).trans ?_)
  show linArr (W3 m ρ c (Proc.devRef .tc main_v1)) (W3 m ρ c (Proc.devRef .tc main_v8)) (W3 m ρ c (Proc.devRef .tc main_v11)) = _
  rw [W3_rootW, W3_rootB, W3_rows]

theorem W5_convW : W5 m ρ c (Proc.devRef .tc main_v14) = convW ![0, 0, 0, 0] slices_S3x8x64x64_S1x8x64x64_0_0_0_0 (m ((c.tc : Thread nD τ).loc main_arg7)) := by
  show StableHlo.after hostOps2 (W4 m ρ c) (Proc.devRef .tc main_v14) = _
  after_results
  rw [W4_arg7]
  rfl

theorem W5_rows : W5 m ρ c (Proc.devRef .tc main_v1) = rowsK0 m c :=
  (((by host_keep hostOps2 : W5 m ρ c (Proc.devRef .tc main_v1) = W4 m ρ c (Proc.devRef .tc main_v1))).trans ((W4_arr m ρ c 0).trans (((dat1 (V3 m ρ) c).arrAt_in 0 rfl _).trans (A_eq1 (V3 m ρ) c 0)) : W4 m ρ c (Proc.devRef .tc main_v1) = W3 m ρ c (Proc.devRef .tc main_v1))).trans (W3_rows m ρ c)

theorem W6_tables : W6 m ρ c (Proc.devRef .tc main_v15) = (labelArr (rowsK0 m c) (convW ![0, 0, 0, 0] slices_S3x8x64x64_S1x8x64x64_0_0_0_0 (m ((c.tc : Thread nD τ).loc main_arg7))) : S8x100000x64.Idx → EReal) := by
  refine (W6_arr m ρ c 2).trans ((final2 (V5 m ρ) c).trans ?_)
  show (labelArr (W5 m ρ c (Proc.devRef .tc main_v1)) (W5 m ρ c (Proc.devRef .tc main_v14)) : S8x100000x64.Idx → EReal) = _
  rw [W5_convW, W5_rows]

theorem W7_agg : W7 m ρ c (Proc.devRef .tc main_v27) = aggK (F := Ideal) (labelArr (rowsK0 m c) (convW ![0, 0, 0, 0] slices_S3x8x64x64_S1x8x64x64_0_0_0_0 (m ((c.tc : Thread nD τ).loc main_arg7))) : S8x100000x64.Idx → EReal) (srcOf (m ((c.tc : Thread nD τ).loc main_arg1))) (dstOf (m ((c.tc : Thread nD τ).loc main_arg1))) := by
  show StableHlo.after hostOps3 (W6 m ρ c) (Proc.devRef .tc main_v27) = _
  after_results_simp
  rw [W6_tables, W6_main_v3_keep, W6_main_v6_keep, W3_v3, W3_v6]
  rfl

theorem W7_lin : W7 m ρ c (Proc.devRef .tc main_v12) = linArr (rowsK0 m c) (rootW ![0, 0, 0] slices_S3x64x64_S1x64x64_0_0_0 (m ((c.tc : Thread nD τ).loc main_arg5))) (shapeCast S1x64 (rootB ![0, 0] slices_S3x64_S1x64_0_0 (m ((c.tc : Thread nD τ).loc main_arg6))) shapeCasts_S64_S1x64) :=
  ((((by host_keep hostOps3 : W7 m ρ c (Proc.devRef .tc main_v12) = W6 m ρ c (Proc.devRef .tc main_v12))).trans (W6_of_ne m ρ c main_v12 (by decide) : W6 m ρ c (Proc.devRef .tc main_v12) = W5 m ρ c (Proc.devRef .tc main_v12))).trans (by host_keep hostOps2 : W5 m ρ c (Proc.devRef .tc main_v12) = W4 m ρ c (Proc.devRef .tc main_v12))).trans (W4_lin m ρ c)

/-- The node rows after layer 1 (the kernel program's). -/
def rowsK1 : (⟨S100000x64, .f32⟩ : BufTy).Contents (Elt Ideal) :=
  layerK (rowsK0 m c) (rootW ![0, 0, 0] slices_S3x64x64_S1x64x64_0_0_0 (m ((c.tc : Thread nD τ).loc main_arg5))) (rootB ![0, 0] slices_S3x64_S1x64_0_0 (m ((c.tc : Thread nD τ).loc main_arg6))) (convW ![0, 0, 0, 0] slices_S3x8x64x64_S1x8x64x64_0_0_0_0 (m ((c.tc : Thread nD τ).loc main_arg7))) (srcOf (m ((c.tc : Thread nD τ).loc main_arg1))) (dstOf (m ((c.tc : Thread nD τ).loc main_arg1)))

theorem W8_rows : W8 m ρ c (Proc.devRef .tc main_v28) = rowsK1 m c := by
  refine (W8_arr m ρ c 2).trans ((final3 (V7 m ρ) c).trans ?_)
  show reluSum (W7 m ρ c (Proc.devRef .tc main_v12)) (W7 m ρ c (Proc.devRef .tc main_v27)) = _
  rw [W7_agg, W7_lin]
  rfl

/-! ## Layer 2 -/

theorem W9_rootW : W9 m ρ c (Proc.devRef .tc main_v30) = rootW ![1, 0, 0] slices_S3x64x64_S1x64x64_1_0_0 (m ((c.tc : Thread nD τ).loc main_arg5)) := by
  show StableHlo.after hostOps4 (W8 m ρ c) (Proc.devRef .tc main_v30) = _
  after_results
  rw [W8_arg5]
  rfl

theorem W9_rootB : W9 m ρ c (Proc.devRef .tc main_v33) = shapeCast S1x64 (rootB ![1, 0] slices_S3x64_S1x64_1_0 (m ((c.tc : Thread nD τ).loc main_arg6))) shapeCasts_S64_S1x64 := by
  show StableHlo.after hostOps4 (W8 m ρ c) (Proc.devRef .tc main_v33) = _
  after_results
  rw [W8_arg6]
  rfl

theorem W9_rows : W9 m ρ c (Proc.devRef .tc main_v28) = rowsK1 m c :=
  ((by host_keep hostOps4 : W9 m ρ c (Proc.devRef .tc main_v28) = W8 m ρ c (Proc.devRef .tc main_v28))).trans (W8_rows m ρ c)

theorem W10_lin : W10 m ρ c (Proc.devRef .tc main_v34) = linArr (rowsK1 m c) (rootW ![1, 0, 0] slices_S3x64x64_S1x64x64_1_0_0 (m ((c.tc : Thread nD τ).loc main_arg5))) (shapeCast S1x64 (rootB ![1, 0] slices_S3x64_S1x64_1_0 (m ((c.tc : Thread nD τ).loc main_arg6))) shapeCasts_S64_S1x64) := by
  refine (W10_arr m ρ c 3).trans ((final4 (V9 m ρ) c).trans ?_)
  show linArr (W9 m ρ c (Proc.devRef .tc main_v28)) (W9 m ρ c (Proc.devRef .tc main_v30)) (W9 m ρ c (Proc.devRef .tc main_v33)) = _
  rw [W9_rootW, W9_rootB, W9_rows]

theorem W11_convW : W11 m ρ c (Proc.devRef .tc main_v36) = convW ![1, 0, 0, 0] slices_S3x8x64x64_S1x8x64x64_1_0_0_0 (m ((c.tc : Thread nD τ).loc main_arg7)) := by
  show StableHlo.after hostOps5 (W10 m ρ c) (Proc.devRef .tc main_v36) = _
  after_results
  rw [W10_arg7]
  rfl

theorem W11_rows : W11 m ρ c (Proc.devRef .tc main_v28) = rowsK1 m c :=
  (((by host_keep hostOps5 : W11 m ρ c (Proc.devRef .tc main_v28) = W10 m ρ c (Proc.devRef .tc main_v28))).trans ((W10_arr m ρ c 0).trans (((dat4 (V9 m ρ) c).arrAt_in 0 rfl _).trans (A_eq4 (V9 m ρ) c 0)) : W10 m ρ c (Proc.devRef .tc main_v28) = W9 m ρ c (Proc.devRef .tc main_v28))).trans (W9_rows m ρ c)

theorem W12_tables : W12 m ρ c (Proc.devRef .tc main_v37) = (labelArr (rowsK1 m c) (convW ![1, 0, 0, 0] slices_S3x8x64x64_S1x8x64x64_1_0_0_0 (m ((c.tc : Thread nD τ).loc main_arg7))) : S8x100000x64.Idx → EReal) := by
  refine (W12_arr m ρ c 2).trans ((final5 (V11 m ρ) c).trans ?_)
  show (labelArr (W11 m ρ c (Proc.devRef .tc main_v28)) (W11 m ρ c (Proc.devRef .tc main_v36)) : S8x100000x64.Idx → EReal) = _
  rw [W11_convW, W11_rows]

theorem W13_agg : W13 m ρ c (Proc.devRef .tc main_v49) = aggK (F := Ideal) (labelArr (rowsK1 m c) (convW ![1, 0, 0, 0] slices_S3x8x64x64_S1x8x64x64_1_0_0_0 (m ((c.tc : Thread nD τ).loc main_arg7))) : S8x100000x64.Idx → EReal) (srcOf (m ((c.tc : Thread nD τ).loc main_arg1))) (dstOf (m ((c.tc : Thread nD τ).loc main_arg1))) := by
  show StableHlo.after hostOps6 (W12 m ρ c) (Proc.devRef .tc main_v49) = _
  after_results_simp
  rw [W12_tables, W12_main_v3_keep, W12_main_v6_keep, W3_v3, W3_v6]
  rfl

theorem W13_lin : W13 m ρ c (Proc.devRef .tc main_v34) = linArr (rowsK1 m c) (rootW ![1, 0, 0] slices_S3x64x64_S1x64x64_1_0_0 (m ((c.tc : Thread nD τ).loc main_arg5))) (shapeCast S1x64 (rootB ![1, 0] slices_S3x64_S1x64_1_0 (m ((c.tc : Thread nD τ).loc main_arg6))) shapeCasts_S64_S1x64) :=
  ((((by host_keep hostOps6 : W13 m ρ c (Proc.devRef .tc main_v34) = W12 m ρ c (Proc.devRef .tc main_v34))).trans (W12_of_ne m ρ c main_v34 (by decide) : W12 m ρ c (Proc.devRef .tc main_v34) = W11 m ρ c (Proc.devRef .tc main_v34))).trans (by host_keep hostOps5 : W11 m ρ c (Proc.devRef .tc main_v34) = W10 m ρ c (Proc.devRef .tc main_v34))).trans (W10_lin m ρ c)

/-- The node rows after layer 2 (the kernel program's). -/
def rowsK2 : (⟨S100000x64, .f32⟩ : BufTy).Contents (Elt Ideal) :=
  layerK (rowsK1 m c) (rootW ![1, 0, 0] slices_S3x64x64_S1x64x64_1_0_0 (m ((c.tc : Thread nD τ).loc main_arg5))) (rootB ![1, 0] slices_S3x64_S1x64_1_0 (m ((c.tc : Thread nD τ).loc main_arg6))) (convW ![1, 0, 0, 0] slices_S3x8x64x64_S1x8x64x64_1_0_0_0 (m ((c.tc : Thread nD τ).loc main_arg7))) (srcOf (m ((c.tc : Thread nD τ).loc main_arg1))) (dstOf (m ((c.tc : Thread nD τ).loc main_arg1)))

theorem W14_rows : W14 m ρ c (Proc.devRef .tc main_v50) = rowsK2 m c := by
  refine (W14_arr m ρ c 2).trans ((final6 (V13 m ρ) c).trans ?_)
  show reluSum (W13 m ρ c (Proc.devRef .tc main_v34)) (W13 m ρ c (Proc.devRef .tc main_v49)) = _
  rw [W13_agg, W13_lin]
  rfl

/-! ## Layer 3 -/

theorem W15_rootW : W15 m ρ c (Proc.devRef .tc main_v52) = rootW ![2, 0, 0] slices_S3x64x64_S1x64x64_2_0_0 (m ((c.tc : Thread nD τ).loc main_arg5)) := by
  show StableHlo.after hostOps7 (W14 m ρ c) (Proc.devRef .tc main_v52) = _
  after_results
  rw [W14_arg5]
  rfl

theorem W15_rootB : W15 m ρ c (Proc.devRef .tc main_v55) = shapeCast S1x64 (rootB ![2, 0] slices_S3x64_S1x64_2_0 (m ((c.tc : Thread nD τ).loc main_arg6))) shapeCasts_S64_S1x64 := by
  show StableHlo.after hostOps7 (W14 m ρ c) (Proc.devRef .tc main_v55) = _
  after_results
  rw [W14_arg6]
  rfl

theorem W15_rows : W15 m ρ c (Proc.devRef .tc main_v50) = rowsK2 m c :=
  ((by host_keep hostOps7 : W15 m ρ c (Proc.devRef .tc main_v50) = W14 m ρ c (Proc.devRef .tc main_v50))).trans (W14_rows m ρ c)

theorem W16_lin : W16 m ρ c (Proc.devRef .tc main_v56) = linArr (rowsK2 m c) (rootW ![2, 0, 0] slices_S3x64x64_S1x64x64_2_0_0 (m ((c.tc : Thread nD τ).loc main_arg5))) (shapeCast S1x64 (rootB ![2, 0] slices_S3x64_S1x64_2_0 (m ((c.tc : Thread nD τ).loc main_arg6))) shapeCasts_S64_S1x64) := by
  refine (W16_arr m ρ c 3).trans ((final7 (V15 m ρ) c).trans ?_)
  show linArr (W15 m ρ c (Proc.devRef .tc main_v50)) (W15 m ρ c (Proc.devRef .tc main_v52)) (W15 m ρ c (Proc.devRef .tc main_v55)) = _
  rw [W15_rootW, W15_rootB, W15_rows]

theorem W17_convW : W17 m ρ c (Proc.devRef .tc main_v58) = convW ![2, 0, 0, 0] slices_S3x8x64x64_S1x8x64x64_2_0_0_0 (m ((c.tc : Thread nD τ).loc main_arg7)) := by
  show StableHlo.after hostOps8 (W16 m ρ c) (Proc.devRef .tc main_v58) = _
  after_results
  rw [W16_arg7]
  rfl

theorem W17_rows : W17 m ρ c (Proc.devRef .tc main_v50) = rowsK2 m c :=
  (((by host_keep hostOps8 : W17 m ρ c (Proc.devRef .tc main_v50) = W16 m ρ c (Proc.devRef .tc main_v50))).trans ((W16_arr m ρ c 0).trans (((dat7 (V15 m ρ) c).arrAt_in 0 rfl _).trans (A_eq7 (V15 m ρ) c 0)) : W16 m ρ c (Proc.devRef .tc main_v50) = W15 m ρ c (Proc.devRef .tc main_v50))).trans (W15_rows m ρ c)

theorem W18_tables : W18 m ρ c (Proc.devRef .tc main_v59) = (labelArr (rowsK2 m c) (convW ![2, 0, 0, 0] slices_S3x8x64x64_S1x8x64x64_2_0_0_0 (m ((c.tc : Thread nD τ).loc main_arg7))) : S8x100000x64.Idx → EReal) := by
  refine (W18_arr m ρ c 2).trans ((final8 (V17 m ρ) c).trans ?_)
  show (labelArr (W17 m ρ c (Proc.devRef .tc main_v50)) (W17 m ρ c (Proc.devRef .tc main_v58)) : S8x100000x64.Idx → EReal) = _
  rw [W17_convW, W17_rows]

theorem W19_agg : W19 m ρ c (Proc.devRef .tc main_v71) = aggK (F := Ideal) (labelArr (rowsK2 m c) (convW ![2, 0, 0, 0] slices_S3x8x64x64_S1x8x64x64_2_0_0_0 (m ((c.tc : Thread nD τ).loc main_arg7))) : S8x100000x64.Idx → EReal) (srcOf (m ((c.tc : Thread nD τ).loc main_arg1))) (dstOf (m ((c.tc : Thread nD τ).loc main_arg1))) := by
  show StableHlo.after hostOps9 (W18 m ρ c) (Proc.devRef .tc main_v71) = _
  after_results_simp
  rw [W18_tables, W18_main_v3_keep, W18_main_v6_keep, W3_v3, W3_v6]
  rfl

theorem W19_lin : W19 m ρ c (Proc.devRef .tc main_v56) = linArr (rowsK2 m c) (rootW ![2, 0, 0] slices_S3x64x64_S1x64x64_2_0_0 (m ((c.tc : Thread nD τ).loc main_arg5))) (shapeCast S1x64 (rootB ![2, 0] slices_S3x64_S1x64_2_0 (m ((c.tc : Thread nD τ).loc main_arg6))) shapeCasts_S64_S1x64) :=
  ((((by host_keep hostOps9 : W19 m ρ c (Proc.devRef .tc main_v56) = W18 m ρ c (Proc.devRef .tc main_v56))).trans (W18_of_ne m ρ c main_v56 (by decide) : W18 m ρ c (Proc.devRef .tc main_v56) = W17 m ρ c (Proc.devRef .tc main_v56))).trans (by host_keep hostOps8 : W17 m ρ c (Proc.devRef .tc main_v56) = W16 m ρ c (Proc.devRef .tc main_v56))).trans (W16_lin m ρ c)

/-- The node rows after layer 3 (the kernel program's). -/
def rowsK3 : (⟨S100000x64, .f32⟩ : BufTy).Contents (Elt Ideal) :=
  layerK (rowsK2 m c) (rootW ![2, 0, 0] slices_S3x64x64_S1x64x64_2_0_0 (m ((c.tc : Thread nD τ).loc main_arg5))) (rootB ![2, 0] slices_S3x64_S1x64_2_0 (m ((c.tc : Thread nD τ).loc main_arg6))) (convW ![2, 0, 0, 0] slices_S3x8x64x64_S1x8x64x64_2_0_0_0 (m ((c.tc : Thread nD τ).loc main_arg7))) (srcOf (m ((c.tc : Thread nD τ).loc main_arg1))) (dstOf (m ((c.tc : Thread nD τ).loc main_arg1)))

theorem W20_rows : W20 m ρ c (Proc.devRef .tc main_v72) = rowsK3 m c := by
  refine (W20_arr m ρ c 2).trans ((final9 (V19 m ρ) c).trans ?_)
  show reluSum (W19 m ρ c (Proc.devRef .tc main_v56)) (W19 m ρ c (Proc.devRef .tc main_v71)) = _
  rw [W19_agg, W19_lin]
  rfl

/-! ## The readout -/

/-- The result buffer after the last host stretch is the readout of the third layer's node rows. -/
theorem result_eq : W23 m ρ c (Proc.devRef .tc main_v94)
    = readout (rowsK3 m c) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) := by
  show StableHlo.after hostOps10_2 (StableHlo.after hostOps10_1 (StableHlo.after hostOps10 (W20 m ρ c))) (Proc.devRef .tc main_v94) = _
  after_results_simp
  rw [W20_rows, W20_arg2, W20_arg8, W20_arg9, W20_arg10, W20_arg11]
  rfl

end Cert.KernelIdeal.Hand

end
-- ==== Proof.ReferenceStages.lean ====
/-
  The stages of the idealized reference program, named.

  The reference slices the edge list into sources and targets and each layer's weights out of the stacked parameter arrays,
  gathers for every edge the node row it reads, multiplies the gathered rows by their label's weights, adds the
  products into their target rows, and after the last layer pools the node rows per graph and applies the readout.  Each
  stage is named here as a function of the arrays it reads, at the ideal instance.
-/
import proofs.«150609_j14070312862201_2_alg».proof.Proof.Gen.ReferenceIdeal
import proofs.«150609_j14070312862201_2_alg».proof.Proof.LibNodeRows

noncomputable section

namespace Cert.ReferenceIdeal.Hand

open Cert.ReferenceIdeal Cert.ReferenceIdeal.Gen Idealize.ShloMosaic Idealize.ShloMosaic.NodeRows

variable {F : FTy → Type} [FloatOps F]

/-- The edge sources of all labels: the first of the two rows of every label's edge list. -/
def srcOf (a1 : (⟨S8x2x200000, .i32⟩ : BufTy).Contents (Elt F)) : (⟨S8x200000, .i32⟩ : BufTy).Contents (Elt F) :=
  shapeCast S8x200000 (extractStridedSlice S8x1x200000 ![0, 0, 0] a1 slices_S8x2x200000_S8x1x200000_0_0_0) shapeCasts_S8x1x200000_S8x200000

/-- The edge targets of all labels, label after label in one list. -/
def dstOf (a1 : (⟨S8x2x200000, .i32⟩ : BufTy).Contents (Elt F)) : (⟨S1600000, .i32⟩ : BufTy).Contents (Elt F) :=
  shapeCast S1600000 (shapeCast S8x200000 (extractStridedSlice S8x1x200000 ![0, 1, 0] a1 slices_S8x2x200000_S8x1x200000_0_1_0)
    shapeCasts_S8x1x200000_S8x200000) shapeCasts_S8x200000_S1600000

/-- The gather's start indices: the sources, a negative one counted back from the node count, as a column. -/
def srcCol (s : (⟨S8x200000, .i32⟩ : BufTy).Contents (Elt F)) : (⟨S8x200000x1, .i32⟩ : BufTy).Contents (Elt F) :=
  broadcastInDim S8x200000x1 ![0, 1] bcast_S8x200000_S8x200000x1_0_1
    (select (cmpi .slt s (broadcastInDim S8x200000 ![] bcast_S_S8x200000 (constantI S_ 32 0#32)))
      (addi s (broadcastInDim S8x200000 ![] bcast_S_S8x200000 (constantI S_ 32 100000#32))) s)

/-- The scatter's indices: the targets as a column. -/
def dstCol (d : (⟨S1600000, .i32⟩ : BufTy).Contents (Elt F)) : (⟨S1600000x1, .i32⟩ : BufTy).Contents (Elt F) :=
  broadcastInDim S1600000x1 ![0] bcast_S1600000_S1600000x1_0 d

/-- The zero array the messages are added into. -/
def zeroRows : (⟨S100000x64, .f32⟩ : BufTy).Contents (Elt F) :=
  broadcastInDim S100000x64 ![] bcast_S_S100000x64 (constant S_ .f32 0x00000000#32)

/-- Root weights of one layer: one [64, 64] slab of the three. -/
def rootW (o : Fin 3 → Nat) (h : S3x64x64.Slices o S1x64x64) (a5 : (⟨S3x64x64, .f32⟩ : BufTy).Contents (Elt F)) :
    (⟨S64x64, .f32⟩ : BufTy).Contents (Elt F) :=
  shapeCast S64x64 (extractStridedSlice S1x64x64 o a5 h) shapeCasts_S1x64x64_S64x64

/-- Root bias of one layer: one row of the three, as a vector. -/
def rootB (o : Fin 2 → Nat) (h : S3x64.Slices o S1x64) (a6 : (⟨S3x64, .f32⟩ : BufTy).Contents (Elt F)) :
    (⟨S64, .f32⟩ : BufTy).Contents (Elt F) :=
  shapeCast S64 (extractStridedSlice S1x64 o a6 h) shapeCasts_S1x64_S64

/-- Per-label weights of one layer: one [8, 64, 64] slab of the three. -/
def convW (o : Fin 4 → Nat) (h : S3x8x64x64.Slices o S1x8x64x64) (a7 : (⟨S3x8x64x64, .f32⟩ : BufTy).Contents (Elt F)) :
    (⟨S8x64x64, .f32⟩ : BufTy).Contents (Elt F) :=
  shapeCast S8x64x64 (extractStridedSlice S1x8x64x64 o a7 h) shapeCasts_S1x8x64x64_S8x64x64

/-- The readout after the last layer: node rows summed per graph and divided by the graph's node count (at least one), a
    dense layer clamped from below at zero, a second dense layer to one number per graph. -/
def readout (H : (⟨S100000x64, .f32⟩ : BufTy).Contents (Elt F)) (a2 : (⟨S100000, .i32⟩ : BufTy).Contents (Elt F))
    (a8 : (⟨S64x64, .f32⟩ : BufTy).Contents (Elt F)) (a9 : (⟨S64, .f32⟩ : BufTy).Contents (Elt F))
    (a10 : (⟨S64x1, .f32⟩ : BufTy).Contents (Elt F)) (a11 : (⟨S1, .f32⟩ : BufTy).Contents (Elt F)) :
    (⟨S32, .f32⟩ : BufTy).Contents (Elt F) :=
  shapeCast S32 (addf (Host.dotGeneral dot_S32x64_S64x1_S32x1_1_0_0_1_n_n none (maximumf (addf (Host.dotGeneral dot_S32x64_S64x64_S32x64_1_0_0_1_n_n none (Host.divf (Host.scatterAdd scatter_S32x64_S100000x1_S100000x64_1_0_0_1 (broadcastInDim S32x64 ![] bcast_S_S32x64 (constant S_ .f32 0x00000000#32)) (broadcastInDim S100000x1 ![0] bcast_S100000_S100000x1_0 a2) H) (broadcastInDim S32x64 ![0, 1] bcast_S32x1_S32x64_0_1 (broadcastInDim S32x1 ![0] bcast_S32_S32x1_0 (maximumf (Host.scatterAdd scatter_S32_S100000x1_S100000_n_0_0_1 (broadcastInDim S32 ![] bcast_S_S32 (constant S_ .f32 0x00000000#32)) (broadcastInDim S100000x1 ![0] bcast_S100000_S100000x1_0 a2) (broadcastInDim S100000 ![] bcast_S_S100000 (constant S_ .f32 0x3F800000#32))) (broadcastInDim S32 ![] bcast_S_S32 (constant S_ .f32 0x3F800000#32)))))) a8) (broadcastInDim S32x64 ![0, 1] bcast_S1x64_S32x64_0_1 (broadcastInDim S1x64 ![1] bcast_S64_S1x64_1 a9))) (broadcastInDim S32x64 ![] bcast_S_S32x64 (constant S_ .f32 0x00000000#32))) a10) (broadcastInDim S32x1 ![0, 1] bcast_S1x1_S32x1_0_1 (broadcastInDim S1x1 ![1] bcast_S1_S1x1_1 a11))) shapeCasts_S32x1_S32

/-- The aggregation: for every edge of every label the node row the edge reads, times the label's weights, added into the
    edge's target row of a zero array. -/
def aggR (H : (⟨S100000x64, .f32⟩ : BufTy).Contents (Elt F)) (Wc : (⟨S8x64x64, .f32⟩ : BufTy).Contents (Elt F))
    (s : (⟨S8x200000, .i32⟩ : BufTy).Contents (Elt F)) (d : (⟨S1600000, .i32⟩ : BufTy).Contents (Elt F)) :
    (⟨S100000x64, .f32⟩ : BufTy).Contents (Elt F) :=
  Host.scatterAdd scatter_S100000x64_S1600000x1_S1600000x64_1_0_0_1 zeroRows (dstCol d)
    (shapeCast S1600000x64 (Host.dotGeneral dot_S8x200000x64_S8x64x64_S8x200000x64_2_1_1_2_0_0 none
      (Host.gather gather_S100000x64_S8x200000x1_S8x200000x64_2_0_n_n_0_2_164 H (srcCol s)) Wc) shapeCasts_S8x200000x64_S1600000x64)

/-- One layer: the root product of the node rows with its bias, plus the aggregation, clamped from below at zero. -/
def layerR (H : (⟨S100000x64, .f32⟩ : BufTy).Contents (Elt F)) (Wr : (⟨S64x64, .f32⟩ : BufTy).Contents (Elt F))
    (br : (⟨S64, .f32⟩ : BufTy).Contents (Elt F)) (Wc : (⟨S8x64x64, .f32⟩ : BufTy).Contents (Elt F))
    (s : (⟨S8x200000, .i32⟩ : BufTy).Contents (Elt F)) (d : (⟨S1600000, .i32⟩ : BufTy).Contents (Elt F)) :
    (⟨S100000x64, .f32⟩ : BufTy).Contents (Elt F) :=
  maximumf (addf (addf (Host.dotGeneral dot_S100000x64_S64x64_S100000x64_1_0_0_1_n_n none H Wr)
      (broadcastInDim S100000x64 ![0, 1] bcast_S1x64_S100000x64_0_1 (broadcastInDim S1x64 ![1] bcast_S64_S1x64_1 br)))
    (aggR H Wc s d)) zeroRows

/-- The embedding: the product of the input features with its bias. -/
def embR (x : (⟨S100000x16, .f32⟩ : BufTy).Contents (Elt F)) (W : (⟨S16x64, .f32⟩ : BufTy).Contents (Elt F))
    (b : (⟨S64, .f32⟩ : BufTy).Contents (Elt F)) : (⟨S100000x64, .f32⟩ : BufTy).Contents (Elt F) :=
  addf (Host.dotGeneral dot_S100000x16_S16x64_S100000x64_1_0_0_1_n_n none x W)
    (broadcastInDim S100000x64 ![0, 1] bcast_S1x64_S100000x64_0_1 (broadcastInDim S1x64 ![1] bcast_S64_S1x64_1 b))

end Cert.ReferenceIdeal.Hand

end
-- ==== Proof.ReferenceValue.lean ====
/-
  The idealized reference program's result as a composition of its named stages.

  The result array is the readout of the third layer's node rows; each layer's node rows are that layer's stages of the
  previous layer's node rows; the first layer's input is the embedding of the input features.
-/
import proofs.«150609_j14070312862201_2_alg».proof.Proof.Gen.ReferenceIdeal.Run
import proofs.«150609_j14070312862201_2_alg».proof.Proof.ReferenceStages

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (c : Dev nD)

/-- The node rows entering layer 1: the embedding. -/
def rows0 : (⟨S100000x64, .f32⟩ : BufTy).Contents (Elt F) := embR (m ((c.tc : Thread nD τ).loc main_arg0)) (m ((c.tc : Thread nD τ).loc main_arg3)) (m ((c.tc : Thread nD τ).loc main_arg4))
/-- The node rows after layer 1. -/
def rows1 : (⟨S100000x64, .f32⟩ : BufTy).Contents (Elt F) := layerR (rows0 m c) (rootW ![0, 0, 0] slices_S3x64x64_S1x64x64_0_0_0 (m ((c.tc : Thread nD τ).loc main_arg5))) (rootB ![0, 0] slices_S3x64_S1x64_0_0 (m ((c.tc : Thread nD τ).loc main_arg6))) (convW ![0, 0, 0, 0] slices_S3x8x64x64_S1x8x64x64_0_0_0_0 (m ((c.tc : Thread nD τ).loc main_arg7))) (srcOf (m ((c.tc : Thread nD τ).loc main_arg1))) (dstOf (m ((c.tc : Thread nD τ).loc main_arg1)))
/-- The node rows after layer 2. -/
def rows2 : (⟨S100000x64, .f32⟩ : BufTy).Contents (Elt F) := layerR (rows1 m c) (rootW ![1, 0, 0] slices_S3x64x64_S1x64x64_1_0_0 (m ((c.tc : Thread nD τ).loc main_arg5))) (rootB ![1, 0] slices_S3x64_S1x64_1_0 (m ((c.tc : Thread nD τ).loc main_arg6))) (convW ![1, 0, 0, 0] slices_S3x8x64x64_S1x8x64x64_1_0_0_0 (m ((c.tc : Thread nD τ).loc main_arg7))) (srcOf (m ((c.tc : Thread nD τ).loc main_arg1))) (dstOf (m ((c.tc : Thread nD τ).loc main_arg1)))
/-- The node rows after layer 3. -/
def rows3 : (⟨S100000x64, .f32⟩ : BufTy).Contents (Elt F) := layerR (rows2 m c) (rootW ![2, 0, 0] slices_S3x64x64_S1x64x64_2_0_0 (m ((c.tc : Thread nD τ).loc main_arg5))) (rootB ![2, 0] slices_S3x64_S1x64_2_0 (m ((c.tc : Thread nD τ).loc main_arg6))) (convW ![2, 0, 0, 0] slices_S3x8x64x64_S1x8x64x64_2_0_0_0 (m ((c.tc : Thread nD τ).loc main_arg7))) (srcOf (m ((c.tc : Thread nD τ).loc main_arg1))) (dstOf (m ((c.tc : Thread nD τ).loc main_arg1)))

/-- The run's result term is the readout of the third layer's node rows. -/
theorem result_eq : Cert.ReferenceIdeal.Value.res_main_v102 (F := F) m c
    = readout (rows3 m c) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.Value.res_main_v102
  rfl

end Cert.ReferenceIdeal.Hand

end
-- ==== Proof.LibEdgeGather.lean ====
/-
  Row gathers for edge lists grouped by label, read at an index.

  A list of E edges for each of L labels names, per edge, the node row it reads: start indices of shape [L, E, 1].
  Two gathers by such a list occur.  From one table of node rows [N, C], shared by all labels, result entry (l, e, q)
  is the table's entry (r, q), r the start index (l, e) read as a signed integer and clamped into [0, N - 1].  From a
  table per label [L, N, C], the label axis a batching axis of operand and start indices alike, result entry (l, e, q)
  is entry (l, r, q) of the tables with the same row r.  So gathering rows of per-label tables built from one shared
  table commutes with building them whenever row r of table l depends on row r of the shared table only.
  Everything is generic in the extents N, L, E, C and in the width of the index words.
-/
import Idealize.ShloMosaic.PureOps.Ideal
import Idealize.ShloMosaic.Lib.ValueIdx

noncomputable section

namespace Idealize.ShloMosaic.EdgeGather

open Idealize.ShloMosaic Idealize.ShloMosaic.ValueIdx

/-- A signed start index clamped into [0, N - 1]: the node row an edge reads. -/
def srcRow (N : Nat) (hN : 0 < N) {w : Nat} (v : BitVec w) : Fin N := ⟨min v.toInt.toNat (N - 1), by omega⟩

variable {α : Type}

/-! ## One shared table of rows -/

/-- The dimension numbers of x[idx] for x : [N, C], idx : [L, E, 1]: axis 0 collapsed and indexed, axis 1 an offset axis. -/
abbrev sharedDims (N L E C : Nat)
    (wf : GatherDims.WF ⟨2, ![N, C]⟩ ⟨3, ![L, E, 1]⟩ ⟨3, ![L, E, C]⟩ [2] [0] [] [0] [] 2 ![1, C]) :
    GatherDims ⟨2, ![N, C]⟩ ⟨3, ![L, E, 1]⟩ ⟨3, ![L, E, C]⟩ where
  offsetDims := [2]
  collapsedSliceDims := [0]
  operandBatchingDims := []
  startIndicesBatchingDims := []
  startIndexMap := [0]
  indexVectorDim := 2
  sliceSizes := ![1, C]
  wf := wf

/-- Result entry (l, e, q) of a gather from the shared table is the table at row srcRow idx[l, e, 0], column q. -/
theorem shared_apply {N L E C w : Nat} (hN : 0 < N)
    (wf : GatherDims.WF ⟨2, ![N, C]⟩ ⟨3, ![L, E, 1]⟩ ⟨3, ![L, E, C]⟩ [2] [0] [] [0] [] 2 ![1, C])
    (x : (⟨2, ![N, C]⟩ : Shape).Idx → α) (idx : IVec ⟨3, ![L, E, 1]⟩ w) (l : Fin L) (e : Fin E) (q : Fin C) :
    Host.gather (sharedDims N L E C wf) x idx (ix3 l e q) = x (ix2 (srcRow N hN (idx (ix3 l e (0 : Fin 1)))) q) := by
  unfold Host.gather
  congr 1
  funext a
  refine Fin.ext ?_
  match a with
  | ⟨0, _⟩ =>
    show (sharedDims N L E C wf).start (ix3 l e q) idx 0 + (sharedDims N L E C wf).batchCoord (ix3 l e q) 0
      + (sharedDims N L E C wf).offCoord (ix3 l e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (sharedDims N L E C wf).startIndexMap from List.mem_singleton.mpr rfl)]
    have hsi : (sharedDims N L E C wf).siIdx (ix3 l e q) ⟨List.idxOf (0 : Fin 2) (sharedDims N L E C wf).startIndexMap,
        List.idxOf_lt_length_iff.2 (List.mem_singleton.mpr rfl)⟩ = ix3 l e (0 : Fin 1) := by
      funext b; refine Fin.ext ?_
      match b with
      | ⟨0, _⟩ => rfl
      | ⟨1, _⟩ => rfl
      | ⟨2, _⟩ => rfl
    rw [hsi]
    rfl
  | ⟨1, _⟩ =>
    show (sharedDims N L E C wf).start (ix3 l e q) idx 1 + (sharedDims N L E C wf).batchCoord (ix3 l e q) 1
      + (sharedDims N L E C wf).offCoord (ix3 l e q) 1 = q.val
    rw [GatherDims.batchCoord_eq_zero _ _ _ List.not_mem_nil]
    have hs : (sharedDims N L E C wf).start (ix3 l e q) idx 1 = 0 := by
      unfold GatherDims.start
      rw [dif_neg (fun h => absurd (List.mem_singleton.mp h) (show ¬ ((1 : Fin 2) = 0) by decide))]
    rw [hs]
    simp only [Nat.add_zero, Nat.zero_add]
    rfl

/-! ## One table of rows per label -/

/-- The dimension numbers of the per-label x[l][idx[l]] for x : [L, N, C], idx : [L, E, 1]: axis 0 a batching axis of both,
    axis 1 collapsed and indexed, axis 2 an offset axis. -/
abbrev labelDims (N L E C : Nat)
    (wf : GatherDims.WF ⟨3, ![L, N, C]⟩ ⟨3, ![L, E, 1]⟩ ⟨3, ![L, E, C]⟩ [2] [1] [0] [1] [0] 2 ![1, 1, C]) :
    GatherDims ⟨3, ![L, N, C]⟩ ⟨3, ![L, E, 1]⟩ ⟨3, ![L, E, C]⟩ where
  offsetDims := [2]
  collapsedSliceDims := [1]
  operandBatchingDims := [0]
  startIndicesBatchingDims := [0]
  startIndexMap := [1]
  indexVectorDim := 2
  sliceSizes := ![1, 1, C]
  wf := wf

/-- Result entry (l, e, q) of a gather from per-label tables is table l at row srcRow idx[l, e, 0], column q. -/
theorem label_apply {N L E C w : Nat} (hN : 0 < N)
    (wf : GatherDims.WF ⟨3, ![L, N, C]⟩ ⟨3, ![L, E, 1]⟩ ⟨3, ![L, E, C]⟩ [2] [1] [0] [1] [0] 2 ![1, 1, C])
    (x : (⟨3, ![L, N, C]⟩ : Shape).Idx → α) (idx : IVec ⟨3, ![L, E, 1]⟩ w) (l : Fin L) (e : Fin E) (q : Fin C) :
    Host.gather (labelDims N L E C wf) x idx (ix3 l e q) = x (ix3 l (srcRow N hN (idx (ix3 l e (0 : Fin 1)))) q) := by
  unfold Host.gather
  congr 1
  funext a
  refine Fin.ext ?_
  match a with
  | ⟨0, _⟩ =>
    show (labelDims N L E C wf).start (ix3 l e q) idx 0 + (labelDims N L E C wf).batchCoord (ix3 l e q) 0
      + (labelDims N L E C wf).offCoord (ix3 l e q) 0 = l.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 3) ∈ (labelDims N L E C wf).operandBatchingDims from List.mem_singleton.mpr rfl)]
    rfl
  | ⟨1, _⟩ =>
    show (labelDims N L E C wf).start (ix3 l e q) idx 1 + (labelDims N L E C wf).batchCoord (ix3 l e q) 1
      + (labelDims N L E C wf).offCoord (ix3 l e q) 1 = _
    rw [GatherDims.batchCoord_eq_zero _ _ _ (fun h => absurd (List.mem_singleton.mp h) (show ¬ ((1 : Fin 3) = 0) by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (labelDims N L E C wf).startIndexMap from List.mem_singleton.mpr rfl)]
    have hsi : (labelDims N L E C wf).siIdx (ix3 l e q) ⟨List.idxOf (1 : Fin 3) (labelDims N L E C wf).startIndexMap,
        List.idxOf_lt_length_iff.2 (List.mem_singleton.mpr rfl)⟩ = ix3 l e (0 : Fin 1) := by
      funext b; refine Fin.ext ?_
      match b with
      | ⟨0, _⟩ => rfl
      | ⟨1, _⟩ => rfl
      | ⟨2, _⟩ => rfl
    rw [hsi]
    rfl
  | ⟨2, _⟩ =>
    show (labelDims N L E C wf).start (ix3 l e q) idx 2 + (labelDims N L E C wf).batchCoord (ix3 l e q) 2
      + (labelDims N L E C wf).offCoord (ix3 l e q) 2 = q.val
    rw [GatherDims.batchCoord_eq_zero _ _ _ (fun h => absurd (List.mem_singleton.mp h) (show ¬ ((2 : Fin 3) = 0) by decide))]
    have hs : (labelDims N L E C wf).start (ix3 l e q) idx 2 = 0 := by
      unfold GatherDims.start
      rw [dif_neg (fun h => absurd (List.mem_singleton.mp h) (show ¬ ((2 : Fin 3) = 1) by decide))]
    rw [hs]
    simp only [Nat.add_zero, Nat.zero_add]
    rfl

end Idealize.ShloMosaic.EdgeGather

end
-- ==== Proof.Bridge.lean ====
/-
  The two programs' layers are one function of the arrays they read.

  The kernel program applies each label's weights to every node row, gathers for each edge the row of its label's table
  that the edge reads, and adds the gathered rows into the edges' target rows; the reference gathers for each edge the
  node row it reads, applies the label's weights to the gathered rows, and adds the products into the target rows.
  Row r of label l's table depends on node row r only, and both gathers read the same row r — the edge's source, a
  negative one counted back from the node count, clamped into the node range — so the rows added are equal edge by edge:
  entry (l, e, q) of either is the sum over k of the source row's entry k times the label's weight (k, q).  The root
  stage, the bias and the clamp at zero are the same formulas in two spellings.  Nothing here needs the entries to be
  finite: no sum is rearranged and no factor is moved across a sum.
-/
import proofs.«150609_j14070312862201_2_alg».proof.Proof.KernelStages
import proofs.«150609_j14070312862201_2_alg».proof.Proof.ReferenceStages
import proofs.«150609_j14070312862201_2_alg».proof.Proof.LibEdgeGather
import proofs.«150609_j14070312862201_2_alg».proof.Proof.Gen.ReferenceIdeal.Read
import Idealize.ShloMosaic.Lib.ValueIdx
import Idealize.ShloMosaic.PureOps.Ideal.Laws

set_option maxRecDepth 16384

noncomputable section

open scoped BigOperators

namespace Cert.Bridge

open Idealize.ShloMosaic Idealize.ShloMosaic.ValueIdx Idealize.ShloMosaic.NodeRows Idealize.ShloMosaic.EdgeGather

/-! ## The reference's per-label product read at an entry -/

/-- Entry (l, e, q) of the product of gathered rows G with the per-label weights is the sum over k of G (l, e, k) times
    the weight (l, k, q): the label axis is a batch axis of both operands, the row's entries are contracted against the
    weight's rows. -/
theorem labelDot_apply (G : FVec Ideal Cert.ReferenceIdeal.S8x200000x64 .f32) (Wc : FVec Ideal Cert.ReferenceIdeal.S8x64x64 .f32)
    (l : Fin 8) (e : Fin 200000) (q : Fin 64) :
    Host.dotGeneral (F := Ideal) Cert.ReferenceIdeal.dot_S8x200000x64_S8x64x64_S8x200000x64_2_1_1_2_0_0 none G Wc (ix3 l e q)
      = ∑ k : Fin 64, G (ix3 l e k) * Wc (ix3 l k q) := by
  simp only [Host.dotGeneral]
  rw [Ideal.dotGeneral_apply, ← Equiv.sum_comp (ValueIdx.contrEquiv1 Cert.ReferenceIdeal.dot_S8x200000x64_S8x64x64_S8x200000x64_2_1_1_2_0_0 64 rfl rfl).symm]
  refine Finset.sum_congr rfl fun k _ => ?_
  have hk := ValueIdx.contrEquiv1_symm_val Cert.ReferenceIdeal.dot_S8x200000x64_S8x64x64_S8x200000x64_2_1_1_2_0_0 64 rfl rfl k
  have el : Cert.ReferenceIdeal.dot_S8x200000x64_S8x64x64_S8x200000x64_2_1_1_2_0_0.lhsIdx (ix3 l e q)
      ((ValueIdx.contrEquiv1 Cert.ReferenceIdeal.dot_S8x200000x64_S8x64x64_S8x200000x64_2_1_1_2_0_0 64 rfl rfl).symm k) = ix3 l e k :=
    funext fun a => Fin.ext (by
      match a with
      | ⟨0, _⟩ => exact Cert.ReferenceIdeal.Read.lhs_main_v26_0 _ _
      | ⟨1, _⟩ => exact Cert.ReferenceIdeal.Read.lhs_main_v26_1 _ _
      | ⟨2, _⟩ => exact (Cert.ReferenceIdeal.Read.lhs_main_v26_2 _ _).trans hk)
  have er : Cert.ReferenceIdeal.dot_S8x200000x64_S8x64x64_S8x200000x64_2_1_1_2_0_0.rhsIdx (ix3 l e q)
      ((ValueIdx.contrEquiv1 Cert.ReferenceIdeal.dot_S8x200000x64_S8x64x64_S8x200000x64_2_1_1_2_0_0 64 rfl rfl).symm k) = ix3 l k q :=
    funext fun a => Fin.ext (by
      match a with
      | ⟨0, _⟩ => exact Cert.ReferenceIdeal.Read.rhs_main_v26_0 _ _
      | ⟨1, _⟩ => exact (Cert.ReferenceIdeal.Read.rhs_main_v26_1 _ _).trans hk
      | ⟨2, _⟩ => exact Cert.ReferenceIdeal.Read.rhs_main_v26_2 _ _)
  rw [el, er]

/-! ## The rows the edges carry -/

/-- The rows gathered from the per-label tables are the gathered node rows times the labels' weights. -/
theorem messages_eq (H : FVec Ideal Cert.ReferenceIdeal.S100000x64 .f32) (Wc : FVec Ideal Cert.ReferenceIdeal.S8x64x64 .f32)
    (s : (⟨Cert.ReferenceIdeal.S8x200000, .i32⟩ : BufTy).Contents (Elt Ideal)) :
    (Host.gather Cert.KernelIdeal.gather_S8x100000x64_S8x200000x1_S8x200000x64_2_1_0_0_1_2_1164
        (labelArr H Wc : Cert.KernelIdeal.S8x100000x64.Idx → EReal) (Cert.KernelIdeal.Hand.srcCol (F := Ideal) s)
      : Cert.ReferenceIdeal.S8x200000x64.Idx → EReal)
      = Host.dotGeneral (F := Ideal) Cert.ReferenceIdeal.dot_S8x200000x64_S8x64x64_S8x200000x64_2_1_1_2_0_0 none
          (Host.gather Cert.ReferenceIdeal.gather_S100000x64_S8x200000x1_S8x200000x64_2_0_n_n_0_2_164 H
            (Cert.ReferenceIdeal.Hand.srcCol (F := Ideal) s)) Wc := by
  funext j
  obtain ⟨l, e, q, rfl⟩ : ∃ (l : Fin 8) (e : Fin 200000) (q : Fin 64), j = ix3 l e q := ⟨j 0, j 1, j 2, eq_ix3 j⟩
  rw [labelDot_apply]
  refine (label_apply (N := 100000) (L := 8) (E := 200000) (C := 64) (by decide)
    Cert.KernelIdeal.gather_S8x100000x64_S8x200000x1_S8x200000x64_2_1_0_0_1_2_1164.wf _ _ l e q).trans ?_
  rw [labelArr_apply]
  refine Finset.sum_congr rfl fun k _ => ?_
  refine congrArg (· * Wc (ix3 l k q)) ?_
  exact (shared_apply (N := 100000) (L := 8) (E := 200000) (C := 64) (by decide)
    Cert.ReferenceIdeal.gather_S100000x64_S8x200000x1_S8x200000x64_2_0_n_n_0_2_164.wf H _ l e k).symm

/-! ## The aggregation, a layer, the embedding -/

/-- The two programs' scatter-add dimension numbers are one record. -/
theorem scatter_dims_eq : Cert.KernelIdeal.scatter_S100000x64_S1600000x1_S1600000x64_1_0_0_1
    = Cert.ReferenceIdeal.scatter_S100000x64_S1600000x1_S1600000x64_1_0_0_1 := rfl

theorem zeroRows_eq : Cert.KernelIdeal.Hand.zeroRows (F := Ideal) = Cert.ReferenceIdeal.Hand.zeroRows (F := Ideal) := rfl

theorem dstCol_eq (d : (⟨Cert.ReferenceIdeal.S1600000, .i32⟩ : BufTy).Contents (Elt Ideal)) :
    Cert.KernelIdeal.Hand.dstCol (F := Ideal) d = Cert.ReferenceIdeal.Hand.dstCol (F := Ideal) d := rfl

/-- Widening the float format is the identity on the extended reals. -/
theorem widen_eq (v : FVec Ideal Cert.KernelIdeal.S1600000x64 .bf16) (h : FTy.bits .bf16 < FTy.bits .f32) :
    extf (F := Ideal) .f32 v h = v := rfl

theorem agg_eq (H : FVec Ideal Cert.ReferenceIdeal.S100000x64 .f32) (Wc : FVec Ideal Cert.ReferenceIdeal.S8x64x64 .f32)
    (s : (⟨Cert.ReferenceIdeal.S8x200000, .i32⟩ : BufTy).Contents (Elt Ideal))
    (d : (⟨Cert.ReferenceIdeal.S1600000, .i32⟩ : BufTy).Contents (Elt Ideal)) :
    Cert.KernelIdeal.Hand.aggK (F := Ideal) (labelArr H Wc : Cert.KernelIdeal.S8x100000x64.Idx → EReal) s d
      = Cert.ReferenceIdeal.Hand.aggR (F := Ideal) H Wc s d := by
  unfold Cert.KernelIdeal.Hand.aggK Cert.ReferenceIdeal.Hand.aggR
  rw [widen_eq, scatter_dims_eq, zeroRows_eq, dstCol_eq, messages_eq]

/-- One layer of the kernel program is one layer of the reference. -/
theorem layer_eq (H : FVec Ideal Cert.ReferenceIdeal.S100000x64 .f32) (Wr : FVec Ideal Cert.ReferenceIdeal.S64x64 .f32)
    (br : FVec Ideal Cert.ReferenceIdeal.S64 .f32) (Wc : FVec Ideal Cert.ReferenceIdeal.S8x64x64 .f32)
    (s : (⟨Cert.ReferenceIdeal.S8x200000, .i32⟩ : BufTy).Contents (Elt Ideal))
    (d : (⟨Cert.ReferenceIdeal.S1600000, .i32⟩ : BufTy).Contents (Elt Ideal)) :
    Cert.KernelIdeal.Hand.layerK H Wr br Wc s d = Cert.ReferenceIdeal.Hand.layerR (F := Ideal) H Wr br Wc s d := by
  unfold Cert.KernelIdeal.Hand.layerK Cert.ReferenceIdeal.Hand.layerR
  rw [agg_eq]
  refine Eq.symm ((host_relu_eq Cert.ReferenceIdeal.Gen.bcast_S_S100000x64 _ _).trans ?_)
  exact congrArg (fun a => reluSum a (Cert.ReferenceIdeal.Hand.aggR (F := Ideal) H Wc s d))
    (host_lin_eq Cert.ReferenceIdeal.Gen.bcast_S64_S1x64_1 Cert.ReferenceIdeal.Gen.bcast_S1x64_S100000x64_0_1
      Cert.KernelIdeal.Gen.shapeCasts_S64_S1x64 H Wr br)

/-- The kernel program's embedding is the reference's. -/
theorem emb_eq (x : FVec Ideal Cert.ReferenceIdeal.S100000x16 .f32) (W : FVec Ideal Cert.ReferenceIdeal.S16x64 .f32)
    (b : FVec Ideal Cert.ReferenceIdeal.S64 .f32) :
    Cert.KernelIdeal.Hand.embK x W b = Cert.ReferenceIdeal.Hand.embR (F := Ideal) x W b := by
  unfold Cert.KernelIdeal.Hand.embK Cert.ReferenceIdeal.Hand.embR
  exact (host_lin_eq Cert.ReferenceIdeal.Gen.bcast_S64_S1x64_1 Cert.ReferenceIdeal.Gen.bcast_S1x64_S100000x64_0_1
    Cert.KernelIdeal.Gen.shapeCasts_S64_S1x64 x W b).symm

end Cert.Bridge

end
-- ==== Proof.lean ====
/-
  The certificate of the relational graph network kernel against its reference.

  Both programs embed the node features, apply three message-passing layers and read out one number per graph.  In a layer
  the kernel program applies each label's weights to all node rows and then lets every edge read its row of its label's
  table, while the reference lets every edge read its node row and then applies the label's weights; an edge reads the same
  row either way, so the rows added into the target nodes are equal.  Everything else — the root linear stage, the bias,
  the clamp at zero, the pooling and the readout — is the same computation in both, the kernel program's products taken
  on operands passed through a change of float format, which is the identity on the extended reals.
  The three frames: the kernel program's two by the launch of its ten regions among the host stretches, the reference's by
  its run.  The idealization rewrote nothing.  The results are equal as extended reals for all inputs: the precondition
  is not used.
-/
import proofs.«150609_j14070312862201_2_alg».proof.Defs
import proofs.«150609_j14070312862201_2_alg».proof.Proof.Gen.Kernel
import proofs.«150609_j14070312862201_2_alg».proof.Proof.Gen.Kernel.Skeleton
import proofs.«150609_j14070312862201_2_alg».proof.Proof.Gen.Kernel.Launch
import proofs.«150609_j14070312862201_2_alg».proof.Proof.Gen.Kernel.Points
import proofs.«150609_j14070312862201_2_alg».proof.Proof.Gen.Kernel.Frame
import proofs.«150609_j14070312862201_2_alg».proof.Proof.Gen.KernelIdeal
import proofs.«150609_j14070312862201_2_alg».proof.Proof.Gen.KernelIdeal.Skeleton
import proofs.«150609_j14070312862201_2_alg».proof.Proof.Gen.KernelIdeal.Launch
import proofs.«150609_j14070312862201_2_alg».proof.Proof.Gen.KernelIdeal.Points
import proofs.«150609_j14070312862201_2_alg».proof.Proof.Gen.KernelIdeal.Frame
import proofs.«150609_j14070312862201_2_alg».proof.Proof.Gen.ReferenceIdeal
import proofs.«150609_j14070312862201_2_alg».proof.Proof.Gen.ReferenceIdeal.Run
import proofs.«150609_j14070312862201_2_alg».proof.Proof.Gen.ReferenceIdeal.Read
import proofs.«150609_j14070312862201_2_alg».proof.Proof.Gen.Pre_finite_inputs
import proofs.«150609_j14070312862201_2_alg».proof.Proof.KernelRun
import proofs.«150609_j14070312862201_2_alg».proof.Proof.KernelChain
import proofs.«150609_j14070312862201_2_alg».proof.Proof.ReferenceValue
import proofs.«150609_j14070312862201_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- From memories that agree on the twelve arguments the two programs' results are one array: layer by layer the kernel
    program's node rows are the reference's, and the readout is one function. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Hand.readout (Cert.ReferenceIdeal.Hand.rows3 m' c)
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
      = Cert.KernelIdeal.Hand.readout (Cert.KernelIdeal.Hand.rowsK3 m c)
        (m ((c.tc : Thread Cert.KernelIdeal.nD Cert.KernelIdeal.τ).loc Cert.KernelIdeal.main_arg2))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11)) := by
  obtain ⟨h0, h1, h2, h3, h4, h5, h6, h7, h8, h9, h10, h11⟩ := h
  unfold Cert.ReferenceIdeal.Hand.rows3 Cert.ReferenceIdeal.Hand.rows2 Cert.ReferenceIdeal.Hand.rows1 Cert.ReferenceIdeal.Hand.rows0
    Cert.KernelIdeal.Hand.rowsK3 Cert.KernelIdeal.Hand.rowsK2 Cert.KernelIdeal.Hand.rowsK1 Cert.KernelIdeal.Hand.rowsK0
  rw [h0, h1, h2, h3, h4, h5, h6, h7, h8, h9, h10, h11]
  simp only [Cert.Bridge.layer_eq, Cert.Bridge.emb_eq]
  rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs run, and from memories agreeing on the arguments they end with one result array. -/
theorem algebraic : Cert.algebraic_KernelIdeal_ReferenceIdeal := by
  intro m ρ m' ρ' _ hagree
  refine ⟨fun c => Cert.KernelIdeal.Gen.W23 m ρ c (Proc.devRef .tc Cert.KernelIdeal.main_v94),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W23 m ρ c (Proc.devRef .tc Cert.KernelIdeal.main_v94)
  rw [Cert.ReferenceIdeal.Hand.result_eq, Cert.KernelIdeal.Hand.result_eq]
  exact value_eq m m' c (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
